-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S1024x1024 .f32) (main_arg15 : FVec F S1024 .f32) (main_arg16 : FVec F S1024 .f32) (main_arg17 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024x1024 .f32) (main_arg12 : FVec F S1024x1024 .f32) (main_arg13 : FVec F S1024x1024 .f32) (main_arg14 : FVec F S1024x1024 .f32) (main_arg15 : FVec F S1024 .f32) (main_arg16 : FVec F S1024 .f32) (main_arg17 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_arg14 : FVec F S1024x1024 .f32) (main_arg15 : FVec F S1024 .f32) (main_arg16 : FVec F S1024 .f32) (main_arg17 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_arg14 : FVec F S1024x1024 .f32) (main_arg15 : FVec F S1024 .f32) (main_arg16 : FVec F S1024 .f32) (main_arg17 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8x1024x1024 .f32) (main_arg1 : FVec F S8x1024x1024 .f32) (main_arg2 : FVec F S8x1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_arg14 : FVec F S1024x1024 .f32) (main_arg15 : FVec F S1024 .f32) (main_arg16 : FVec F S1024 .f32) (main_arg17 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8x1024x1024 : Shape := ⟨3, ![8, 1024, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S8x1024x6144 : Shape := ⟨3, ![8, 1024, 6144]⟩
abbrev S1x256x1024 : Shape := ⟨3, ![1, 256, 1024]⟩
abbrev S1x256x6144 : Shape := ⟨3, ![1, 256, 6144]⟩
abbrev S256x1024 : Shape := ⟨2, ![256, 1024]⟩
abbrev S256 : Shape := ⟨1, ![256]⟩
abbrev S256x1 : Shape := ⟨2, ![256, 1]⟩

abbrev nBuf : Space → Nat
  | .hbm => 61
  | .vmem => 71
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S8x1024x1024, .bf16⟩
  | .hbm, ⟨19, _⟩ => ⟨S8x1024x1024, .bf16⟩
  | .hbm, ⟨20, _⟩ => ⟨S8x1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1x1024, .f32⟩
  | .hbm, ⟨30, _⟩ => ⟨S8x1024x1024, .bf16⟩
  | .hbm, ⟨31, _⟩ => ⟨S8x1024x1024, .bf16⟩
  | .hbm, ⟨32, _⟩ => ⟨S8x1024x1024, .bf16⟩
  | .hbm, ⟨33, _⟩ => ⟨S8x1024x1024, .bf16⟩
  | .hbm, ⟨34, _⟩ => ⟨S1024x1024, .f32⟩
  | .hbm, ⟨35, _⟩ => ⟨S1024x1024, .bf16⟩
  | .hbm, ⟨36, _⟩ => ⟨S1024x1024, .f32⟩
  | .hbm, ⟨37, _⟩ => ⟨S1024x1024, .bf16⟩
  | .hbm, ⟨38, _⟩ => ⟨S1024x1024, .f32⟩
  | .hbm, ⟨39, _⟩ => ⟨S1024x1024, .bf16⟩
  | .hbm, ⟨40, _⟩ => ⟨S1024x1024, .f32⟩
  | .hbm, ⟨41, _⟩ => ⟨S1024x1024, .bf16⟩
  | .hbm, ⟨42, _⟩ => ⟨S1x1024, .f32⟩
  | .hbm, ⟨43, _⟩ => ⟨S8x1024x1024, .bf16⟩
  | .hbm, ⟨44, _⟩ => ⟨S8x1024x1024, .bf16⟩
  | .hbm, ⟨45, _⟩ => ⟨S8x1024x1024, .bf16⟩
  | .hbm, ⟨46, _⟩ => ⟨S8x1024x1024, .bf16⟩
  | .hbm, ⟨47, _⟩ => ⟨S1024x1024, .f32⟩
  | .hbm, ⟨48, _⟩ => ⟨S1024x1024, .bf16⟩
  | .hbm, ⟨49, _⟩ => ⟨S1024x1024, .f32⟩
  | .hbm, ⟨50, _⟩ => ⟨S1024x1024, .bf16⟩
  | .hbm, ⟨51, _⟩ => ⟨S1024x1024, .f32⟩
  | .hbm, ⟨52, _⟩ => ⟨S1024x1024, .bf16⟩
  | .hbm, ⟨53, _⟩ => ⟨S1024x1024, .f32⟩
  | .hbm, ⟨54, _⟩ => ⟨S1024x1024, .bf16⟩
  | .hbm, ⟨55, _⟩ => ⟨S1x1024, .f32⟩
  | .hbm, ⟨56, _⟩ => ⟨S8x1024x1024, .bf16⟩
  | .hbm, ⟨57, _⟩ => ⟨S8x1024x1024, .bf16⟩
  | .hbm, ⟨58, _⟩ => ⟨S8x1024x1024, .bf16⟩
  | .hbm, ⟨59, _⟩ => ⟨S8x1024x1024, .bf16⟩
  | .hbm, ⟨60, _⟩ => ⟨S8x1024x6144, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x1024x1024, .bf16⟩
  | .local _ .vmem, ⟨25, _⟩ => ⟨S1x1024x1024, .bf16⟩
  | .local _ .vmem, ⟨26, _⟩ => ⟨S1x1024x1024, .bf16⟩
  | .local _ .vmem, ⟨27, _⟩ => ⟨S1x1024x1024, .bf16⟩
  | .local _ .vmem, ⟨28, _⟩ => ⟨S1x1024x1024, .bf16⟩
  | .local _ .vmem, ⟨29, _⟩ => ⟨S1x1024x1024, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1024x1024, .bf16⟩
  | .local _ .vmem, ⟨33, _⟩ => ⟨S1x1024, .f32⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1x1024x1024, .bf16⟩
  | .local _ .vmem, ⟨38, _⟩ => ⟨S1x1024x1024, .bf16⟩
  | .local _ .vmem, ⟨39, _⟩ => ⟨S1x1024x1024, .bf16⟩
  | .local _ .vmem, ⟨40, _⟩ => ⟨S1x1024x1024, .bf16⟩
  | .local _ .vmem, ⟨41, _⟩ => ⟨S1x1024x1024, .bf16⟩
  | .local _ .vmem, ⟨42, _⟩ => ⟨S1x1024x1024, .bf16⟩
  | .local _ .vmem, ⟨43, _⟩ => ⟨S1x1024x1024, .bf16⟩
  | .local _ .vmem, ⟨44, _⟩ => ⟨S1x1024x1024, .bf16⟩
  | .local _ .vmem, ⟨45, _⟩ => ⟨S1x256x1024, .bf16⟩
  | .local _ .vmem, ⟨46, _⟩ => ⟨S1x256x1024, .bf16⟩
  | .local _ .vmem, ⟨47, _⟩ => ⟨S1x256x1024, .bf16⟩
  | .local _ .vmem, ⟨48, _⟩ => ⟨S1x256x1024, .bf16⟩
  | .local _ .vmem, ⟨49, _⟩ => ⟨S1x256x1024, .bf16⟩
  | .local _ .vmem, ⟨50, _⟩ => ⟨S1x256x1024, .bf16⟩
  | .local _ .vmem, ⟨51, _⟩ => ⟨S1x1024x1024, .bf16⟩
  | .local _ .vmem, ⟨52, _⟩ => ⟨S1x1024x1024, .bf16⟩
  | .local _ .vmem, ⟨53, _⟩ => ⟨S1x1024x1024, .bf16⟩
  | .local _ .vmem, ⟨54, _⟩ => ⟨S1x1024x1024, .bf16⟩
  | .local _ .vmem, ⟨55, _⟩ => ⟨S1x1024x1024, .bf16⟩
  | .local _ .vmem, ⟨56, _⟩ => ⟨S1x1024x1024, .bf16⟩
  | .local _ .vmem, ⟨57, _⟩ => ⟨S1x1024x1024, .bf16⟩
  | .local _ .vmem, ⟨58, _⟩ => ⟨S1x1024x1024, .bf16⟩
  | .local _ .vmem, ⟨59, _⟩ => ⟨S1x1024x1024, .bf16⟩
  | .local _ .vmem, ⟨60, _⟩ => ⟨S1x1024x1024, .bf16⟩
  | .local _ .vmem, ⟨61, _⟩ => ⟨S1x1024x1024, .bf16⟩
  | .local _ .vmem, ⟨62, _⟩ => ⟨S1x1024x1024, .bf16⟩
  | .local _ .vmem, ⟨63, _⟩ => ⟨S1x256x1024, .bf16⟩
  | .local _ .vmem, ⟨64, _⟩ => ⟨S1x256x1024, .bf16⟩
  | .local _ .vmem, ⟨65, _⟩ => ⟨S1x256x1024, .bf16⟩
  | .local _ .vmem, ⟨66, _⟩ => ⟨S1x256x1024, .bf16⟩
  | .local _ .vmem, ⟨67, _⟩ => ⟨S1x256x1024, .bf16⟩
  | .local _ .vmem, ⟨68, _⟩ => ⟨S1x256x1024, .bf16⟩
  | .local _ .vmem, ⟨69, _⟩ => ⟨S1x256x6144, .f32⟩
  | .local _ .vmem, ⟨70, _⟩ => ⟨S1x256x6144, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v22_2 : Ref sig .tc := ⟨.hbm, 45, rfl⟩
abbrev main_v22_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev main_v32_3 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg6_1 : Ref sig .tc := ⟨.vmem, 38, rfl⟩
abbrev cc2_stg7_0 : Ref sig .tc := ⟨.vmem, 39, rfl⟩
abbrev cc2_stg7_1 : Ref sig .tc := ⟨.vmem, 40, rfl⟩
abbrev cc2_stg8_0 : Ref sig .tc := ⟨.vmem, 41, rfl⟩
abbrev cc2_stg8_1 : Ref sig .tc := ⟨.vmem, 42, rfl⟩
abbrev cc2_stg9_0 : Ref sig .tc := ⟨.vmem, 43, rfl⟩
abbrev cc2_stg9_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg4_1 : Ref sig .tc := ⟨.vmem, 54, rfl⟩
abbrev cc3_stg5_0 : Ref sig .tc := ⟨.vmem, 55, rfl⟩
abbrev cc3_stg5_1 : Ref sig .tc := ⟨.vmem, 56, rfl⟩
abbrev cc3_stg6_0 : Ref sig .tc := ⟨.vmem, 57, rfl⟩
abbrev cc3_stg6_1 : Ref sig .tc := ⟨.vmem, 58, rfl⟩
abbrev cc3_stg7_0 : Ref sig .tc := ⟨.vmem, 59, rfl⟩
abbrev cc3_stg7_1 : Ref sig .tc := ⟨.vmem, 60, rfl⟩
abbrev cc3_stg8_0 : Ref sig .tc := ⟨.vmem, 61, rfl⟩
abbrev cc3_stg8_1 : Ref sig .tc := ⟨.vmem, 62, rfl⟩
abbrev cc3_stg9_0 : Ref sig .tc := ⟨.vmem, 63, rfl⟩
abbrev cc3_stg9_1 : Ref sig .tc := ⟨.vmem, 64, rfl⟩
abbrev cc3_stg10_0 : Ref sig .tc := ⟨.vmem, 65, rfl⟩
abbrev cc3_stg10_1 : Ref sig .tc := ⟨.vmem, 66, rfl⟩
abbrev cc3_stg11_0 : Ref sig .tc := ⟨.vmem, 67, rfl⟩
abbrev cc3_stg11_1 : Ref sig .tc := ⟨.vmem, 68, rfl⟩
abbrev cc3_stg12_0 : Ref sig .tc := ⟨.vmem, 69, rfl⟩
abbrev cc3_stg12_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem6_1 : DmaSem sig := 38
abbrev cc2_sem7_0 : DmaSem sig := 39
abbrev cc2_sem7_1 : DmaSem sig := 40
abbrev cc2_sem8_0 : DmaSem sig := 41
abbrev cc2_sem8_1 : DmaSem sig := 42
abbrev cc2_sem9_0 : DmaSem sig := 43
abbrev cc2_sem9_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem3_1 : DmaSem sig := 52
abbrev cc3_sem4_0 : DmaSem sig := 53
abbrev cc3_sem4_1 : DmaSem sig := 54
abbrev cc3_sem5_0 : DmaSem sig := 55
abbrev cc3_sem5_1 : DmaSem sig := 56
abbrev cc3_sem6_0 : DmaSem sig := 57
abbrev cc3_sem6_1 : DmaSem sig := 58
abbrev cc3_sem7_0 : DmaSem sig := 59
abbrev cc3_sem7_1 : DmaSem sig := 60
abbrev cc3_sem8_0 : DmaSem sig := 61
abbrev cc3_sem8_1 : DmaSem sig := 62
abbrev cc3_sem9_0 : DmaSem sig := 63
abbrev cc3_sem9_1 : DmaSem sig := 64
abbrev cc3_sem10_0 : DmaSem sig := 65
abbrev cc3_sem10_1 : DmaSem sig := 66
abbrev cc3_sem11_0 : DmaSem sig := 67
abbrev cc3_sem11_1 : DmaSem sig := 68
abbrev cc3_sem12_0 : DmaSem sig := 69
abbrev cc3_sem12_1 : DmaSem sig := 70

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1024x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x1024x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1024x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1024x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1024x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_11 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_12 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1024x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x1024x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S1x1024x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x1024x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S1x256x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x256x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S1x256x1024 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S1x256x6144 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1x256x6144_S1x256x1024_0_0_0 : ∀ a, (![0, 0, 0] : Fin 3 → Nat) a + S1x256x1024.size a ≤ S1x256x6144.size a
  shapeCasts_S256x1024_S1x256x1024 : S256x1024.ShapeCasts S1x256x1024
  inb_S1x256x6144_S1x256x1024_0_0_1024 : ∀ a, (![0, 0, 1024] : Fin 3 → Nat) a + S1x256x1024.size a ≤ S1x256x6144.size a
  inb_S1x256x6144_S1x256x1024_0_0_2048 : ∀ a, (![0, 0, 2048] : Fin 3 → Nat) a + S1x256x1024.size a ≤ S1x256x6144.size a
  inb_S1x256x6144_S1x256x1024_0_0_3072 : ∀ a, (![0, 0, 3072] : Fin 3 → Nat) a + S1x256x1024.size a ≤ S1x256x6144.size a
  inb_S1x256x6144_S1x256x1024_0_0_4096 : ∀ a, (![0, 0, 4096] : Fin 3 → Nat) a + S1x256x1024.size a ≤ S1x256x6144.size a
  inb_S1x256x6144_S1x256x1024_0_0_5120 : ∀ a, (![0, 0, 5120] : Fin 3 → Nat) a + S1x256x1024.size a ≤ S1x256x6144.size a
  dot_S1024x1024_S1024x1024_S1024x1024_1_0_0_1_n_n_wf : DotDims.WF S1024x1024 S1024x1024 S1024x1024 [1] [0] [0] [1] [] []
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .bf16 = 32 ∨ (Rect.block (s := S8x1024x1024) S1x1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S8x1024x1024.size a
  hwx0_6 : ∀ i : grid0.Coords, EltTy.bits .bf16 = 32 ∨ (Rect.block (s := S8x1024x1024) S1x1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S8x1024x1024.size a
  hwx0_7 : ∀ i : grid0.Coords, EltTy.bits .bf16 = 32 ∨ (Rect.block (s := S8x1024x1024) S1x1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1024.size a ≤ S8x1024x1024.size a
  hwx0_8 : ∀ i : grid0.Coords, EltTy.bits .bf16 = 32 ∨ (Rect.block (s := S8x1024x1024) S1x1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1024.size a ≤ S8x1024x1024.size a
  hwx0_9 : ∀ i : grid0.Coords, EltTy.bits .bf16 = 32 ∨ (Rect.block (s := S8x1024x1024) S1x1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x1024x1024.size a
  hwx1_0 : ∀ i : grid1.Coords, EltTy.bits .bf16 = 32 ∨ (Rect.block (s := S8x1024x1024) S1x1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1024.size a ≤ S8x1024x1024.size a
  hwx1_6 : ∀ i : grid1.Coords, EltTy.bits .bf16 = 32 ∨ (Rect.block (s := S8x1024x1024) S1x1024x1024.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x1024.size a ≤ S8x1024x1024.size a
  hwx1_7 : ∀ i : grid1.Coords, EltTy.bits .bf16 = 32 ∨ (Rect.block (s := S8x1024x1024) S1x1024x1024.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1024x1024.size a ≤ S8x1024x1024.size a
  hwx1_8 : ∀ i : grid1.Coords, EltTy.bits .bf16 = 32 ∨ (Rect.block (s := S8x1024x1024) S1x1024x1024.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1024x1024.size a ≤ S8x1024x1024.size a
  hwx1_9 : ∀ i : grid1.Coords, EltTy.bits .bf16 = 32 ∨ (Rect.block (s := S8x1024x1024) S1x1024x1024.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x1024x1024.size a
  hwx2_0 : ∀ i : grid2.Coords, EltTy.bits .bf16 = 32 ∨ (Rect.block (s := S8x1024x1024) S1x1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .bf16 = 32 ∨ (Rect.block (s := S1024x1024) S1024x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .bf16 = 32 ∨ (Rect.block (s := S1024x1024) S1024x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x1024.size a ≤ S8x1024x1024.size a
  hwx2_6 : ∀ i : grid2.Coords, EltTy.bits .bf16 = 32 ∨ (Rect.block (s := S8x1024x1024) S1x1024x1024.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1024x1024.size a ≤ S8x1024x1024.size a
  hwx2_7 : ∀ i : grid2.Coords, EltTy.bits .bf16 = 32 ∨ (Rect.block (s := S8x1024x1024) S1x1024x1024.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1024x1024.size a ≤ S8x1024x1024.size a
  hwx2_8 : ∀ i : grid2.Coords, EltTy.bits .bf16 = 32 ∨ (Rect.block (s := S8x1024x1024) S1x1024x1024.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1024x1024.size a ≤ S8x1024x1024.size a
  hwx2_9 : ∀ i : grid2.Coords, EltTy.bits .bf16 = 32 ∨ (Rect.block (s := S8x1024x1024) S1x1024x1024.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S8x1024x1024.size a
  hwx3_0 : ∀ i : grid3.Coords, EltTy.bits .bf16 = 32 ∨ (Rect.block (s := S8x1024x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x1024.size a ≤ S8x1024x1024.size a
  hwx3_1 : ∀ i : grid3.Coords, EltTy.bits .bf16 = 32 ∨ (Rect.block (s := S8x1024x1024) S1x256x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x1024.size a ≤ S8x1024x1024.size a
  hwx3_2 : ∀ i : grid3.Coords, EltTy.bits .bf16 = 32 ∨ (Rect.block (s := S8x1024x1024) S1x256x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x1024.size a ≤ S8x1024x1024.size a
  hwx3_3 : ∀ i : grid3.Coords, EltTy.bits .bf16 = 32 ∨ (Rect.block (s := S8x1024x1024) S1x1024x1024.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024x1024.size a ≤ S8x1024x1024.size a
  hwx3_4 : ∀ i : grid3.Coords, EltTy.bits .bf16 = 32 ∨ (Rect.block (s := S8x1024x1024) S1x1024x1024.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024x1024.size a ≤ S8x1024x1024.size a
  hwx3_5 : ∀ i : grid3.Coords, EltTy.bits .bf16 = 32 ∨ (Rect.block (s := S8x1024x1024) S1x1024x1024.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1024x1024.size a ≤ S8x1024x1024.size a
  hwx3_6 : ∀ i : grid3.Coords, EltTy.bits .bf16 = 32 ∨ (Rect.block (s := S8x1024x1024) S1x1024x1024.size (cc3_transform_6 i) (hinb3_6 i)).WholeWords (EltTy.packing .bf16)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x1024x1024.size a ≤ S8x1024x1024.size a
  hwx3_7 : ∀ i : grid3.Coords, EltTy.bits .bf16 = 32 ∨ (Rect.block (s := S8x1024x1024) S1x1024x1024.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1024x1024.size a ≤ S8x1024x1024.size a
  hwx3_8 : ∀ i : grid3.Coords, EltTy.bits .bf16 = 32 ∨ (Rect.block (s := S8x1024x1024) S1x1024x1024.size (cc3_transform_8 i) (hinb3_8 i)).WholeWords (EltTy.packing .bf16)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x256x1024.size a ≤ S8x1024x1024.size a
  hwx3_9 : ∀ i : grid3.Coords, EltTy.bits .bf16 = 32 ∨ (Rect.block (s := S8x1024x1024) S1x256x1024.size (cc3_transform_9 i) (hinb3_9 i)).WholeWords (EltTy.packing .bf16)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1x256x1024.size a ≤ S8x1024x1024.size a
  hwx3_10 : ∀ i : grid3.Coords, EltTy.bits .bf16 = 32 ∨ (Rect.block (s := S8x1024x1024) S1x256x1024.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1x256x1024.size a ≤ S8x1024x1024.size a
  hwx3_11 : ∀ i : grid3.Coords, EltTy.bits .bf16 = 32 ∨ (Rect.block (s := S8x1024x1024) S1x256x1024.size (cc3_transform_11 i) (hinb3_11 i)).WholeWords (EltTy.packing .bf16)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1x256x6144.size a ≤ S8x1024x6144.size a
  hwx3_12 : ∀ i : grid3.Coords, EltTy.bits .f32 = 32 ∨ (Rect.block (s := S8x1024x6144) S1x256x6144.size (cc3_transform_12 i) (hinb3_12 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1x1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_2) S1x1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_3) S1x1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22_0) S1x1024x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22_1) S1x1024x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_2) S1x1024x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v22_3) S1x1024x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v2) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32_0) S1x1024x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v32_1) S1x1024x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v32_2) S1x1024x1024.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v32_3) S1x1024x1024.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v12_1) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22_1) S1x256x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32_1) S1x256x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12_2) S1x1024x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22_2) S1x1024x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v32_2) S1x1024x1024.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v12_3) S1x1024x1024.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v22_3) S1x1024x1024.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v32_3) S1x1024x1024.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v12_0) S1x256x1024.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v22_0) S1x256x1024.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v32_0) S1x256x1024.size cc3_transform_11 reads3_11 false false 2 stage3_11 sem3_11
    hrank3 hreads3_11 hinb3_11 nbuf3_11 (Memref.isWhole_whole _) hwx3_11 hstage3_11

abbrev win3_12 : Pipeline.Window sig grid3 :=
  Pipeline.Window.ofSpec (Memref.whole main_v33) S1x256x6144.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x1024 : Shape := ⟨2, ![8, 1024]⟩
abbrev S8x1024x1 : Shape := ⟨3, ![8, 1024, 1]⟩
abbrev S8x1024x6144 : Shape := ⟨3, ![8, 1024, 6144]⟩

abbrev nBuf : Space → Nat
  | .hbm => 103
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S8x1024x1024, .f32⟩
  | .hbm, ⟨19, _⟩ => ⟨S1x1x1024, .f32⟩
  | .hbm, ⟨20, _⟩ => ⟨S8x1024x1024, .f32⟩
  | .hbm, ⟨21, _⟩ => ⟨S8x1024x1024, .f32⟩
  | .hbm, ⟨22, _⟩ => ⟨S_, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S1x1x1024, .f32⟩
  | .hbm, ⟨27, _⟩ => ⟨S8x1024x1024, .f32⟩
  | .hbm, ⟨28, _⟩ => ⟨S8x1024x1024, .f32⟩
  | .hbm, ⟨29, _⟩ => ⟨S_, .f32⟩
  | .hbm, ⟨30, _⟩ => ⟨S8x1024x1024, .f32⟩
  | .hbm, ⟨31, _⟩ => ⟨S8x1024x1024, .f32⟩
  | .hbm, ⟨32, _⟩ => ⟨S8x1024x1024, .f32⟩
  | .hbm, ⟨33, _⟩ => ⟨S1x1x1024, .f32⟩
  | .hbm, ⟨34, _⟩ => ⟨S8x1024x1024, .f32⟩
  | .hbm, ⟨35, _⟩ => ⟨S8x1024x1024, .f32⟩
  | .hbm, ⟨36, _⟩ => ⟨S_, .f32⟩
  | .hbm, ⟨37, _⟩ => ⟨S8x1024x1024, .f32⟩
  | .hbm, ⟨38, _⟩ => ⟨S8x1024x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | .hbm, ⟨42, _⟩ => ⟨S8x1024x1024, .f32⟩
  | .hbm, ⟨43, _⟩ => ⟨S8x1024x1024, .f32⟩
  | .hbm, ⟨44, _⟩ => ⟨S8x1024x1024, .f32⟩
  | .hbm, ⟨45, _⟩ => ⟨S8x1024x1024, .f32⟩
  | .hbm, ⟨46, _⟩ => ⟨S8x1024x1024, .f32⟩
  | .hbm, ⟨47, _⟩ => ⟨S8x1024x1024, .f32⟩
  | .hbm, ⟨48, _⟩ => ⟨S8x1024x1024, .f32⟩
  | .hbm, ⟨49, _⟩ => ⟨S8x1024x1024, .f32⟩
  | .hbm, ⟨50, _⟩ => ⟨S8x1024x1024, .f32⟩
  | .hbm, ⟨51, _⟩ => ⟨S8x1024x1024, .f32⟩
  | .hbm, ⟨52, _⟩ => ⟨S8x1024x1024, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | .hbm, ⟨56, _⟩ => ⟨S8x1024x1024, .f32⟩
  | .hbm, ⟨57, _⟩ => ⟨S_, .f32⟩
  | .hbm, ⟨58, _⟩ => ⟨S8x1024, .f32⟩
  | .hbm, ⟨59, _⟩ => ⟨S_, .f32⟩
  | .hbm, ⟨60, _⟩ => ⟨S8x1024, .f32⟩
  | .hbm, ⟨61, _⟩ => ⟨S8x1024, .f32⟩
  | .hbm, ⟨62, _⟩ => ⟨S8x1024x1, .f32⟩
  | .hbm, ⟨63, _⟩ => ⟨S8x1024x1024, .f32⟩
  | .hbm, ⟨64, _⟩ => ⟨S8x1024x1024, .f32⟩
  | .hbm, ⟨65, _⟩ => ⟨S8x1024x1024, .f32⟩
  | .hbm, ⟨66, _⟩ => ⟨S_, .f32⟩
  | .hbm, ⟨67, _⟩ => ⟨S8x1024, .f32⟩
  | .hbm, ⟨68, _⟩ => ⟨S8x1024x1, .f32⟩
  | .hbm, ⟨69, _⟩ => ⟨S8x1024x1024, .f32⟩
  | .hbm, ⟨70, _⟩ => ⟨S8x1024x1024, .f32⟩
  | .hbm, ⟨71, _⟩ => ⟨S8x1024x1024, .f32⟩
  | .hbm, ⟨72, _⟩ => ⟨S_, .f32⟩
  | .hbm, ⟨73, _⟩ => ⟨S8x1024, .f32⟩
  | .hbm, ⟨74, _⟩ => ⟨S_, .f32⟩
  | .hbm, ⟨75, _⟩ => ⟨S8x1024, .f32⟩
  | .hbm, ⟨76, _⟩ => ⟨S8x1024, .f32⟩
  | .hbm, ⟨77, _⟩ => ⟨S8x1024x1, .f32⟩
  | .hbm, ⟨78, _⟩ => ⟨S8x1024x1024, .f32⟩
  | .hbm, ⟨79, _⟩ => ⟨S8x1024x1024, .f32⟩
  | .hbm, ⟨80, _⟩ => ⟨S8x1024x1024, .f32⟩
  | .hbm, ⟨81, _⟩ => ⟨S_, .f32⟩
  | .hbm, ⟨82, _⟩ => ⟨S8x1024, .f32⟩
  | .hbm, ⟨83, _⟩ => ⟨S8x1024x1, .f32⟩
  | .hbm, ⟨84, _⟩ => ⟨S8x1024x1024, .f32⟩
  | .hbm, ⟨85, _⟩ => ⟨S8x1024x1024, .f32⟩
  | .hbm, ⟨86, _⟩ => ⟨S8x1024x1024, .f32⟩
  | .hbm, ⟨87, _⟩ => ⟨S_, .f32⟩
  | .hbm, ⟨88, _⟩ => ⟨S8x1024, .f32⟩
  | .hbm, ⟨89, _⟩ => ⟨S_, .f32⟩
  | .hbm, ⟨90, _⟩ => ⟨S8x1024, .f32⟩
  | .hbm, ⟨91, _⟩ => ⟨S8x1024, .f32⟩
  | .hbm, ⟨92, _⟩ => ⟨S8x1024x1, .f32⟩
  | .hbm, ⟨93, _⟩ => ⟨S8x1024x1024, .f32⟩
  | .hbm, ⟨94, _⟩ => ⟨S8x1024x1024, .f32⟩
  | .hbm, ⟨95, _⟩ => ⟨S8x1024x1024, .f32⟩
  | .hbm, ⟨96, _⟩ => ⟨S_, .f32⟩
  | .hbm, ⟨97, _⟩ => ⟨S8x1024, .f32⟩
  | .hbm, ⟨98, _⟩ => ⟨S8x1024x1, .f32⟩
  | .hbm, ⟨99, _⟩ => ⟨S8x1024x1024, .f32⟩
  | .hbm, ⟨100, _⟩ => ⟨S8x1024x1024, .f32⟩
  | .hbm, ⟨101, _⟩ => ⟨S8x1024x1024, .f32⟩
  | .hbm, ⟨102, _⟩ => ⟨S8x1024x6144, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_v33 : Ref sig .tc := ⟨.hbm, 58, rfl⟩
abbrev main_cst_0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_1 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_2 : Ref sig .tc := ⟨.hbm, 72, rfl⟩
abbrev main_v45 : Ref sig .tc := ⟨.hbm, 73, rfl⟩
abbrev main_cst_3 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_4 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_5 : Ref sig .tc := ⟨.hbm, 87, rfl⟩
abbrev main_v57 : Ref sig .tc := ⟨.hbm, 88, rfl⟩
abbrev main_cst_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  bcast_S_S8x1024x1024 : S_.BroadcastsInDim S8x1024x1024 (![] : Fin 0 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  concatenates_S8x1024x1024_S8x1024x1024_S8x1024x1024_S8x1024x1024_S8x1024x1024_S8x1024x1024_S8x1024x6144_d2 : Shape.Concatenates [S8x1024x1024, S8x1024x1024, S8x1024x1024, S8x1024x1024, S8x1024x1024, S8x1024x1024] S8x1024x6144 2
  dot_S8x1024x1024_S1024x1024_S8x1024x1024_2_1_01_0_n_n_wf : DotDims.WF S8x1024x1024 S1024x1024 S8x1024x1024 [2] [1] [0, 1] [0] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_2_1_1_2_0_0_wf : DotDims.WF S8x1024x1024 S8x1024x1024 S8x1024x1024 [2] [1] [1] [2] [0] [0]

variable [Facts₀]

def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.Spec.lean ====
/-
  Cross-modal attention over three modalities, as plain functions of indices on the extended reals.

  For each modality i the features are  f_i = max(x_i · Wp_iᵀ + bp_i, 0)  and  q_i, k_i, v_i = f_i · Wq_iᵀ, f_i · Wk_iᵀ, f_i · Wv_iᵀ.
  The three score arrays are sums of two products of a query row with a key row,
      s1 = q2·k1ᵀ + q3·k1ᵀ,   s2 = q1·k3ᵀ + q3·k2ᵀ,   s3 = q1·k3ᵀ + q2·k3ᵀ,
  each row is normalised by  exp(s − max s) / Σ exp(s − max s)  and multiplied into v1, v2, v3; the result lays the three
  products and f1, f2, f3 side by side along the last axis. One program forms s1 as (q2 + q3)·k1ᵀ; for real entries that
  is the same number (distributivity, which fails at ±∞ and so needs every entry real).
-/
import Idealize.ShloMosaic.PureOps.Ideal
import Idealize.ShloMosaic.PureOps.Ideal.Laws
import Idealize.ShloMosaic.Lib.ValueIdx
import proofs.«131838_j22488448762091_2_alg».proof.Proof.LibExtReals

noncomputable section

open scoped BigOperators

namespace Cert.Spec

open Idealize.ShloMosaic Idealize.ShloMosaic.ValueIdx

/-- The word of −∞, the start of a row maximum. -/
abbrev negInf : EReal := Ideal.ofBits .f32 0xFF800000#32
/-- The zero word. -/
abbrev zeroW : EReal := Ideal.ofBits .f32 0x00000000#32

/-- Being a real number. -/
def IsReal (x : EReal) : Prop := ∃ r : ℝ, x = (r : EReal)

/-! ## One row at a time -/

/-- The product of two rows: Σ_d u(d)·v(d). -/
def dot {n : Nat} (u v : Fin n → EReal) : EReal := ∑ d, u d * v d

/-- The largest entry of a row, from −∞. -/
def rmax {n : Nat} (s : Fin n → EReal) : EReal := (Finset.univ : Finset (Fin n)).fold max negInf s

/-- exp(s_j − max s). -/
def expo {n : Nat} (s : Fin n → EReal) (j : Fin n) : EReal := Ideal.exp (s j - rmax s)

/-- A row normalised: exp(s_j − max s) / Σ_j' exp(s_j' − max s). -/
def soft {n : Nat} (s : Fin n → EReal) (j : Fin n) : EReal := Ideal.div (expo s j) (∑ j', expo s j')

/-! ## The arrays -/

/-- [batch, row, feature] -/
abbrev T3 := Fin 8 → Fin 1024 → Fin 1024 → EReal
/-- a weight matrix [out, in] -/
abbrev T2 := Fin 1024 → Fin 1024 → EReal
/-- a bias [out] -/
abbrev T1 := Fin 1024 → EReal

/-- x · Wᵀ: entry (b, t, e) is the product of row (b, t) of x with row e of W. -/
def lin (x : T3) (W : T2) : T3 := fun b t e => dot (x b t) (W e)

/-- max(x · Wᵀ + bias, 0). -/
def pre (x : T3) (W : T2) (bias : T1) : T3 := fun b t e => max (lin x W b t e + bias e) zeroW

/-- Two products of a query row with a key row, added: qa·kaᵀ + qb·kbᵀ at (b, i, j). -/
def score2 (qa ka qb kb : T3) : T3 := fun b i j => dot (qa b i) (ka b j) + dot (qb b i) (kb b j)

/-- The same with a common key array, the queries added first: (qa + qb)·kᵀ. -/
def scoreSum (qa qb k : T3) : T3 := fun b i j => dot (fun d => qa b i d + qb b i d) (k b j)

/-- The normalised scores times the values: Σ_j soft(s(b,i,·))_j · v(b,j,e). -/
def att (s v : T3) : T3 := fun b i e => ∑ j, soft (s b i) j * v b j e

/-- Six [8,1024,1024] arrays side by side along the last axis: column c belongs to piece c / 1024, at c % 1024. -/
def cat6 (o : Fin 6 → T3) : Fin 8 → Fin 1024 → Fin 6144 → EReal := fun b i c =>
  o ⟨c.val / 1024, by have := c.isLt; omega⟩ b i ⟨c.val % 1024, Nat.mod_lt _ (by norm_num)⟩

theorem cat6_at (o : Fin 6 → T3) (b : Fin 8) (i : Fin 1024) (c : Fin 6144) (p : Fin 6) (e : Fin 1024)
    (hc : c.val = 1024 * p.val + e.val) : cat6 o b i c = o p b i e := by
  have hp : c.val / 1024 = p.val := by have := e.isLt; omega
  have he : c.val % 1024 = e.val := by have := e.isLt; omega
  have hk : (⟨c.val / 1024, by have := c.isLt; omega⟩ : Fin 6) = p := Fin.ext hp
  have hm : (⟨c.val % 1024, Nat.mod_lt _ (by norm_num)⟩ : Fin 1024) = e := Fin.ext he
  unfold cat6
  rw [hk, hm]

/-- Every column is 1024·p + e for one piece p and one e. -/
theorem col_split (c : Fin 6144) : ∃ (p : Fin 6) (e : Fin 1024), c.val = 1024 * p.val + e.val :=
  ⟨⟨c.val / 1024, by have := c.isLt; omega⟩, ⟨c.val % 1024, Nat.mod_lt _ (by norm_num)⟩, by
    show c.val = 1024 * (c.val / 1024) + c.val % 1024
    omega⟩

/-- The pieces of the result from the nine projected arrays, the scores given. -/
def pieces (s1 s2 s3 v1 v2 v3 f1 f2 f3 : T3) : Fin 6 → T3 := fun p =>
  match p with
  | ⟨0, _⟩ => att s1 v1
  | ⟨1, _⟩ => att s2 v2
  | ⟨2, _⟩ => att s3 v3
  | ⟨3, _⟩ => f1
  | ⟨4, _⟩ => f2
  | ⟨5, _⟩ => f3

/-- The result with s1 as two products added (the reference's way). -/
def resultR (q1 q2 q3 k1 k2 k3 v1 v2 v3 f1 f2 f3 : T3) : Fin 8 → Fin 1024 → Fin 6144 → EReal :=
  cat6 (pieces (score2 q2 k1 q3 k1) (score2 q1 k3 q3 k2) (score2 q1 k3 q2 k3) v1 v2 v3 f1 f2 f3)

/-- The result with s1 from the added queries (the kernel's way). -/
def resultK (q1 q2 q3 k1 k2 k3 v1 v2 v3 f1 f2 f3 : T3) : Fin 8 → Fin 1024 → Fin 6144 → EReal :=
  cat6 (pieces (scoreSum q2 q3 k1) (score2 q1 k3 q3 k2) (score2 q1 k3 q2 k3) v1 v2 v3 f1 f2 f3)

/-! ## Reals -/

theorem isReal_dot {n : Nat} (u v : Fin n → EReal) (hu : ∀ d, IsReal (u d)) (hv : ∀ d, IsReal (v d)) : IsReal (dot u v) :=
  Cert.Net.real_sum _ _ fun d => Cert.Net.real_mul (hu d) (hv d)

theorem isReal_lin (x : T3) (W : T2) (hx : ∀ b t d, IsReal (x b t d)) (hW : ∀ e d, IsReal (W e d)) (b : Fin 8) (t e : Fin 1024) :
    IsReal (lin x W b t e) := isReal_dot _ _ (hx b t) (hW e)

theorem isReal_pre (x : T3) (W : T2) (bias : T1) (hx : ∀ b t d, IsReal (x b t d)) (hW : ∀ e d, IsReal (W e d))
    (hb : ∀ e, IsReal (bias e)) (b : Fin 8) (t e : Fin 1024) : IsReal (pre x W bias b t e) := by
  unfold pre
  refine Cert.Net.real_max (Cert.Net.real_add (isReal_lin x W hx hW b t e) (hb e)) ⟨0, ?_⟩
  show Ideal.ofBits .f32 0x00000000#32 = _
  rw [Ideal.ofBits_zero_f32]; rfl

/-- For real rows, (u + v)·w = u·w + v·w. -/
theorem dot_add_left {n : Nat} (u v w : Fin n → EReal) (hu : ∀ d, IsReal (u d)) (hv : ∀ d, IsReal (v d))
    (hw : ∀ d, IsReal (w d)) : dot (fun d => u d + v d) w = dot u w + dot v w := by
  unfold dot
  rw [← Finset.sum_add_distrib]
  refine Finset.sum_congr rfl fun d _ => ?_
  show (u d + v d) * w d = u d * w d + v d * w d
  obtain ⟨a, ha⟩ := hu d
  obtain ⟨b, hb⟩ := hv d
  obtain ⟨c, hc⟩ := hw d
  rw [ha, hb, hc, ← EReal.coe_add, ← EReal.coe_mul, ← EReal.coe_mul, ← EReal.coe_mul, ← EReal.coe_add, add_mul]

/-- With real queries and keys the two ways of forming s1 agree. -/
theorem scoreSum_eq (qa qb k : T3) (ha : ∀ b t d, IsReal (qa b t d)) (hb : ∀ b t d, IsReal (qb b t d))
    (hk : ∀ b t d, IsReal (k b t d)) : scoreSum qa qb k = score2 qa k qb k := by
  funext b i j
  exact dot_add_left _ _ _ (ha b i) (hb b i) (hk b j)

theorem resultK_eq_resultR (q1 q2 q3 k1 k2 k3 v1 v2 v3 f1 f2 f3 : T3) (h2 : ∀ b t d, IsReal (q2 b t d))
    (h3 : ∀ b t d, IsReal (q3 b t d)) (hk : ∀ b t d, IsReal (k1 b t d)) :
    resultK q1 q2 q3 k1 k2 k3 v1 v2 v3 f1 f2 f3 = resultR q1 q2 q3 k1 k2 k3 v1 v2 v3 f1 f2 f3 := by
  unfold resultK resultR
  rw [scoreSum_eq q2 q3 k1 h2 h3 hk]

/-! ## From arrays to functions of coordinates and back -/

/-- An [a, b, c] array as a function of its three coordinates. -/
def cur3 {a b c : Nat} (x : (⟨3, ![a, b, c]⟩ : Shape).Idx → EReal) : Fin a → Fin b → Fin c → EReal := fun p q r => x (ix3 p q r)
/-- An [a, b] array as a function of its two coordinates. -/
def cur2 {a b : Nat} (x : (⟨2, ![a, b]⟩ : Shape).Idx → EReal) : Fin a → Fin b → EReal := fun p q => x (ix2 p q)
/-- An [a] array as a function of its coordinate. -/
def cur1 {a : Nat} (x : (⟨1, ![a]⟩ : Shape).Idx → EReal) : Fin a → EReal := fun p => x (ix1 p)
/-- A function of three coordinates as an [a, b, c] array. -/
def arr3 {a b c : Nat} (f : Fin a → Fin b → Fin c → EReal) : (⟨3, ![a, b, c]⟩ : Shape).Idx → EReal := fun i => f (i 0) (i 1) (i 2)

theorem arr3_ix3 {a b c : Nat} (f : Fin a → Fin b → Fin c → EReal) (p : Fin a) (q : Fin b) (r : Fin c) :
    arr3 f (ix3 p q r) = f p q r := rfl

theorem arr3_cur3 {a b c : Nat} (x : (⟨3, ![a, b, c]⟩ : Shape).Idx → EReal) : arr3 (cur3 x) = x :=
  funext fun i => (congrArg x (eq_ix3 i)).symm

/-! ## The whole computation from the eighteen argument arrays -/

section Whole
variable (x1 x2 x3 : T3) (Wp1 Wp2 Wp3 Wq1 Wk1 Wv1 Wq2 Wk2 Wv2 Wq3 Wk3 Wv3 : T2) (b1 b2 b3 : T1)

/-- The reference's way, from the arguments (in @main's order). -/
def wholeR : Fin 8 → Fin 1024 → Fin 6144 → EReal :=
  resultR (lin (pre x1 Wp1 b1) Wq1) (lin (pre x2 Wp2 b2) Wq2) (lin (pre x3 Wp3 b3) Wq3)
    (lin (pre x1 Wp1 b1) Wk1) (lin (pre x2 Wp2 b2) Wk2) (lin (pre x3 Wp3 b3) Wk3)
    (lin (pre x1 Wp1 b1) Wv1) (lin (pre x2 Wp2 b2) Wv2) (lin (pre x3 Wp3 b3) Wv3)
    (pre x1 Wp1 b1) (pre x2 Wp2 b2) (pre x3 Wp3 b3)

/-- The kernel's way, from the arguments (in @main's order). -/
def wholeK : Fin 8 → Fin 1024 → Fin 6144 → EReal :=
  resultK (lin (pre x1 Wp1 b1) Wq1) (lin (pre x2 Wp2 b2) Wq2) (lin (pre x3 Wp3 b3) Wq3)
    (lin (pre x1 Wp1 b1) Wk1) (lin (pre x2 Wp2 b2) Wk2) (lin (pre x3 Wp3 b3) Wk3)
    (lin (pre x1 Wp1 b1) Wv1) (lin (pre x2 Wp2 b2) Wv2) (lin (pre x3 Wp3 b3) Wv3)
    (pre x1 Wp1 b1) (pre x2 Wp2 b2) (pre x3 Wp3 b3)

/-- With every argument entry real, the two ways give one array. -/
theorem wholeK_eq_wholeR (hx1 : ∀ b t d, IsReal (x1 b t d)) (hx2 : ∀ b t d, IsReal (x2 b t d)) (hx3 : ∀ b t d, IsReal (x3 b t d))
    (hWp1 : ∀ e d, IsReal (Wp1 e d)) (hWp2 : ∀ e d, IsReal (Wp2 e d)) (hWp3 : ∀ e d, IsReal (Wp3 e d))
    (hWk1 : ∀ e d, IsReal (Wk1 e d)) (hWq2 : ∀ e d, IsReal (Wq2 e d)) (hWq3 : ∀ e d, IsReal (Wq3 e d))
    (hb1 : ∀ e, IsReal (b1 e)) (hb2 : ∀ e, IsReal (b2 e)) (hb3 : ∀ e, IsReal (b3 e)) :
    wholeK x1 x2 x3 Wp1 Wp2 Wp3 Wq1 Wk1 Wv1 Wq2 Wk2 Wv2 Wq3 Wk3 Wv3 b1 b2 b3
      = wholeR x1 x2 x3 Wp1 Wp2 Wp3 Wq1 Wk1 Wv1 Wq2 Wk2 Wv2 Wq3 Wk3 Wv3 b1 b2 b3 := by
  unfold wholeK wholeR
  exact resultK_eq_resultR _ _ _ _ _ _ _ _ _ _ _ _
    (fun b t d => isReal_lin _ _ (isReal_pre x2 Wp2 b2 hx2 hWp2 hb2) hWq2 b t d)
    (fun b t d => isReal_lin _ _ (isReal_pre x3 Wp3 b3 hx3 hWp3 hb3) hWq3 b t d)
    (fun b t d => isReal_lin _ _ (isReal_pre x1 Wp1 b1 hx1 hWp1 hb1) hWk1 b t d)

end Whole

end Cert.Spec

end
-- ==== Proof.KProj0.lean ====
/-
  One modality's projections, read off the pipelined program: for each batch b the program takes the block x[b] of the
  input, forms the features  f = max(x[b]·Wpᵀ + bias, 0)  (the weight arrives already transposed, so the product
  contracts the rows of the stored matrix) and the three products  f·Wqᵀ, f·Wkᵀ, f·Wvᵀ,  and writes each to block b
  of its output array. Here: each stored block at a coordinate as a sum over the contracted axis; each input block as
  the part of its array the grid point names; what a grid point writes back as the block of ONE function of the six
  input arrays; the eight blocks cover the output; so each output array after the region is that function.
-/
import proofs.«131838_j22488448762091_2_alg».proof.Proof.Gen.KernelIdeal.Frame
import proofs.«131838_j22488448762091_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KProj0

open Cert.KernelIdeal Cert.KernelIdeal.Gen Idealize.ShloMosaic Idealize.ShloMosaic.TcCoe Idealize.ShloMosaic.ValueIdx Idealize.SL.Sem
open Idealize.ShloMosaic.Pipeline (Dat)

/-! ## A stored block at a coordinate -/

/-- The left operand's row coordinate is the output's row coordinate. -/
theorem lhs_row (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The right operand's column coordinate is the output's column coordinate. -/
theorem rhs_col (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024,1024]·[1024,1024] product into the zero accumulator at (p, e): Σ_d l(p,d)·r(d,e). -/
theorem prod_apply (l r : FVec Ideal S1024x1024 .bf16) (p e : Fin 1024) :
    matmul dot_S1024x1024_S1024x1024_S1024x1024_1_0_0_1_n_n none l r (constant (F := Ideal) S1024x1024 .f32 0x00000000#32) (ix2 p e)
      = ∑ d : Fin 1024, l (ix2 p d) * r (ix2 d e) := by
  refine (Ideal.matmul_constant_zero_apply dot_S1024x1024_S1024x1024_S1024x1024_1_0_0_1_n_n none l r (ix2 p e)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p e) ((contrEquiv1 dot_S1024x1024_S1024x1024_S1024x1024_1_0_0_1_n_n 1024 rfl rfl).symm k) = ix2 p k :=
    funext fun a => Fin.ext (by
      match a with
      | ⟨0, _⟩ => exact lhs_row (ix2 p e) _
      | ⟨1, _⟩ => exact (dot_S1024x1024_S1024x1024_S1024x1024_1_0_0_1_n_n.lhsIdx_val_of_single rfl (ix2 p e) _).trans hk)
  have er : dot_S1024x1024_S1024x1024_S1024x1024_1_0_0_1_n_n.rhsIdx (ix2 p e) ((contrEquiv1 dot_S1024x1024_S1024x1024_S1024x1024_1_0_0_1_n_n 1024 rfl rfl).symm k) = ix2 k e :=
    funext fun a => Fin.ext (by
      match a with
      | ⟨0, _⟩ => exact (dot_S1024x1024_S1024x1024_S1024x1024_1_0_0_1_n_n.rhsIdx_val_of_single rfl (ix2 p e) _).trans hk
      | ⟨1, _⟩ => exact rhs_col (ix2 p e) _)
  rw [el, er]

/-- The features before they are stored: max(Σ_d x(0,p,d)·w(d,e) + b(0,e), 0). -/
theorem feat_apply (x0 : Vec Ideal S1x1024x1024 .bf16) (x1 : Vec Ideal S1024x1024 .bf16) (x2 : Vec Ideal S1x1024 .f32) (p e : Fin 1024) :
    k0_pay2 x0 x1 x2 (ix2 p e)
      = max ((∑ d : Fin 1024, x0 (ix3 (0 : Fin 1) p d) * x1 (ix2 d e)) + x2 (ix2 (0 : Fin 1) e)) (Ideal.ofBits .f32 0x00000000#32) := by
  unfold k0_pay2
  refine congrArg₂ max (congrArg₂ (· + ·) ?_ ?_) rfl
  · refine (prod_apply _ _ p e).trans ?_
    refine Finset.sum_congr rfl fun d _ => ?_
    refine congrArg₂ (· * ·) ?_ ?_
    · exact shapeCast_1ab_ab_apply x0 _ p d
    · exact congrFun (shapeCast_self x1 _) _
  · refine (broadcastTo_1b_ab_apply _ _ p e).trans ?_
    exact congrFun (shapeCast_self x2 _) _

/-- The features stored: the same number at (0, p, e) of the [1,1024,1024] block. -/
theorem featStore_apply (x0 : Vec Ideal S1x1024x1024 .bf16) (x1 : Vec Ideal S1024x1024 .bf16) (x2 : Vec Ideal S1x1024 .f32) (u : Fin 1) (p e : Fin 1024) :
    k0_pay3 x0 x1 x2 (ix3 u p e)
      = max ((∑ d : Fin 1024, x0 (ix3 (0 : Fin 1) p d) * x1 (ix2 d e)) + x2 (ix2 (0 : Fin 1) e)) (Ideal.ofBits .f32 0x00000000#32) := by
  unfold k0_pay3
  refine (shapeCast_ab_1ab_apply _ _ u p e).trans ?_
  exact feat_apply x0 x1 x2 p e

/-- The features as the left operand of the three later products. -/
theorem featOperand_apply (x0 : Vec Ideal S1x1024x1024 .bf16) (x1 : Vec Ideal S1024x1024 .bf16) (x2 : Vec Ideal S1x1024 .f32) (p e : Fin 1024) :
    k0_pay4 x0 x1 x2 (ix2 p e)
      = max ((∑ d : Fin 1024, x0 (ix3 (0 : Fin 1) p d) * x1 (ix2 d e)) + x2 (ix2 (0 : Fin 1) e)) (Ideal.ofBits .f32 0x00000000#32) := by
  unfold k0_pay4
  exact feat_apply x0 x1 x2 p e

/-- A product of a left operand f with a weight, stored at (0, p, e): Σ_d f(p,d)·w(d,e). -/
theorem proj_apply (f : FVec Ideal S1024x1024 .bf16) (w : Vec Ideal S1024x1024 .bf16) (u : Fin 1) (p e : Fin 1024) :
    k0_pay1 f w (ix3 u p e) = ∑ d : Fin 1024, f (ix2 p d) * w (ix2 d e) := by
  unfold k0_pay1
  refine (shapeCast_ab_1ab_apply _ _ u p e).trans ?_
  refine (prod_apply _ _ p e).trans ?_
  refine Finset.sum_congr rfl fun d _ => ?_
  exact congrArg (f (ix2 p d) * ·) (congrFun (shapeCast_self w _) _)

/-- The first product of the features with a weight, stored at (0, p, e). -/
theorem projFirst_apply (x0 : Vec Ideal S1x1024x1024 .bf16) (x1 : Vec Ideal S1024x1024 .bf16) (x2 : Vec Ideal S1x1024 .f32) (w : Vec Ideal S1024x1024 .bf16) (u : Fin 1) (p e : Fin 1024) :
    k0_pay5 x0 x1 x2 w (ix3 u p e) = ∑ d : Fin 1024, k0_pay4 x0 x1 x2 (ix2 p d) * w (ix2 d e) := by
  unfold k0_pay5
  refine (shapeCast_ab_1ab_apply _ _ u p e).trans ?_
  refine (prod_apply _ _ p e).trans ?_
  refine Finset.sum_congr rfl fun d _ => ?_
  exact congrArg (k0_pay4 x0 x1 x2 (ix2 p d) * ·) (congrFun (shapeCast_self w _) _)

/-- The second product of the features with a weight, stored at (0, p, e). -/
theorem projSecond_apply (x0 : Vec Ideal S1x1024x1024 .bf16) (x1 : Vec Ideal S1024x1024 .bf16) (x2 : Vec Ideal S1x1024 .f32) (w : Vec Ideal S1024x1024 .bf16) (u : Fin 1) (p e : Fin 1024) :
    k0_pay6 x0 x1 x2 w (ix3 u p e) = ∑ d : Fin 1024, k0_pay4 x0 x1 x2 (ix2 p d) * w (ix2 d e) := by
  unfold k0_pay6
  refine (shapeCast_ab_1ab_apply _ _ u p e).trans ?_
  refine (prod_apply _ _ p e).trans ?_
  refine Finset.sum_congr rfl fun d _ => ?_
  exact congrArg (k0_pay4 x0 x1 x2 (ix2 p d) * ·) (congrFun (shapeCast_self w _) _)

/-! ## A stored block as a block of the whole-array functions

  The block of x is batch b of an [8,1024,1024] array X; the weights and the bias are whole arrays. -/

section Blocks
variable (x0 : Vec Ideal S1x1024x1024 .bf16) (x1 : Vec Ideal S1024x1024 .bf16) (x2 : Vec Ideal S1x1024 .f32)
  (X : S8x1024x1024.Idx → EReal) (W : S1024x1024.Idx → EReal) (B : S1x1024.Idx → EReal) (b : Fin 8)
  (hx : ∀ (u : Fin 1) (p d : Fin 1024), x0 (ix3 u p d) = X (ix3 b p d))
  (hw : ∀ d e : Fin 1024, x1 (ix2 d e) = W (ix2 d e))
  (hb : ∀ e : Fin 1024, x2 (ix2 (0 : Fin 1) e) = B (ix2 (0 : Fin 1) e))
include hx hw hb

/-- The features as the later products read them, at row p of batch b. -/
theorem block_featOperand (p e : Fin 1024) :
    k0_pay4 x0 x1 x2 (ix2 p e)
      = Cert.Spec.pre (Cert.Spec.cur3 X) (fun e d => W (ix2 d e)) (fun e => B (ix2 (0 : Fin 1) e)) b p e := by
  refine (featOperand_apply x0 x1 x2 p e).trans ?_
  show _ = max ((∑ d : Fin 1024, X (ix3 b p d) * W (ix2 d e)) + B (ix2 (0 : Fin 1) e)) (Ideal.ofBits .f32 0x00000000#32)
  rw [hb e]
  refine congrArg (fun s => max (s + B (ix2 (0 : Fin 1) e)) (Ideal.ofBits .f32 0x00000000#32)) ?_
  exact Finset.sum_congr rfl fun d _ => by rw [hx 0 p d, hw d e]

/-- The stored features are block b of max(X·Wpᵀ + bias, 0). -/
theorem block_feat (u : Fin 1) (p e : Fin 1024) :
    k0_pay3 x0 x1 x2 (ix3 u p e)
      = Cert.Spec.pre (Cert.Spec.cur3 X) (fun e d => W (ix2 d e)) (fun e => B (ix2 (0 : Fin 1) e)) b p e := by
  refine (featStore_apply x0 x1 x2 u p e).trans ?_
  exact (featOperand_apply x0 x1 x2 p e).symm.trans (block_featOperand x0 x1 x2 X W B b hx hw hb p e)

variable (x3 : Vec Ideal S1024x1024 .bf16) (Wn : S1024x1024.Idx → EReal) (hn : ∀ d e : Fin 1024, x3 (ix2 d e) = Wn (ix2 d e))
include hn

/-- The first stored product is block b of the features times the weight's transpose. -/
theorem block_projFirst (u : Fin 1) (p e : Fin 1024) :
    k0_pay5 x0 x1 x2 x3 (ix3 u p e)
      = Cert.Spec.lin (Cert.Spec.pre (Cert.Spec.cur3 X) (fun e d => W (ix2 d e)) (fun e => B (ix2 (0 : Fin 1) e))) (fun e d => Wn (ix2 d e)) b p e := by
  refine (projFirst_apply x0 x1 x2 x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

/-- The second stored product likewise. -/
theorem block_projSecond (u : Fin 1) (p e : Fin 1024) :
    k0_pay6 x0 x1 x2 x3 (ix3 u p e)
      = Cert.Spec.lin (Cert.Spec.pre (Cert.Spec.cur3 X) (fun e d => W (ix2 d e)) (fun e => B (ix2 (0 : Fin 1) e))) (fun e d => Wn (ix2 d e)) b p e := by
  refine (projSecond_apply x0 x1 x2 x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

/-- The third stored product likewise. -/
theorem block_projThird (u : Fin 1) (p e : Fin 1024) :
    k0_pay1 (k0_pay4 x0 x1 x2) x3 (ix3 u p e)
      = Cert.Spec.lin (Cert.Spec.pre (Cert.Spec.cur3 X) (fun e d => W (ix2 d e)) (fun e => B (ix2 (0 : Fin 1) e))) (fun e d => Wn (ix2 d e)) b p e := by
  refine (proj_apply (k0_pay4 x0 x1 x2) x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

end Blocks

/-! ## The region: input blocks, written blocks, the arrays after the region -/

section Region
variable (V : (c : Dev nD) → (b : Ref sig .tc) → Buf (Elt Ideal) ((c : Thread nD τ).loc b))

/-- The six arrays the region reads, as it finds them. -/
abbrev argX (c : Dev nD) : S8x1024x1024.Idx → EReal := V c (Pipeline.arrRef spec0 0)
abbrev argWp (c : Dev nD) : S1024x1024.Idx → EReal := V c (Pipeline.arrRef spec0 1)
abbrev argB (c : Dev nD) : S1x1024.Idx → EReal := V c (Pipeline.arrRef spec0 2)
abbrev argWq (c : Dev nD) : S1024x1024.Idx → EReal := V c (Pipeline.arrRef spec0 3)
abbrev argWk (c : Dev nD) : S1024x1024.Idx → EReal := V c (Pipeline.arrRef spec0 4)
abbrev argWv (c : Dev nD) : S1024x1024.Idx → EReal := V c (Pipeline.arrRef spec0 5)

/-- The same as functions of coordinates: the input; each weight read transposed (the stored matrix is [in, out]);
    the bias's one row. -/
abbrev X (c : Dev nD) : Cert.Spec.T3 := Cert.Spec.cur3 (argX V c)
abbrev WpF (c : Dev nD) : Cert.Spec.T2 := fun e d => argWp V c (ix2 d e)
abbrev bF (c : Dev nD) : Cert.Spec.T1 := fun e => argB V c (ix2 (0 : Fin 1) e)
abbrev WqF (c : Dev nD) : Cert.Spec.T2 := fun e d => argWq V c (ix2 d e)
abbrev WkF (c : Dev nD) : Cert.Spec.T2 := fun e d => argWk V c (ix2 d e)
abbrev WvF (c : Dev nD) : Cert.Spec.T2 := fun e d => argWv V c (ix2 d e)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the input's and the four outputs' blocks are at (t, 0, 0); the weights' and the
    bias's at (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- The input's block at point t is batch t of the input. -/
theorem xblock_apply (c : Dev nD) (t : Fin cfg0.N) (b : Fin 8) (hbt : b.val = t.val) (u : Fin 1) (p d : Fin 1024) :
    (iblk0 V c 0 t : S1x1024x1024.Idx → EReal) (ix3 u p d) = argX V c (ix3 b p d) := by
  obtain ⟨⟨e0, e1, e2⟩, -, -, -, -, -, -, -, -, -⟩ := idx_facts t
  unfold iblk0
  rw [View.read_apply]
  show V c (Pipeline.arrRef spec0 0) _ = V c (Pipeline.arrRef spec0 0) _
  refine congrArg _ (funext fun a => Fin.ext ?_)
  have hu := u.isLt
  match a with
  | ⟨0, _⟩ => show win0_0.index t (0 : Fin 3) * 1 + 1 * u.val = b.val; omega
  | ⟨1, _⟩ => show win0_0.index t (1 : Fin 3) * 1024 + 1 * p.val = p.val; omega
  | ⟨2, _⟩ => show win0_0.index t (2 : Fin 3) * 1024 + 1 * d.val = d.val; omega

/-- The first weight's block at every point is the whole weight. -/
theorem wpblock_apply (c : Dev nD) (t : Fin cfg0.N) (d e : Fin 1024) :
    (iblk0 V c 1 t : S1024x1024.Idx → EReal) (ix2 d e) = argWp V c (ix2 d e) := by
  obtain ⟨-, ⟨e0, e1⟩, -, -, -, -, -, -, -, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

/-- The bias's block at every point is the whole bias. -/
theorem bblock_apply (c : Dev nD) (t : Fin cfg0.N) (e : Fin 1024) :
    (iblk0 V c 2 t : S1x1024.Idx → EReal) (ix2 (0 : Fin 1) e) = argB V c (ix2 (0 : Fin 1) e) := by
  obtain ⟨-, -, ⟨e0, e1⟩, -, -, -, -, -, -, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * e.val = e.val; omega

/-- The second weight's block at every point is the whole weight. -/
theorem wqblock_apply (c : Dev nD) (t : Fin cfg0.N) (d e : Fin 1024) :
    (iblk0 V c 3 t : S1024x1024.Idx → EReal) (ix2 d e) = argWq V c (ix2 d e) := by
  obtain ⟨-, -, -, ⟨e0, e1⟩, -, -, -, -, -, -⟩ := idx_facts t
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- The third weight's block likewise. -/
theorem wkblock_apply (c : Dev nD) (t : Fin cfg0.N) (d e : Fin 1024) :
    (iblk0 V c 4 t : S1024x1024.Idx → EReal) (ix2 d e) = argWk V c (ix2 d e) := by
  obtain ⟨-, -, -, -, ⟨e0, e1⟩, -, -, -, -, -⟩ := idx_facts t
  unfold iblk0
  rw [View.read_apply]
  show V c (Pipeline.arrRef spec0 4) _ = V c (Pipeline.arrRef spec0 4) _
  refine congrArg _ (funext fun a => Fin.ext ?_)
  match a with
  | ⟨0, _⟩ => show win0_4.index t (0 : Fin 2) * 1024 + 1 * d.val = d.val; omega
  | ⟨1, _⟩ => show win0_4.index t (1 : Fin 2) * 1024 + 1 * e.val = e.val; omega

/-- The fourth weight's block likewise. -/
theorem wvblock_apply (c : Dev nD) (t : Fin cfg0.N) (d e : Fin 1024) :
    (iblk0 V c 5 t : S1024x1024.Idx → EReal) (ix2 d e) = argWv V c (ix2 d e) := by
  obtain ⟨-, -, -, -, -, ⟨e0, e1⟩, -, -, -, -⟩ := idx_facts t
  unfold iblk0
  rw [View.read_apply]
  show V c (Pipeline.arrRef spec0 5) _ = V c (Pipeline.arrRef spec0 5) _
  refine congrArg _ (funext fun a => Fin.ext ?_)
  match a with
  | ⟨0, _⟩ => show win0_5.index t (0 : Fin 2) * 1024 + 1 * d.val = d.val; omega
  | ⟨1, _⟩ => show win0_5.index t (1 : Fin 2) * 1024 + 1 * e.val = e.val; omega

/-! ### Output 0 -/

/-- What the body leaves in the staging buffer is the stored block (the one store fills the buffer). -/
theorem left6 (x0 : Vec Ideal S1x1024x1024 .bf16) (x1 : Vec Ideal S1024x1024 .bf16) (x2 : Vec Ideal S1x1024 .f32)
    (x3 x4 x5 : Vec Ideal S1024x1024 .bf16) : out0_6 x0 x1 x2 x3 x4 x5 = k0_pay3 x0 x1 x2 := by
  unfold out0_6
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place6 (t : Fin cfg0.N) (b : Fin 8) (hbt : b.val = t.val) (u : Fin 1) (p e : Fin 1024) :
    ((cfg0.win 6).blk t).view.emb (ix3 u p e) = (ix3 b p e : S8x1024x1024.Idx) := by
  obtain ⟨-, -, -, -, -, -, ⟨e0, e1, e2⟩, -, -, -⟩ := idx_facts t
  refine funext fun a => Fin.ext ?_
  have hu := u.isLt
  match a with
  | ⟨0, _⟩ => show win0_6.index t (0 : Fin 3) * 1 + 1 * u.val = b.val; omega
  | ⟨1, _⟩ => show win0_6.index t (1 : Fin 3) * 1024 + 1 * p.val = p.val; omega
  | ⟨2, _⟩ => show win0_6.index t (2 : Fin 3) * 1024 + 1 * e.val = e.val; omega

/-- What point t writes back to the first output is block t of max(X·Wpᵀ + bias, 0). -/
theorem written6 (c : Dev nD) (t : Fin cfg0.N) :
    (dat0 V c).flushed 6 t = ((cfg0.win 6).blk t).view.read (Elt Ideal) (Cert.Spec.arr3 (Cert.Spec.pre (X V c) (WpF V c) (bF V c))) := by
  have hN : cfg0.N = 8 := N_0
  have ht : t.val < 8 := by have := t.isLt; omega
  show (cfg0.win 6).cut (grid0.coords t) ((dat0 V c).after 6 t) = _
  rw [after0_6, left6]
  funext j
  obtain ⟨u, p, e, rfl⟩ : ∃ (u : Fin 1) (p e : Fin 1024), j = ix3 u p e := ⟨j 0, j 1, j 2, eq_ix3 j⟩
  show k0_pay3 (iblk0 V c 0 t) (iblk0 V c 1 t) (iblk0 V c 2 t) (ix3 u p e)
    = Cert.Spec.arr3 (Cert.Spec.pre (X V c) (WpF V c) (bF V c)) (((cfg0.win 6).blk t).view.emb (ix3 u p e))
  rw [place6 t ⟨t.val, ht⟩ rfl u p e]
  exact block_feat (iblk0 V c 0 t) (iblk0 V c 1 t) (iblk0 V c 2 t) (argX V c) (argWp V c) (argB V c) ⟨t.val, ht⟩
    (xblock_apply V c t ⟨t.val, ht⟩ rfl) (wpblock_apply V c t) (bblock_apply V c t) u p e

/-- An index of the array is in point t's block iff each coordinate is in the block's range on its axis. -/
theorem mem_blk6 (t : Fin cfg0.N) (i : S8x1024x1024.Idx) :
    i ∈ ((cfg0.win 6).blk t).view.set ↔ ∀ a : Fin 3, win0_6.index t a * S1x1024x1024.size a ≤ (i a).val ∧ (i a).val < win0_6.index t a * S1x1024x1024.size a + S1x1024x1024.size a := by
  show i ∈ ((View.whole (Pipeline.arrRef spec0 6)).slice (win0_6.rect t)).set ↔ _
  rw [View.set_slice_whole, Rect.mem_set_unit]
  exact Iff.rfl

/-- Batch b of the array is the block of grid point b. -/
theorem cover6 (i : S8x1024x1024.Idx) : ∃ t : Fin cfg0.N, (cfg0.win 6).flush t = true ∧ i ∈ ((cfg0.win 6).blk t).view.set := by
  have hN : cfg0.N = 8 := N_0
  have h0 : (i 0).val < 8 := (i 0).isLt
  have h1 : (i 1).val < 1024 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, ⟨e0, e1, e2⟩, -, -, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

/-! ### Output 1 -/

/-- What the body leaves in the staging buffer is the stored block (the one store fills the buffer). -/
theorem left7 (x0 : Vec Ideal S1x1024x1024 .bf16) (x1 : Vec Ideal S1024x1024 .bf16) (x2 : Vec Ideal S1x1024 .f32)
    (x3 x4 x5 : Vec Ideal S1024x1024 .bf16) : out0_7 x0 x1 x2 x3 x4 x5 = k0_pay5 x0 x1 x2 x3 := by
  unfold out0_7
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place7 (t : Fin cfg0.N) (b : Fin 8) (hbt : b.val = t.val) (u : Fin 1) (p e : Fin 1024) :
    ((cfg0.win 7).blk t).view.emb (ix3 u p e) = (ix3 b p e : S8x1024x1024.Idx) := by
  obtain ⟨-, -, -, -, -, -, -, ⟨e0, e1, e2⟩, -, -⟩ := idx_facts t
  refine funext fun a => Fin.ext ?_
  have hu := u.isLt
  match a with
  | ⟨0, _⟩ => show win0_7.index t (0 : Fin 3) * 1 + 1 * u.val = b.val; omega
  | ⟨1, _⟩ => show win0_7.index t (1 : Fin 3) * 1024 + 1 * p.val = p.val; omega
  | ⟨2, _⟩ => show win0_7.index t (2 : Fin 3) * 1024 + 1 * e.val = e.val; omega

/-- What point t writes back to the second output is block t of the features times Wqᵀ. -/
theorem written7 (c : Dev nD) (t : Fin cfg0.N) :
    (dat0 V c).flushed 7 t = ((cfg0.win 7).blk t).view.read (Elt Ideal) (Cert.Spec.arr3 (Cert.Spec.lin (Cert.Spec.pre (X V c) (WpF V c) (bF V c)) (WqF V c))) := by
  have hN : cfg0.N = 8 := N_0
  have ht : t.val < 8 := by have := t.isLt; omega
  show (cfg0.win 7).cut (grid0.coords t) ((dat0 V c).after 7 t) = _
  rw [after0_7, left7]
  funext j
  obtain ⟨u, p, e, rfl⟩ : ∃ (u : Fin 1) (p e : Fin 1024), j = ix3 u p e := ⟨j 0, j 1, j 2, eq_ix3 j⟩
  show k0_pay5 (iblk0 V c 0 t) (iblk0 V c 1 t) (iblk0 V c 2 t) (iblk0 V c 3 t) (ix3 u p e)
    = Cert.Spec.arr3 (Cert.Spec.lin (Cert.Spec.pre (X V c) (WpF V c) (bF V c)) (WqF V c)) (((cfg0.win 7).blk t).view.emb (ix3 u p e))
  rw [place7 t ⟨t.val, ht⟩ rfl u p e]
  exact block_projFirst (iblk0 V c 0 t) (iblk0 V c 1 t) (iblk0 V c 2 t) (argX V c) (argWp V c) (argB V c) ⟨t.val, ht⟩
    (xblock_apply V c t ⟨t.val, ht⟩ rfl) (wpblock_apply V c t) (bblock_apply V c t)
    (iblk0 V c 3 t) (argWq V c) (wqblock_apply V c t) u p e

/-- An index of the array is in point t's block iff each coordinate is in the block's range on its axis. -/
theorem mem_blk7 (t : Fin cfg0.N) (i : S8x1024x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole (Pipeline.arrRef spec0 7)).slice (win0_7.rect t)).set ↔ _
  rw [View.set_slice_whole, Rect.mem_set_unit]
  exact Iff.rfl

/-- Batch b of the array is the block of grid point b. -/
theorem cover7 (i : S8x1024x1024.Idx) : ∃ t : Fin cfg0.N, (cfg0.win 7).flush t = true ∧ i ∈ ((cfg0.win 7).blk t).view.set := by
  have hN : cfg0.N = 8 := N_0
  have h0 : (i 0).val < 8 := (i 0).isLt
  have h1 : (i 1).val < 1024 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, ⟨e0, e1, e2⟩, -, -⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

/-! ### Output 2 -/

/-- What the body leaves in the staging buffer is the stored block (the one store fills the buffer). -/
theorem left8 (x0 : Vec Ideal S1x1024x1024 .bf16) (x1 : Vec Ideal S1024x1024 .bf16) (x2 : Vec Ideal S1x1024 .f32)
    (x3 x4 x5 : Vec Ideal S1024x1024 .bf16) : out0_8 x0 x1 x2 x3 x4 x5 = k0_pay6 x0 x1 x2 x4 := by
  unfold out0_8
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place8 (t : Fin cfg0.N) (b : Fin 8) (hbt : b.val = t.val) (u : Fin 1) (p e : Fin 1024) :
    ((cfg0.win 8).blk t).view.emb (ix3 u p e) = (ix3 b p e : S8x1024x1024.Idx) := by
  obtain ⟨-, -, -, -, -, -, -, -, ⟨e0, e1, e2⟩, -⟩ := idx_facts t
  refine funext fun a => Fin.ext ?_
  have hu := u.isLt
  match a with
  | ⟨0, _⟩ => show win0_8.index t (0 : Fin 3) * 1 + 1 * u.val = b.val; omega
  | ⟨1, _⟩ => show win0_8.index t (1 : Fin 3) * 1024 + 1 * p.val = p.val; omega
  | ⟨2, _⟩ => show win0_8.index t (2 : Fin 3) * 1024 + 1 * e.val = e.val; omega

/-- What point t writes back to the third output is block t of the features times Wkᵀ. -/
theorem written8 (c : Dev nD) (t : Fin cfg0.N) :
    (dat0 V c).flushed 8 t = ((cfg0.win 8).blk t).view.read (Elt Ideal) (Cert.Spec.arr3 (Cert.Spec.lin (Cert.Spec.pre (X V c) (WpF V c) (bF V c)) (WkF V c))) := by
  have hN : cfg0.N = 8 := N_0
  have ht : t.val < 8 := by have := t.isLt; omega
  show (cfg0.win 8).cut (grid0.coords t) ((dat0 V c).after 8 t) = _
  rw [after0_8, left8]
  funext j
  obtain ⟨u, p, e, rfl⟩ : ∃ (u : Fin 1) (p e : Fin 1024), j = ix3 u p e := ⟨j 0, j 1, j 2, eq_ix3 j⟩
  show k0_pay6 (iblk0 V c 0 t) (iblk0 V c 1 t) (iblk0 V c 2 t) (iblk0 V c 4 t) (ix3 u p e)
    = Cert.Spec.arr3 (Cert.Spec.lin (Cert.Spec.pre (X V c) (WpF V c) (bF V c)) (WkF V c)) (((cfg0.win 8).blk t).view.emb (ix3 u p e))
  rw [place8 t ⟨t.val, ht⟩ rfl u p e]
  exact block_projSecond (iblk0 V c 0 t) (iblk0 V c 1 t) (iblk0 V c 2 t) (argX V c) (argWp V c) (argB V c) ⟨t.val, ht⟩
    (xblock_apply V c t ⟨t.val, ht⟩ rfl) (wpblock_apply V c t) (bblock_apply V c t)
    (iblk0 V c 4 t) (argWk V c) (wkblock_apply V c t) u p e

/-- An index of the array is in point t's block iff each coordinate is in the block's range on its axis. -/
theorem mem_blk8 (t : Fin cfg0.N) (i : S8x1024x1024.Idx) :
    i ∈ ((cfg0.win 8).blk t).view.set ↔ ∀ a : Fin 3, win0_8.index t a * S1x1024x1024.size a ≤ (i a).val ∧ (i a).val < win0_8.index t a * S1x1024x1024.size a + S1x1024x1024.size a := by
  show i ∈ ((View.whole (Pipeline.arrRef spec0 8)).slice (win0_8.rect t)).set ↔ _
  rw [View.set_slice_whole, Rect.mem_set_unit]
  exact Iff.rfl

/-- Batch b of the array is the block of grid point b. -/
theorem cover8 (i : S8x1024x1024.Idx) : ∃ t : Fin cfg0.N, (cfg0.win 8).flush t = true ∧ i ∈ ((cfg0.win 8).blk t).view.set := by
  have hN : cfg0.N = 8 := N_0
  have h0 : (i 0).val < 8 := (i 0).isLt
  have h1 : (i 1).val < 1024 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, -, ⟨e0, e1, e2⟩, -⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 1024 ≤ (i 2).val ∧ (i 2).val < win0_8.index t (2 : Fin 3) * 1024 + 1024; omega

/-! ### Output 3 -/

/-- What the body leaves in the staging buffer is the stored block (the one store fills the buffer). -/
theorem left9 (x0 : Vec Ideal S1x1024x1024 .bf16) (x1 : Vec Ideal S1024x1024 .bf16) (x2 : Vec Ideal S1x1024 .f32)
    (x3 x4 x5 : Vec Ideal S1024x1024 .bf16) : out0_9 x0 x1 x2 x3 x4 x5 = k0_pay1 (k0_pay4 x0 x1 x2) x5 := by
  unfold out0_9
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place9 (t : Fin cfg0.N) (b : Fin 8) (hbt : b.val = t.val) (u : Fin 1) (p e : Fin 1024) :
    ((cfg0.win 9).blk t).view.emb (ix3 u p e) = (ix3 b p e : S8x1024x1024.Idx) := by
  obtain ⟨-, -, -, -, -, -, -, -, -, ⟨e0, e1, e2⟩⟩ := idx_facts t
  refine funext fun a => Fin.ext ?_
  have hu := u.isLt
  match a with
  | ⟨0, _⟩ => show win0_9.index t (0 : Fin 3) * 1 + 1 * u.val = b.val; omega
  | ⟨1, _⟩ => show win0_9.index t (1 : Fin 3) * 1024 + 1 * p.val = p.val; omega
  | ⟨2, _⟩ => show win0_9.index t (2 : Fin 3) * 1024 + 1 * e.val = e.val; omega

/-- What point t writes back to the fourth output is block t of the features times Wvᵀ. -/
theorem written9 (c : Dev nD) (t : Fin cfg0.N) :
    (dat0 V c).flushed 9 t = ((cfg0.win 9).blk t).view.read (Elt Ideal) (Cert.Spec.arr3 (Cert.Spec.lin (Cert.Spec.pre (X V c) (WpF V c) (bF V c)) (WvF V c))) := by
  have hN : cfg0.N = 8 := N_0
  have ht : t.val < 8 := by have := t.isLt; omega
  show (cfg0.win 9).cut (grid0.coords t) ((dat0 V c).after 9 t) = _
  rw [after0_9, left9]
  funext j
  obtain ⟨u, p, e, rfl⟩ : ∃ (u : Fin 1) (p e : Fin 1024), j = ix3 u p e := ⟨j 0, j 1, j 2, eq_ix3 j⟩
  show k0_pay1 (k0_pay4 (iblk0 V c 0 t) (iblk0 V c 1 t) (iblk0 V c 2 t)) (iblk0 V c 5 t) (ix3 u p e)
    = Cert.Spec.arr3 (Cert.Spec.lin (Cert.Spec.pre (X V c) (WpF V c) (bF V c)) (WvF V c)) (((cfg0.win 9).blk t).view.emb (ix3 u p e))
  rw [place9 t ⟨t.val, ht⟩ rfl u p e]
  exact block_projThird (iblk0 V c 0 t) (iblk0 V c 1 t) (iblk0 V c 2 t) (argX V c) (argWp V c) (argB V c) ⟨t.val, ht⟩
    (xblock_apply V c t ⟨t.val, ht⟩ rfl) (wpblock_apply V c t) (bblock_apply V c t)
    (iblk0 V c 5 t) (argWv V c) (wvblock_apply V c t) u p e

/-- An index of the array is in point t's block iff each coordinate is in the block's range on its axis. -/
theorem mem_blk9 (t : Fin cfg0.N) (i : S8x1024x1024.Idx) :
    i ∈ ((cfg0.win 9).blk t).view.set ↔ ∀ a : Fin 3, win0_9.index t a * S1x1024x1024.size a ≤ (i a).val ∧ (i a).val < win0_9.index t a * S1x1024x1024.size a + S1x1024x1024.size a := by
  show i ∈ ((View.whole (Pipeline.arrRef spec0 9)).slice (win0_9.rect t)).set ↔ _
  rw [View.set_slice_whole, Rect.mem_set_unit]
  exact Iff.rfl

/-- Batch b of the array is the block of grid point b. -/
theorem cover9 (i : S8x1024x1024.Idx) : ∃ t : Fin cfg0.N, (cfg0.win 9).flush t = true ∧ i ∈ ((cfg0.win 9).blk t).view.set := by
  have hN : cfg0.N = 8 := N_0
  have h0 : (i 0).val < 8 := (i 0).isLt
  have h1 : (i 1).val < 1024 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, -, -, ⟨e0, e1, e2⟩⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 1024 ≤ (i 2).val ∧ (i 2).val < win0_9.index t (2 : Fin 3) * 1024 + 1024; omega

/-! ### The four arrays after the region -/

/-- The features: max(X·Wpᵀ + bias, 0). -/
theorem final6 (c : Dev nD) :
    (dat0 V c).arrAt 6 cfg0.N = Cert.Spec.arr3 (Cert.Spec.pre (X V c) (WpF V c) (bF V c)) :=
  (dat0 V c).arrAt_eq_of_cover 6 _ (fun t _ => written6 V c t) cover6

/-- The queries: the features times Wqᵀ. -/
theorem final7 (c : Dev nD) :
    (dat0 V c).arrAt 7 cfg0.N = Cert.Spec.arr3 (Cert.Spec.lin (Cert.Spec.pre (X V c) (WpF V c) (bF V c)) (WqF V c)) :=
  (dat0 V c).arrAt_eq_of_cover 7 _ (fun t _ => written7 V c t) cover7

/-- The keys: the features times Wkᵀ. -/
theorem final8 (c : Dev nD) :
    (dat0 V c).arrAt 8 cfg0.N = Cert.Spec.arr3 (Cert.Spec.lin (Cert.Spec.pre (X V c) (WpF V c) (bF V c)) (WkF V c)) :=
  (dat0 V c).arrAt_eq_of_cover 8 _ (fun t _ => written8 V c t) cover8

/-- The values: the features times Wvᵀ. -/
theorem final9 (c : Dev nD) :
    (dat0 V c).arrAt 9 cfg0.N = Cert.Spec.arr3 (Cert.Spec.lin (Cert.Spec.pre (X V c) (WpF V c) (bF V c)) (WvF V c)) :=
  (dat0 V c).arrAt_eq_of_cover 9 _ (fun t _ => written9 V c t) cover9

end Region

end Cert.KProj0

end
-- ==== Proof.KProj1.lean ====
/-
  One modality's projections, read off the pipelined program: for each batch b the program takes the block x[b] of the
  input, forms the features  f = max(x[b]·Wpᵀ + bias, 0)  (the weight arrives already transposed, so the product
  contracts the rows of the stored matrix) and the three products  f·Wqᵀ, f·Wkᵀ, f·Wvᵀ,  and writes each to block b
  of its output array. Here: each stored block at a coordinate as a sum over the contracted axis; each input block as
  the part of its array the grid point names; what a grid point writes back as the block of ONE function of the six
  input arrays; the eight blocks cover the output; so each output array after the region is that function.
-/
import proofs.«131838_j22488448762091_2_alg».proof.Proof.Gen.KernelIdeal.Frame
import proofs.«131838_j22488448762091_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KProj1

open Cert.KernelIdeal Cert.KernelIdeal.Gen Idealize.ShloMosaic Idealize.ShloMosaic.TcCoe Idealize.ShloMosaic.ValueIdx Idealize.SL.Sem
open Idealize.ShloMosaic.Pipeline (Dat)

/-! ## A stored block at a coordinate -/

/-- The left operand's row coordinate is the output's row coordinate. -/
theorem lhs_row (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The right operand's column coordinate is the output's column coordinate. -/
theorem rhs_col (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024,1024]·[1024,1024] product into the zero accumulator at (p, e): Σ_d l(p,d)·r(d,e). -/
theorem prod_apply (l r : FVec Ideal S1024x1024 .bf16) (p e : Fin 1024) :
    matmul dot_S1024x1024_S1024x1024_S1024x1024_1_0_0_1_n_n none l r (constant (F := Ideal) S1024x1024 .f32 0x00000000#32) (ix2 p e)
      = ∑ d : Fin 1024, l (ix2 p d) * r (ix2 d e) := by
  refine (Ideal.matmul_constant_zero_apply dot_S1024x1024_S1024x1024_S1024x1024_1_0_0_1_n_n none l r (ix2 p e)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p e) ((contrEquiv1 dot_S1024x1024_S1024x1024_S1024x1024_1_0_0_1_n_n 1024 rfl rfl).symm k) = ix2 p k :=
    funext fun a => Fin.ext (by
      match a with
      | ⟨0, _⟩ => exact lhs_row (ix2 p e) _
      | ⟨1, _⟩ => exact (dot_S1024x1024_S1024x1024_S1024x1024_1_0_0_1_n_n.lhsIdx_val_of_single rfl (ix2 p e) _).trans hk)
  have er : dot_S1024x1024_S1024x1024_S1024x1024_1_0_0_1_n_n.rhsIdx (ix2 p e) ((contrEquiv1 dot_S1024x1024_S1024x1024_S1024x1024_1_0_0_1_n_n 1024 rfl rfl).symm k) = ix2 k e :=
    funext fun a => Fin.ext (by
      match a with
      | ⟨0, _⟩ => exact (dot_S1024x1024_S1024x1024_S1024x1024_1_0_0_1_n_n.rhsIdx_val_of_single rfl (ix2 p e) _).trans hk
      | ⟨1, _⟩ => exact rhs_col (ix2 p e) _)
  rw [el, er]

/-- The features before they are stored: max(Σ_d x(0,p,d)·w(d,e) + b(0,e), 0). -/
theorem feat_apply (x0 : Vec Ideal S1x1024x1024 .bf16) (x1 : Vec Ideal S1024x1024 .bf16) (x2 : Vec Ideal S1x1024 .f32) (p e : Fin 1024) :
    k1_pay2 x0 x1 x2 (ix2 p e)
      = max ((∑ d : Fin 1024, x0 (ix3 (0 : Fin 1) p d) * x1 (ix2 d e)) + x2 (ix2 (0 : Fin 1) e)) (Ideal.ofBits .f32 0x00000000#32) := by
  unfold k1_pay2
  refine congrArg₂ max (congrArg₂ (· + ·) ?_ ?_) rfl
  · refine (prod_apply _ _ p e).trans ?_
    refine Finset.sum_congr rfl fun d _ => ?_
    refine congrArg₂ (· * ·) ?_ ?_
    · exact shapeCast_1ab_ab_apply x0 _ p d
    · exact congrFun (shapeCast_self x1 _) _
  · refine (broadcastTo_1b_ab_apply _ _ p e).trans ?_
    exact congrFun (shapeCast_self x2 _) _

/-- The features stored: the same number at (0, p, e) of the [1,1024,1024] block. -/
theorem featStore_apply (x0 : Vec Ideal S1x1024x1024 .bf16) (x1 : Vec Ideal S1024x1024 .bf16) (x2 : Vec Ideal S1x1024 .f32) (u : Fin 1) (p e : Fin 1024) :
    k1_pay3 x0 x1 x2 (ix3 u p e)
      = max ((∑ d : Fin 1024, x0 (ix3 (0 : Fin 1) p d) * x1 (ix2 d e)) + x2 (ix2 (0 : Fin 1) e)) (Ideal.ofBits .f32 0x00000000#32) := by
  unfold k1_pay3
  refine (shapeCast_ab_1ab_apply _ _ u p e).trans ?_
  exact feat_apply x0 x1 x2 p e

/-- The features as the left operand of the three later products. -/
theorem featOperand_apply (x0 : Vec Ideal S1x1024x1024 .bf16) (x1 : Vec Ideal S1024x1024 .bf16) (x2 : Vec Ideal S1x1024 .f32) (p e : Fin 1024) :
    k1_pay4 x0 x1 x2 (ix2 p e)
      = max ((∑ d : Fin 1024, x0 (ix3 (0 : Fin 1) p d) * x1 (ix2 d e)) + x2 (ix2 (0 : Fin 1) e)) (Ideal.ofBits .f32 0x00000000#32) := by
  unfold k1_pay4
  exact feat_apply x0 x1 x2 p e

/-- A product of a left operand f with a weight, stored at (0, p, e): Σ_d f(p,d)·w(d,e). -/
theorem proj_apply (f : FVec Ideal S1024x1024 .bf16) (w : Vec Ideal S1024x1024 .bf16) (u : Fin 1) (p e : Fin 1024) :
    k1_pay1 f w (ix3 u p e) = ∑ d : Fin 1024, f (ix2 p d) * w (ix2 d e) := by
  unfold k1_pay1
  refine (shapeCast_ab_1ab_apply _ _ u p e).trans ?_
  refine (prod_apply _ _ p e).trans ?_
  refine Finset.sum_congr rfl fun d _ => ?_
  exact congrArg (f (ix2 p d) * ·) (congrFun (shapeCast_self w _) _)

/-- The first product of the features with a weight, stored at (0, p, e). -/
theorem projFirst_apply (x0 : Vec Ideal S1x1024x1024 .bf16) (x1 : Vec Ideal S1024x1024 .bf16) (x2 : Vec Ideal S1x1024 .f32) (w : Vec Ideal S1024x1024 .bf16) (u : Fin 1) (p e : Fin 1024) :
    k1_pay5 x0 x1 x2 w (ix3 u p e) = ∑ d : Fin 1024, k1_pay4 x0 x1 x2 (ix2 p d) * w (ix2 d e) := by
  unfold k1_pay5
  refine (shapeCast_ab_1ab_apply _ _ u p e).trans ?_
  refine (prod_apply _ _ p e).trans ?_
  refine Finset.sum_congr rfl fun d _ => ?_
  exact congrArg (k1_pay4 x0 x1 x2 (ix2 p d) * ·) (congrFun (shapeCast_self w _) _)

/-- The second product of the features with a weight, stored at (0, p, e). -/
theorem projSecond_apply (x0 : Vec Ideal S1x1024x1024 .bf16) (x1 : Vec Ideal S1024x1024 .bf16) (x2 : Vec Ideal S1x1024 .f32) (w : Vec Ideal S1024x1024 .bf16) (u : Fin 1) (p e : Fin 1024) :
    k1_pay6 x0 x1 x2 w (ix3 u p e) = ∑ d : Fin 1024, k1_pay4 x0 x1 x2 (ix2 p d) * w (ix2 d e) := by
  unfold k1_pay6
  refine (shapeCast_ab_1ab_apply _ _ u p e).trans ?_
  refine (prod_apply _ _ p e).trans ?_
  refine Finset.sum_congr rfl fun d _ => ?_
  exact congrArg (k1_pay4 x0 x1 x2 (ix2 p d) * ·) (congrFun (shapeCast_self w _) _)

/-! ## A stored block as a block of the whole-array functions

  The block of x is batch b of an [8,1024,1024] array X; the weights and the bias are whole arrays. -/

section Blocks
variable (x0 : Vec Ideal S1x1024x1024 .bf16) (x1 : Vec Ideal S1024x1024 .bf16) (x2 : Vec Ideal S1x1024 .f32)
  (X : S8x1024x1024.Idx → EReal) (W : S1024x1024.Idx → EReal) (B : S1x1024.Idx → EReal) (b : Fin 8)
  (hx : ∀ (u : Fin 1) (p d : Fin 1024), x0 (ix3 u p d) = X (ix3 b p d))
  (hw : ∀ d e : Fin 1024, x1 (ix2 d e) = W (ix2 d e))
  (hb : ∀ e : Fin 1024, x2 (ix2 (0 : Fin 1) e) = B (ix2 (0 : Fin 1) e))
include hx hw hb

/-- The features as the later products read them, at row p of batch b. -/
theorem block_featOperand (p e : Fin 1024) :
    k1_pay4 x0 x1 x2 (ix2 p e)
      = Cert.Spec.pre (Cert.Spec.cur3 X) (fun e d => W (ix2 d e)) (fun e => B (ix2 (0 : Fin 1) e)) b p e := by
  refine (featOperand_apply x0 x1 x2 p e).trans ?_
  show _ = max ((∑ d : Fin 1024, X (ix3 b p d) * W (ix2 d e)) + B (ix2 (0 : Fin 1) e)) (Ideal.ofBits .f32 0x00000000#32)
  rw [hb e]
  refine congrArg (fun s => max (s + B (ix2 (0 : Fin 1) e)) (Ideal.ofBits .f32 0x00000000#32)) ?_
  exact Finset.sum_congr rfl fun d _ => by rw [hx 0 p d, hw d e]

/-- The stored features are block b of max(X·Wpᵀ + bias, 0). -/
theorem block_feat (u : Fin 1) (p e : Fin 1024) :
    k1_pay3 x0 x1 x2 (ix3 u p e)
      = Cert.Spec.pre (Cert.Spec.cur3 X) (fun e d => W (ix2 d e)) (fun e => B (ix2 (0 : Fin 1) e)) b p e := by
  refine (featStore_apply x0 x1 x2 u p e).trans ?_
  exact (featOperand_apply x0 x1 x2 p e).symm.trans (block_featOperand x0 x1 x2 X W B b hx hw hb p e)

variable (x3 : Vec Ideal S1024x1024 .bf16) (Wn : S1024x1024.Idx → EReal) (hn : ∀ d e : Fin 1024, x3 (ix2 d e) = Wn (ix2 d e))
include hn

/-- The first stored product is block b of the features times the weight's transpose. -/
theorem block_projFirst (u : Fin 1) (p e : Fin 1024) :
    k1_pay5 x0 x1 x2 x3 (ix3 u p e)
      = Cert.Spec.lin (Cert.Spec.pre (Cert.Spec.cur3 X) (fun e d => W (ix2 d e)) (fun e => B (ix2 (0 : Fin 1) e))) (fun e d => Wn (ix2 d e)) b p e := by
  refine (projFirst_apply x0 x1 x2 x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

/-- The second stored product likewise. -/
theorem block_projSecond (u : Fin 1) (p e : Fin 1024) :
    k1_pay6 x0 x1 x2 x3 (ix3 u p e)
      = Cert.Spec.lin (Cert.Spec.pre (Cert.Spec.cur3 X) (fun e d => W (ix2 d e)) (fun e => B (ix2 (0 : Fin 1) e))) (fun e d => Wn (ix2 d e)) b p e := by
  refine (projSecond_apply x0 x1 x2 x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

/-- The third stored product likewise. -/
theorem block_projThird (u : Fin 1) (p e : Fin 1024) :
    k1_pay1 (k1_pay4 x0 x1 x2) x3 (ix3 u p e)
      = Cert.Spec.lin (Cert.Spec.pre (Cert.Spec.cur3 X) (fun e d => W (ix2 d e)) (fun e => B (ix2 (0 : Fin 1) e))) (fun e d => Wn (ix2 d e)) b p e := by
  refine (proj_apply (k1_pay4 x0 x1 x2) x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

end Blocks

/-! ## The region: input blocks, written blocks, the arrays after the region -/

section Region
variable (V : (c : Dev nD) → (b : Ref sig .tc) → Buf (Elt Ideal) ((c : Thread nD τ).loc b))

/-- The six arrays the region reads, as it finds them. -/
abbrev argX (c : Dev nD) : S8x1024x1024.Idx → EReal := V c (Pipeline.arrRef spec1 0)
abbrev argWp (c : Dev nD) : S1024x1024.Idx → EReal := V c (Pipeline.arrRef spec1 1)
abbrev argB (c : Dev nD) : S1x1024.Idx → EReal := V c (Pipeline.arrRef spec1 2)
abbrev argWq (c : Dev nD) : S1024x1024.Idx → EReal := V c (Pipeline.arrRef spec1 3)
abbrev argWk (c : Dev nD) : S1024x1024.Idx → EReal := V c (Pipeline.arrRef spec1 4)
abbrev argWv (c : Dev nD) : S1024x1024.Idx → EReal := V c (Pipeline.arrRef spec1 5)

/-- The same as functions of coordinates: the input; each weight read transposed (the stored matrix is [in, out]);
    the bias's one row. -/
abbrev X (c : Dev nD) : Cert.Spec.T3 := Cert.Spec.cur3 (argX V c)
abbrev WpF (c : Dev nD) : Cert.Spec.T2 := fun e d => argWp V c (ix2 d e)
abbrev bF (c : Dev nD) : Cert.Spec.T1 := fun e => argB V c (ix2 (0 : Fin 1) e)
abbrev WqF (c : Dev nD) : Cert.Spec.T2 := fun e d => argWq V c (ix2 d e)
abbrev WkF (c : Dev nD) : Cert.Spec.T2 := fun e d => argWk V c (ix2 d e)
abbrev WvF (c : Dev nD) : Cert.Spec.T2 := fun e d => argWv V c (ix2 d e)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the input's and the four outputs' blocks are at (t, 0, 0); the weights' and the
    bias's at (0, 0). -/
theorem idx_facts : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val ∧ win1_6.index t (1 : Fin 3) = 0 ∧ win1_6.index t (2 : Fin 3) = 0)
    ∧ (win1_7.index t (0 : Fin 3) = t.val ∧ win1_7.index t (1 : Fin 3) = 0 ∧ win1_7.index t (2 : Fin 3) = 0)
    ∧ (win1_8.index t (0 : Fin 3) = t.val ∧ win1_8.index t (1 : Fin 3) = 0 ∧ win1_8.index t (2 : Fin 3) = 0)
    ∧ (win1_9.index t (0 : Fin 3) = t.val ∧ win1_9.index t (1 : Fin 3) = 0 ∧ win1_9.index t (2 : Fin 3) = 0) :=
  (by decide +kernel : ∀ t : Fin grid1.N, _)

/-- The input's block at point t is batch t of the input. -/
theorem xblock_apply (c : Dev nD) (t : Fin cfg1.N) (b : Fin 8) (hbt : b.val = t.val) (u : Fin 1) (p d : Fin 1024) :
    (iblk1 V c 0 t : S1x1024x1024.Idx → EReal) (ix3 u p d) = argX V c (ix3 b p d) := by
  obtain ⟨⟨e0, e1, e2⟩, -, -, -, -, -, -, -, -, -⟩ := idx_facts t
  unfold iblk1
  rw [View.read_apply]
  show V c (Pipeline.arrRef spec1 0) _ = V c (Pipeline.arrRef spec1 0) _
  refine congrArg _ (funext fun a => Fin.ext ?_)
  have hu := u.isLt
  match a with
  | ⟨0, _⟩ => show win1_0.index t (0 : Fin 3) * 1 + 1 * u.val = b.val; omega
  | ⟨1, _⟩ => show win1_0.index t (1 : Fin 3) * 1024 + 1 * p.val = p.val; omega
  | ⟨2, _⟩ => show win1_0.index t (2 : Fin 3) * 1024 + 1 * d.val = d.val; omega

/-- The first weight's block at every point is the whole weight. -/
theorem wpblock_apply (c : Dev nD) (t : Fin cfg1.N) (d e : Fin 1024) :
    (iblk1 V c 1 t : S1024x1024.Idx → EReal) (ix2 d e) = argWp V c (ix2 d e) := by
  obtain ⟨-, ⟨e0, e1⟩, -, -, -, -, -, -, -, -⟩ := idx_facts t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 1024 + 1 * d.val = d.val; omega
  | ⟨1, _⟩ => show win1_1.index t (1 : Fin 2) * 1024 + 1 * e.val = e.val; omega

/-- The bias's block at every point is the whole bias. -/
theorem bblock_apply (c : Dev nD) (t : Fin cfg1.N) (e : Fin 1024) :
    (iblk1 V c 2 t : S1x1024.Idx → EReal) (ix2 (0 : Fin 1) e) = argB V c (ix2 (0 : Fin 1) e) := by
  obtain ⟨-, -, ⟨e0, e1⟩, -, -, -, -, -, -, -⟩ := idx_facts t
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * e.val = e.val; omega

/-- The second weight's block at every point is the whole weight. -/
theorem wqblock_apply (c : Dev nD) (t : Fin cfg1.N) (d e : Fin 1024) :
    (iblk1 V c 3 t : S1024x1024.Idx → EReal) (ix2 d e) = argWq V c (ix2 d e) := by
  obtain ⟨-, -, -, ⟨e0, e1⟩, -, -, -, -, -, -⟩ := idx_facts t
  unfold iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 1024 + 1 * d.val = d.val; omega
  | ⟨1, _⟩ => show win1_3.index t (1 : Fin 2) * 1024 + 1 * e.val = e.val; omega

/-- The third weight's block likewise. -/
theorem wkblock_apply (c : Dev nD) (t : Fin cfg1.N) (d e : Fin 1024) :
    (iblk1 V c 4 t : S1024x1024.Idx → EReal) (ix2 d e) = argWk V c (ix2 d e) := by
  obtain ⟨-, -, -, -, ⟨e0, e1⟩, -, -, -, -, -⟩ := idx_facts t
  unfold iblk1
  rw [View.read_apply]
  show V c (Pipeline.arrRef spec1 4) _ = V c (Pipeline.arrRef spec1 4) _
  refine congrArg _ (funext fun a => Fin.ext ?_)
  match a with
  | ⟨0, _⟩ => show win1_4.index t (0 : Fin 2) * 1024 + 1 * d.val = d.val; omega
  | ⟨1, _⟩ => show win1_4.index t (1 : Fin 2) * 1024 + 1 * e.val = e.val; omega

/-- The fourth weight's block likewise. -/
theorem wvblock_apply (c : Dev nD) (t : Fin cfg1.N) (d e : Fin 1024) :
    (iblk1 V c 5 t : S1024x1024.Idx → EReal) (ix2 d e) = argWv V c (ix2 d e) := by
  obtain ⟨-, -, -, -, -, ⟨e0, e1⟩, -, -, -, -⟩ := idx_facts t
  unfold iblk1
  rw [View.read_apply]
  show V c (Pipeline.arrRef spec1 5) _ = V c (Pipeline.arrRef spec1 5) _
  refine congrArg _ (funext fun a => Fin.ext ?_)
  match a with
  | ⟨0, _⟩ => show win1_5.index t (0 : Fin 2) * 1024 + 1 * d.val = d.val; omega
  | ⟨1, _⟩ => show win1_5.index t (1 : Fin 2) * 1024 + 1 * e.val = e.val; omega

/-! ### Output 0 -/

/-- What the body leaves in the staging buffer is the stored block (the one store fills the buffer). -/
theorem left6 (x0 : Vec Ideal S1x1024x1024 .bf16) (x1 : Vec Ideal S1024x1024 .bf16) (x2 : Vec Ideal S1x1024 .f32)
    (x3 x4 x5 : Vec Ideal S1024x1024 .bf16) : out1_6 x0 x1 x2 x3 x4 x5 = k1_pay3 x0 x1 x2 := by
  unfold out1_6
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place6 (t : Fin cfg1.N) (b : Fin 8) (hbt : b.val = t.val) (u : Fin 1) (p e : Fin 1024) :
    ((cfg1.win 6).blk t).view.emb (ix3 u p e) = (ix3 b p e : S8x1024x1024.Idx) := by
  obtain ⟨-, -, -, -, -, -, ⟨e0, e1, e2⟩, -, -, -⟩ := idx_facts t
  refine funext fun a => Fin.ext ?_
  have hu := u.isLt
  match a with
  | ⟨0, _⟩ => show win1_6.index t (0 : Fin 3) * 1 + 1 * u.val = b.val; omega
  | ⟨1, _⟩ => show win1_6.index t (1 : Fin 3) * 1024 + 1 * p.val = p.val; omega
  | ⟨2, _⟩ => show win1_6.index t (2 : Fin 3) * 1024 + 1 * e.val = e.val; omega

/-- What point t writes back to the first output is block t of max(X·Wpᵀ + bias, 0). -/
theorem written6 (c : Dev nD) (t : Fin cfg1.N) :
    (dat1 V c).flushed 6 t = ((cfg1.win 6).blk t).view.read (Elt Ideal) (Cert.Spec.arr3 (Cert.Spec.pre (X V c) (WpF V c) (bF V c))) := by
  have hN : cfg1.N = 8 := N_1
  have ht : t.val < 8 := by have := t.isLt; omega
  show (cfg1.win 6).cut (grid1.coords t) ((dat1 V c).after 6 t) = _
  rw [after1_6, left6]
  funext j
  obtain ⟨u, p, e, rfl⟩ : ∃ (u : Fin 1) (p e : Fin 1024), j = ix3 u p e := ⟨j 0, j 1, j 2, eq_ix3 j⟩
  show k1_pay3 (iblk1 V c 0 t) (iblk1 V c 1 t) (iblk1 V c 2 t) (ix3 u p e)
    = Cert.Spec.arr3 (Cert.Spec.pre (X V c) (WpF V c) (bF V c)) (((cfg1.win 6).blk t).view.emb (ix3 u p e))
  rw [place6 t ⟨t.val, ht⟩ rfl u p e]
  exact block_feat (iblk1 V c 0 t) (iblk1 V c 1 t) (iblk1 V c 2 t) (argX V c) (argWp V c) (argB V c) ⟨t.val, ht⟩
    (xblock_apply V c t ⟨t.val, ht⟩ rfl) (wpblock_apply V c t) (bblock_apply V c t) u p e

/-- An index of the array is in point t's block iff each coordinate is in the block's range on its axis. -/
theorem mem_blk6 (t : Fin cfg1.N) (i : S8x1024x1024.Idx) :
    i ∈ ((cfg1.win 6).blk t).view.set ↔ ∀ a : Fin 3, win1_6.index t a * S1x1024x1024.size a ≤ (i a).val ∧ (i a).val < win1_6.index t a * S1x1024x1024.size a + S1x1024x1024.size a := by
  show i ∈ ((View.whole (Pipeline.arrRef spec1 6)).slice (win1_6.rect t)).set ↔ _
  rw [View.set_slice_whole, Rect.mem_set_unit]
  exact Iff.rfl

/-- Batch b of the array is the block of grid point b. -/
theorem cover6 (i : S8x1024x1024.Idx) : ∃ t : Fin cfg1.N, (cfg1.win 6).flush t = true ∧ i ∈ ((cfg1.win 6).blk t).view.set := by
  have hN : cfg1.N = 8 := N_1
  have h0 : (i 0).val < 8 := (i 0).isLt
  have h1 : (i 1).val < 1024 := (i 1).isLt
  have h2 : (i 2).val < 1024 := (i 2).isLt
  obtain ⟨t, ht⟩ : ∃ t : Fin cfg1.N, t.val = (i 0).val := ⟨⟨(i 0).val, by omega⟩, rfl⟩
  obtain ⟨-, -, -, -, -, -, ⟨e0, e1, e2⟩, -, -, -⟩ := idx_facts t
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 1024 ≤ (i 2).val ∧ (i 2).val < win1_6.index t (2 : Fin 3) * 1024 + 1024; omega

/-! ### Output 1 -/

/-- What the body leaves in the staging buffer is the stored block (the one store fills the buffer). -/
theorem left7 (x0 : Vec Ideal S1x1024x1024 .bf16) (x1 : Vec Ideal S1024x1024 .bf16) (x2 : Vec Ideal S1x1024 .f32)
    (x3 x4 x5 : Vec Ideal S1024x1024 .bf16) : out1_7 x0 x1 x2 x3 x4 x5 = k1_pay5 x0 x1 x2 x3 := by
  unfold out1_7
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place7 (t : Fin cfg1.N) (b : Fin 8) (hbt : b.val = t.val) (u : Fin 1) (p e : Fin 1024) :
    ((cfg1.win 7).blk t).view.emb (ix3 u p e) = (ix3 b p e : S8x1024x1024.Idx) := by
  obtain ⟨-, -, -, -, -, -, -, ⟨e0, e1, e2⟩, -, -⟩ := idx_facts t
  refine funext fun a => Fin.ext ?_
  have hu := u.isLt
  match a with
  | ⟨0, _⟩ => show win1_7.index t (0 : Fin 3) * 1 + 1 * u.val = b.val; omega
  | ⟨1, _⟩ => show win1_7.index t (1 : Fin 3) * 1024 + 1 * p.val = p.val; omega
  | ⟨2, _⟩ => show win1_7.index t (2 : Fin 3) * 1024 + 1 * e.val = e.val; omega

/-- What point t writes back to the second output is block t of the features times Wqᵀ. -/
theorem written7 (c : Dev nD) (t : Fin cfg1.N) :
    (dat1 V c).flushed 7 t = ((cfg1.win 7).blk t).view.read (Elt Ideal) (Cert.Spec.arr3 (Cert.Spec.lin (Cert.Spec.pre (X V c) (WpF V c) (bF V c)) (WqF V c))) := by
  have hN : cfg1.N = 8 := N_1
  have ht : t.val < 8 := by have := t.isLt; omega
  show (cfg1.win 7).cut (grid1.coords t) ((dat1 V c).after 7 t) = _
  rw [after1_7, left7]
  funext j
  obtain ⟨u, p, e, rfl⟩ : ∃ (u : Fin 1) (p e : Fin 1024), j = ix3 u p e := ⟨j 0, j 1, j 2, eq_ix3 j⟩
  show k1_pay5 (iblk1 V c 0 t) (iblk1 V c 1 t) (iblk1 V c 2 t) (iblk1 V c 3 t) (ix3 u p e)
    = Cert.Spec.arr3 (Cert.Spec.lin (Cert.Spec.pre (X V c) (WpF V c) (bF V c)) (WqF V c)) (((cfg1.win 7).blk t).view.emb (ix3 u p e))
  rw [place7 t ⟨t.val, ht⟩ rfl u p e]
  exact block_projFirst (iblk1 V c 0 t) (iblk1 V c 1 t) (iblk1 V c 2 t) (argX V c) (argWp V c) (argB V c) ⟨t.val, ht⟩
    (xblock_apply V c t ⟨t.val, ht⟩ rfl) (wpblock_apply V c t) (bblock_apply V c t)
    (iblk1 V c 3 t) (argWq V c) (wqblock_apply V c t) u p e

/-- An index of the array is in point t's block iff each coordinate is in the block's range on its axis. -/
theorem mem_blk7 (t : Fin cfg1.N) (i : S8x1024x1024.Idx) :
    i ∈ ((cfg1.win 7).blk t).view.set ↔ ∀ a : Fin 3, win1_7.index t a * S1x1024x1024.size a ≤ (i a).val ∧ (i a).val < win1_7.index t a * S1x1024x1024.size a + S1x1024x1024.size a := by
  show i ∈ ((View.whole (Pipeline.arrRef spec1 7)).slice (win1_7.rect t)).set ↔ _
  rw [View.set_slice_whole, Rect.mem_set_unit]
  exact Iff.rfl

/-- Batch b of the array is the block of grid point b. -/
theorem cover7 (i : S8x1024x1024.Idx) : ∃ t : Fin cfg1.N, (cfg1.win 7).flush t = true ∧ i ∈ ((cfg1.win 7).blk t).view.set := by
  have hN : cfg1.N = 8 := N_1
  have h0 : (i 0).val < 8 := (i 0).isLt
  have h1 : (i 1).val < 1024 := (i 1).isLt
  have h2 : (i 2).val < 1024 := (i 2).isLt
  obtain ⟨t, ht⟩ : ∃ t : Fin cfg1.N, t.val = (i 0).val := ⟨⟨(i 0).val, by omega⟩, rfl⟩
  obtain ⟨-, -, -, -, -, -, -, ⟨e0, e1, e2⟩, -, -⟩ := idx_facts t
  refine ⟨t, flush1_7 t, ?_⟩
  rw [mem_blk7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1024 ≤ (i 1).val ∧ (i 1).val < win1_7.index t (1 : Fin 3) * 1024 + 1024; omega
  | ⟨2, _⟩ => show win1_7.index t (2 : Fin 3) * 1024 ≤ (i 2).val ∧ (i 2).val < win1_7.index t (2 : Fin 3) * 1024 + 1024; omega

/-! ### Output 2 -/

/-- What the body leaves in the staging buffer is the stored block (the one store fills the buffer). -/
theorem left8 (x0 : Vec Ideal S1x1024x1024 .bf16) (x1 : Vec Ideal S1024x1024 .bf16) (x2 : Vec Ideal S1x1024 .f32)
    (x3 x4 x5 : Vec Ideal S1024x1024 .bf16) : out1_8 x0 x1 x2 x3 x4 x5 = k1_pay6 x0 x1 x2 x4 := by
  unfold out1_8
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place8 (t : Fin cfg1.N) (b : Fin 8) (hbt : b.val = t.val) (u : Fin 1) (p e : Fin 1024) :
    ((cfg1.win 8).blk t).view.emb (ix3 u p e) = (ix3 b p e : S8x1024x1024.Idx) := by
  obtain ⟨-, -, -, -, -, -, -, -, ⟨e0, e1, e2⟩, -⟩ := idx_facts t
  refine funext fun a => Fin.ext ?_
  have hu := u.isLt
  match a with
  | ⟨0, _⟩ => show win1_8.index t (0 : Fin 3) * 1 + 1 * u.val = b.val; omega
  | ⟨1, _⟩ => show win1_8.index t (1 : Fin 3) * 1024 + 1 * p.val = p.val; omega
  | ⟨2, _⟩ => show win1_8.index t (2 : Fin 3) * 1024 + 1 * e.val = e.val; omega

/-- What point t writes back to the third output is block t of the features times Wkᵀ. -/
theorem written8 (c : Dev nD) (t : Fin cfg1.N) :
    (dat1 V c).flushed 8 t = ((cfg1.win 8).blk t).view.read (Elt Ideal) (Cert.Spec.arr3 (Cert.Spec.lin (Cert.Spec.pre (X V c) (WpF V c) (bF V c)) (WkF V c))) := by
  have hN : cfg1.N = 8 := N_1
  have ht : t.val < 8 := by have := t.isLt; omega
  show (cfg1.win 8).cut (grid1.coords t) ((dat1 V c).after 8 t) = _
  rw [after1_8, left8]
  funext j
  obtain ⟨u, p, e, rfl⟩ : ∃ (u : Fin 1) (p e : Fin 1024), j = ix3 u p e := ⟨j 0, j 1, j 2, eq_ix3 j⟩
  show k1_pay6 (iblk1 V c 0 t) (iblk1 V c 1 t) (iblk1 V c 2 t) (iblk1 V c 4 t) (ix3 u p e)
    = Cert.Spec.arr3 (Cert.Spec.lin (Cert.Spec.pre (X V c) (WpF V c) (bF V c)) (WkF V c)) (((cfg1.win 8).blk t).view.emb (ix3 u p e))
  rw [place8 t ⟨t.val, ht⟩ rfl u p e]
  exact block_projSecond (iblk1 V c 0 t) (iblk1 V c 1 t) (iblk1 V c 2 t) (argX V c) (argWp V c) (argB V c) ⟨t.val, ht⟩
    (xblock_apply V c t ⟨t.val, ht⟩ rfl) (wpblock_apply V c t) (bblock_apply V c t)
    (iblk1 V c 4 t) (argWk V c) (wkblock_apply V c t) u p e

/-- An index of the array is in point t's block iff each coordinate is in the block's range on its axis. -/
theorem mem_blk8 (t : Fin cfg1.N) (i : S8x1024x1024.Idx) :
    i ∈ ((cfg1.win 8).blk t).view.set ↔ ∀ a : Fin 3, win1_8.index t a * S1x1024x1024.size a ≤ (i a).val ∧ (i a).val < win1_8.index t a * S1x1024x1024.size a + S1x1024x1024.size a := by
  show i ∈ ((View.whole (Pipeline.arrRef spec1 8)).slice (win1_8.rect t)).set ↔ _
  rw [View.set_slice_whole, Rect.mem_set_unit]
  exact Iff.rfl

/-- Batch b of the array is the block of grid point b. -/
theorem cover8 (i : S8x1024x1024.Idx) : ∃ t : Fin cfg1.N, (cfg1.win 8).flush t = true ∧ i ∈ ((cfg1.win 8).blk t).view.set := by
  have hN : cfg1.N = 8 := N_1
  have h0 : (i 0).val < 8 := (i 0).isLt
  have h1 : (i 1).val < 1024 := (i 1).isLt
  have h2 : (i 2).val < 1024 := (i 2).isLt
  obtain ⟨t, ht⟩ : ∃ t : Fin cfg1.N, t.val = (i 0).val := ⟨⟨(i 0).val, by omega⟩, rfl⟩
  obtain ⟨-, -, -, -, -, -, -, -, ⟨e0, e1, e2⟩, -⟩ := idx_facts t
  refine ⟨t, flush1_8 t, ?_⟩
  rw [mem_blk8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 1024 ≤ (i 1).val ∧ (i 1).val < win1_8.index t (1 : Fin 3) * 1024 + 1024; omega
  | ⟨2, _⟩ => show win1_8.index t (2 : Fin 3) * 1024 ≤ (i 2).val ∧ (i 2).val < win1_8.index t (2 : Fin 3) * 1024 + 1024; omega

/-! ### Output 3 -/

/-- What the body leaves in the staging buffer is the stored block (the one store fills the buffer). -/
theorem left9 (x0 : Vec Ideal S1x1024x1024 .bf16) (x1 : Vec Ideal S1024x1024 .bf16) (x2 : Vec Ideal S1x1024 .f32)
    (x3 x4 x5 : Vec Ideal S1024x1024 .bf16) : out1_9 x0 x1 x2 x3 x4 x5 = k1_pay1 (k1_pay4 x0 x1 x2) x5 := by
  unfold out1_9
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place9 (t : Fin cfg1.N) (b : Fin 8) (hbt : b.val = t.val) (u : Fin 1) (p e : Fin 1024) :
    ((cfg1.win 9).blk t).view.emb (ix3 u p e) = (ix3 b p e : S8x1024x1024.Idx) := by
  obtain ⟨-, -, -, -, -, -, -, -, -, ⟨e0, e1, e2⟩⟩ := idx_facts t
  refine funext fun a => Fin.ext ?_
  have hu := u.isLt
  match a with
  | ⟨0, _⟩ => show win1_9.index t (0 : Fin 3) * 1 + 1 * u.val = b.val; omega
  | ⟨1, _⟩ => show win1_9.index t (1 : Fin 3) * 1024 + 1 * p.val = p.val; omega
  | ⟨2, _⟩ => show win1_9.index t (2 : Fin 3) * 1024 + 1 * e.val = e.val; omega

/-- What point t writes back to the fourth output is block t of the features times Wvᵀ. -/
theorem written9 (c : Dev nD) (t : Fin cfg1.N) :
    (dat1 V c).flushed 9 t = ((cfg1.win 9).blk t).view.read (Elt Ideal) (Cert.Spec.arr3 (Cert.Spec.lin (Cert.Spec.pre (X V c) (WpF V c) (bF V c)) (WvF V c))) := by
  have hN : cfg1.N = 8 := N_1
  have ht : t.val < 8 := by have := t.isLt; omega
  show (cfg1.win 9).cut (grid1.coords t) ((dat1 V c).after 9 t) = _
  rw [after1_9, left9]
  funext j
  obtain ⟨u, p, e, rfl⟩ : ∃ (u : Fin 1) (p e : Fin 1024), j = ix3 u p e := ⟨j 0, j 1, j 2, eq_ix3 j⟩
  show k1_pay1 (k1_pay4 (iblk1 V c 0 t) (iblk1 V c 1 t) (iblk1 V c 2 t)) (iblk1 V c 5 t) (ix3 u p e)
    = Cert.Spec.arr3 (Cert.Spec.lin (Cert.Spec.pre (X V c) (WpF V c) (bF V c)) (WvF V c)) (((cfg1.win 9).blk t).view.emb (ix3 u p e))
  rw [place9 t ⟨t.val, ht⟩ rfl u p e]
  exact block_projThird (iblk1 V c 0 t) (iblk1 V c 1 t) (iblk1 V c 2 t) (argX V c) (argWp V c) (argB V c) ⟨t.val, ht⟩
    (xblock_apply V c t ⟨t.val, ht⟩ rfl) (wpblock_apply V c t) (bblock_apply V c t)
    (iblk1 V c 5 t) (argWv V c) (wvblock_apply V c t) u p e

/-- An index of the array is in point t's block iff each coordinate is in the block's range on its axis. -/
theorem mem_blk9 (t : Fin cfg1.N) (i : S8x1024x1024.Idx) :
    i ∈ ((cfg1.win 9).blk t).view.set ↔ ∀ a : Fin 3, win1_9.index t a * S1x1024x1024.size a ≤ (i a).val ∧ (i a).val < win1_9.index t a * S1x1024x1024.size a + S1x1024x1024.size a := by
  show i ∈ ((View.whole (Pipeline.arrRef spec1 9)).slice (win1_9.rect t)).set ↔ _
  rw [View.set_slice_whole, Rect.mem_set_unit]
  exact Iff.rfl

/-- Batch b of the array is the block of grid point b. -/
theorem cover9 (i : S8x1024x1024.Idx) : ∃ t : Fin cfg1.N, (cfg1.win 9).flush t = true ∧ i ∈ ((cfg1.win 9).blk t).view.set := by
  have hN : cfg1.N = 8 := N_1
  have h0 : (i 0).val < 8 := (i 0).isLt
  have h1 : (i 1).val < 1024 := (i 1).isLt
  have h2 : (i 2).val < 1024 := (i 2).isLt
  obtain ⟨t, ht⟩ : ∃ t : Fin cfg1.N, t.val = (i 0).val := ⟨⟨(i 0).val, by omega⟩, rfl⟩
  obtain ⟨-, -, -, -, -, -, -, -, -, ⟨e0, e1, e2⟩⟩ := idx_facts t
  refine ⟨t, flush1_9 t, ?_⟩
  rw [mem_blk9]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 1024 ≤ (i 1).val ∧ (i 1).val < win1_9.index t (1 : Fin 3) * 1024 + 1024; omega
  | ⟨2, _⟩ => show win1_9.index t (2 : Fin 3) * 1024 ≤ (i 2).val ∧ (i 2).val < win1_9.index t (2 : Fin 3) * 1024 + 1024; omega

/-! ### The four arrays after the region -/

/-- The features: max(X·Wpᵀ + bias, 0). -/
theorem final6 (c : Dev nD) :
    (dat1 V c).arrAt 6 cfg1.N = Cert.Spec.arr3 (Cert.Spec.pre (X V c) (WpF V c) (bF V c)) :=
  (dat1 V c).arrAt_eq_of_cover 6 _ (fun t _ => written6 V c t) cover6

/-- The queries: the features times Wqᵀ. -/
theorem final7 (c : Dev nD) :
    (dat1 V c).arrAt 7 cfg1.N = Cert.Spec.arr3 (Cert.Spec.lin (Cert.Spec.pre (X V c) (WpF V c) (bF V c)) (WqF V c)) :=
  (dat1 V c).arrAt_eq_of_cover 7 _ (fun t _ => written7 V c t) cover7

/-- The keys: the features times Wkᵀ. -/
theorem final8 (c : Dev nD) :
    (dat1 V c).arrAt 8 cfg1.N = Cert.Spec.arr3 (Cert.Spec.lin (Cert.Spec.pre (X V c) (WpF V c) (bF V c)) (WkF V c)) :=
  (dat1 V c).arrAt_eq_of_cover 8 _ (fun t _ => written8 V c t) cover8

/-- The values: the features times Wvᵀ. -/
theorem final9 (c : Dev nD) :
    (dat1 V c).arrAt 9 cfg1.N = Cert.Spec.arr3 (Cert.Spec.lin (Cert.Spec.pre (X V c) (WpF V c) (bF V c)) (WvF V c)) :=
  (dat1 V c).arrAt_eq_of_cover 9 _ (fun t _ => written9 V c t) cover9

end Region

end Cert.KProj1

end
-- ==== Proof.KProj2.lean ====
/-
  One modality's projections, read off the pipelined program: for each batch b the program takes the block x[b] of the
  input, forms the features  f = max(x[b]·Wpᵀ + bias, 0)  (the weight arrives already transposed, so the product
  contracts the rows of the stored matrix) and the three products  f·Wqᵀ, f·Wkᵀ, f·Wvᵀ,  and writes each to block b
  of its output array. Here: each stored block at a coordinate as a sum over the contracted axis; each input block as
  the part of its array the grid point names; what a grid point writes back as the block of ONE function of the six
  input arrays; the eight blocks cover the output; so each output array after the region is that function.
-/
import proofs.«131838_j22488448762091_2_alg».proof.Proof.Gen.KernelIdeal.Frame
import proofs.«131838_j22488448762091_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KProj2

open Cert.KernelIdeal Cert.KernelIdeal.Gen Idealize.ShloMosaic Idealize.ShloMosaic.TcCoe Idealize.ShloMosaic.ValueIdx Idealize.SL.Sem
open Idealize.ShloMosaic.Pipeline (Dat)

/-! ## A stored block at a coordinate -/

/-- The left operand's row coordinate is the output's row coordinate. -/
theorem lhs_row (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The right operand's column coordinate is the output's column coordinate. -/
theorem rhs_col (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024,1024]·[1024,1024] product into the zero accumulator at (p, e): Σ_d l(p,d)·r(d,e). -/
theorem prod_apply (l r : FVec Ideal S1024x1024 .bf16) (p e : Fin 1024) :
    matmul dot_S1024x1024_S1024x1024_S1024x1024_1_0_0_1_n_n none l r (constant (F := Ideal) S1024x1024 .f32 0x00000000#32) (ix2 p e)
      = ∑ d : Fin 1024, l (ix2 p d) * r (ix2 d e) := by
  refine (Ideal.matmul_constant_zero_apply dot_S1024x1024_S1024x1024_S1024x1024_1_0_0_1_n_n none l r (ix2 p e)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p e) ((contrEquiv1 dot_S1024x1024_S1024x1024_S1024x1024_1_0_0_1_n_n 1024 rfl rfl).symm k) = ix2 p k :=
    funext fun a => Fin.ext (by
      match a with
      | ⟨0, _⟩ => exact lhs_row (ix2 p e) _
      | ⟨1, _⟩ => exact (dot_S1024x1024_S1024x1024_S1024x1024_1_0_0_1_n_n.lhsIdx_val_of_single rfl (ix2 p e) _).trans hk)
  have er : dot_S1024x1024_S1024x1024_S1024x1024_1_0_0_1_n_n.rhsIdx (ix2 p e) ((contrEquiv1 dot_S1024x1024_S1024x1024_S1024x1024_1_0_0_1_n_n 1024 rfl rfl).symm k) = ix2 k e :=
    funext fun a => Fin.ext (by
      match a with
      | ⟨0, _⟩ => exact (dot_S1024x1024_S1024x1024_S1024x1024_1_0_0_1_n_n.rhsIdx_val_of_single rfl (ix2 p e) _).trans hk
      | ⟨1, _⟩ => exact rhs_col (ix2 p e) _)
  rw [el, er]

/-- The features before they are stored: max(Σ_d x(0,p,d)·w(d,e) + b(0,e), 0). -/
theorem feat_apply (x0 : Vec Ideal S1x1024x1024 .bf16) (x1 : Vec Ideal S1024x1024 .bf16) (x2 : Vec Ideal S1x1024 .f32) (p e : Fin 1024) :
    k2_pay2 x0 x1 x2 (ix2 p e)
      = max ((∑ d : Fin 1024, x0 (ix3 (0 : Fin 1) p d) * x1 (ix2 d e)) + x2 (ix2 (0 : Fin 1) e)) (Ideal.ofBits .f32 0x00000000#32) := by
  unfold k2_pay2
  refine congrArg₂ max (congrArg₂ (· + ·) ?_ ?_) rfl
  · refine (prod_apply _ _ p e).trans ?_
    refine Finset.sum_congr rfl fun d _ => ?_
    refine congrArg₂ (· * ·) ?_ ?_
    · exact shapeCast_1ab_ab_apply x0 _ p d
    · exact congrFun (shapeCast_self x1 _) _
  · refine (broadcastTo_1b_ab_apply _ _ p e).trans ?_
    exact congrFun (shapeCast_self x2 _) _

/-- The features stored: the same number at (0, p, e) of the [1,1024,1024] block. -/
theorem featStore_apply (x0 : Vec Ideal S1x1024x1024 .bf16) (x1 : Vec Ideal S1024x1024 .bf16) (x2 : Vec Ideal S1x1024 .f32) (u : Fin 1) (p e : Fin 1024) :
    k2_pay3 x0 x1 x2 (ix3 u p e)
      = max ((∑ d : Fin 1024, x0 (ix3 (0 : Fin 1) p d) * x1 (ix2 d e)) + x2 (ix2 (0 : Fin 1) e)) (Ideal.ofBits .f32 0x00000000#32) := by
  unfold k2_pay3
  refine (shapeCast_ab_1ab_apply _ _ u p e).trans ?_
  exact feat_apply x0 x1 x2 p e

/-- The features as the left operand of the three later products. -/
theorem featOperand_apply (x0 : Vec Ideal S1x1024x1024 .bf16) (x1 : Vec Ideal S1024x1024 .bf16) (x2 : Vec Ideal S1x1024 .f32) (p e : Fin 1024) :
    k2_pay4 x0 x1 x2 (ix2 p e)
      = max ((∑ d : Fin 1024, x0 (ix3 (0 : Fin 1) p d) * x1 (ix2 d e)) + x2 (ix2 (0 : Fin 1) e)) (Ideal.ofBits .f32 0x00000000#32) := by
  unfold k2_pay4
  exact feat_apply x0 x1 x2 p e

/-- A product of a left operand f with a weight, stored at (0, p, e): Σ_d f(p,d)·w(d,e). -/
theorem proj_apply (f : FVec Ideal S1024x1024 .bf16) (w : Vec Ideal S1024x1024 .bf16) (u : Fin 1) (p e : Fin 1024) :
    k2_pay1 f w (ix3 u p e) = ∑ d : Fin 1024, f (ix2 p d) * w (ix2 d e) := by
  unfold k2_pay1
  refine (shapeCast_ab_1ab_apply _ _ u p e).trans ?_
  refine (prod_apply _ _ p e).trans ?_
  refine Finset.sum_congr rfl fun d _ => ?_
  exact congrArg (f (ix2 p d) * ·) (congrFun (shapeCast_self w _) _)

/-- The first product of the features with a weight, stored at (0, p, e). -/
theorem projFirst_apply (x0 : Vec Ideal S1x1024x1024 .bf16) (x1 : Vec Ideal S1024x1024 .bf16) (x2 : Vec Ideal S1x1024 .f32) (w : Vec Ideal S1024x1024 .bf16) (u : Fin 1) (p e : Fin 1024) :
    k2_pay5 x0 x1 x2 w (ix3 u p e) = ∑ d : Fin 1024, k2_pay4 x0 x1 x2 (ix2 p d) * w (ix2 d e) := by
  unfold k2_pay5
  refine (shapeCast_ab_1ab_apply _ _ u p e).trans ?_
  refine (prod_apply _ _ p e).trans ?_
  refine Finset.sum_congr rfl fun d _ => ?_
  exact congrArg (k2_pay4 x0 x1 x2 (ix2 p d) * ·) (congrFun (shapeCast_self w _) _)

/-- The second product of the features with a weight, stored at (0, p, e). -/
theorem projSecond_apply (x0 : Vec Ideal S1x1024x1024 .bf16) (x1 : Vec Ideal S1024x1024 .bf16) (x2 : Vec Ideal S1x1024 .f32) (w : Vec Ideal S1024x1024 .bf16) (u : Fin 1) (p e : Fin 1024) :
    k2_pay6 x0 x1 x2 w (ix3 u p e) = ∑ d : Fin 1024, k2_pay4 x0 x1 x2 (ix2 p d) * w (ix2 d e) := by
  unfold k2_pay6
  refine (shapeCast_ab_1ab_apply _ _ u p e).trans ?_
  refine (prod_apply _ _ p e).trans ?_
  refine Finset.sum_congr rfl fun d _ => ?_
  exact congrArg (k2_pay4 x0 x1 x2 (ix2 p d) * ·) (congrFun (shapeCast_self w _) _)

/-! ## A stored block as a block of the whole-array functions

  The block of x is batch b of an [8,1024,1024] array X; the weights and the bias are whole arrays. -/

section Blocks
variable (x0 : Vec Ideal S1x1024x1024 .bf16) (x1 : Vec Ideal S1024x1024 .bf16) (x2 : Vec Ideal S1x1024 .f32)
  (X : S8x1024x1024.Idx → EReal) (W : S1024x1024.Idx → EReal) (B : S1x1024.Idx → EReal) (b : Fin 8)
  (hx : ∀ (u : Fin 1) (p d : Fin 1024), x0 (ix3 u p d) = X (ix3 b p d))
  (hw : ∀ d e : Fin 1024, x1 (ix2 d e) = W (ix2 d e))
  (hb : ∀ e : Fin 1024, x2 (ix2 (0 : Fin 1) e) = B (ix2 (0 : Fin 1) e))
include hx hw hb

/-- The features as the later products read them, at row p of batch b. -/
theorem block_featOperand (p e : Fin 1024) :
    k2_pay4 x0 x1 x2 (ix2 p e)
      = Cert.Spec.pre (Cert.Spec.cur3 X) (fun e d => W (ix2 d e)) (fun e => B (ix2 (0 : Fin 1) e)) b p e := by
  refine (featOperand_apply x0 x1 x2 p e).trans ?_
  show _ = max ((∑ d : Fin 1024, X (ix3 b p d) * W (ix2 d e)) + B (ix2 (0 : Fin 1) e)) (Ideal.ofBits .f32 0x00000000#32)
  rw [hb e]
  refine congrArg (fun s => max (s + B (ix2 (0 : Fin 1) e)) (Ideal.ofBits .f32 0x00000000#32)) ?_
  exact Finset.sum_congr rfl fun d _ => by rw [hx 0 p d, hw d e]

/-- The stored features are block b of max(X·Wpᵀ + bias, 0). -/
theorem block_feat (u : Fin 1) (p e : Fin 1024) :
    k2_pay3 x0 x1 x2 (ix3 u p e)
      = Cert.Spec.pre (Cert.Spec.cur3 X) (fun e d => W (ix2 d e)) (fun e => B (ix2 (0 : Fin 1) e)) b p e := by
  refine (featStore_apply x0 x1 x2 u p e).trans ?_
  exact (featOperand_apply x0 x1 x2 p e).symm.trans (block_featOperand x0 x1 x2 X W B b hx hw hb p e)

variable (x3 : Vec Ideal S1024x1024 .bf16) (Wn : S1024x1024.Idx → EReal) (hn : ∀ d e : Fin 1024, x3 (ix2 d e) = Wn (ix2 d e))
include hn

/-- The first stored product is block b of the features times the weight's transpose. -/
theorem block_projFirst (u : Fin 1) (p e : Fin 1024) :
    k2_pay5 x0 x1 x2 x3 (ix3 u p e)
      = Cert.Spec.lin (Cert.Spec.pre (Cert.Spec.cur3 X) (fun e d => W (ix2 d e)) (fun e => B (ix2 (0 : Fin 1) e))) (fun e d => Wn (ix2 d e)) b p e := by
  refine (projFirst_apply x0 x1 x2 x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

/-- The second stored product likewise. -/
theorem block_projSecond (u : Fin 1) (p e : Fin 1024) :
    k2_pay6 x0 x1 x2 x3 (ix3 u p e)
      = Cert.Spec.lin (Cert.Spec.pre (Cert.Spec.cur3 X) (fun e d => W (ix2 d e)) (fun e => B (ix2 (0 : Fin 1) e))) (fun e d => Wn (ix2 d e)) b p e := by
  refine (projSecond_apply x0 x1 x2 x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

/-- The third stored product likewise. -/
theorem block_projThird (u : Fin 1) (p e : Fin 1024) :
    k2_pay1 (k2_pay4 x0 x1 x2) x3 (ix3 u p e)
      = Cert.Spec.lin (Cert.Spec.pre (Cert.Spec.cur3 X) (fun e d => W (ix2 d e)) (fun e => B (ix2 (0 : Fin 1) e))) (fun e d => Wn (ix2 d e)) b p e := by
  refine (proj_apply (k2_pay4 x0 x1 x2) x3 u p e).trans ?_
  show _ = ∑ d : Fin 1024, Cert.Spec.pre (Cert.Spec.cur3 X) (fun e d => W (ix2 d e)) (fun e => B (ix2 (0 : Fin 1) e)) b p d * Wn (ix2 d e)
  exact Finset.sum_congr rfl fun d _ => by rw [block_featOperand x0 x1 x2 X W B b hx hw hb p d, hn d e]

end Blocks

/-! ## The region: input blocks, written blocks, the arrays after the region -/

section Region
variable (V : (c : Dev nD) → (b : Ref sig .tc) → Buf (Elt Ideal) ((c : Thread nD τ).loc b))

/-- The six arrays the region reads, as it finds them. -/
abbrev argX (c : Dev nD) : S8x1024x1024.Idx → EReal := V c (Pipeline.arrRef spec2 0)
abbrev argWp (c : Dev nD) : S1024x1024.Idx → EReal := V c (Pipeline.arrRef spec2 1)
abbrev argB (c : Dev nD) : S1x1024.Idx → EReal := V c (Pipeline.arrRef spec2 2)
abbrev argWq (c : Dev nD) : S1024x1024.Idx → EReal := V c (Pipeline.arrRef spec2 3)
abbrev argWk (c : Dev nD) : S1024x1024.Idx → EReal := V c (Pipeline.arrRef spec2 4)
abbrev argWv (c : Dev nD) : S1024x1024.Idx → EReal := V c (Pipeline.arrRef spec2 5)

/-- The same as functions of coordinates: the input; each weight read transposed (the stored matrix is [in, out]);
    the bias's one row. -/
abbrev X (c : Dev nD) : Cert.Spec.T3 := Cert.Spec.cur3 (argX V c)
abbrev WpF (c : Dev nD) : Cert.Spec.T2 := fun e d => argWp V c (ix2 d e)
abbrev bF (c : Dev nD) : Cert.Spec.T1 := fun e => argB V c (ix2 (0 : Fin 1) e)
abbrev WqF (c : Dev nD) : Cert.Spec.T2 := fun e d => argWq V c (ix2 d e)
abbrev WkF (c : Dev nD) : Cert.Spec.T2 := fun e d => argWk V c (ix2 d e)
abbrev WvF (c : Dev nD) : Cert.Spec.T2 := fun e d => argWv V c (ix2 d e)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the input's and the four outputs' blocks are at (t, 0, 0); the weights' and the
    bias's at (0, 0). -/
theorem idx_facts : ∀ t : Fin cfg2.N,
    (win2_0.index t (0 : Fin 3) = t.val ∧ win2_0.index t (1 : Fin 3) = 0 ∧ win2_0.index t (2 : Fin 3) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 3) = t.val ∧ win2_6.index t (1 : Fin 3) = 0 ∧ win2_6.index t (2 : Fin 3) = 0)
    ∧ (win2_7.index t (0 : Fin 3) = t.val ∧ win2_7.index t (1 : Fin 3) = 0 ∧ win2_7.index t (2 : Fin 3) = 0)
    ∧ (win2_8.index t (0 : Fin 3) = t.val ∧ win2_8.index t (1 : Fin 3) = 0 ∧ win2_8.index t (2 : Fin 3) = 0)
    ∧ (win2_9.index t (0 : Fin 3) = t.val ∧ win2_9.index t (1 : Fin 3) = 0 ∧ win2_9.index t (2 : Fin 3) = 0) :=
  (by decide +kernel : ∀ t : Fin grid2.N, _)

/-- The input's block at point t is batch t of the input. -/
theorem xblock_apply (c : Dev nD) (t : Fin cfg2.N) (b : Fin 8) (hbt : b.val = t.val) (u : Fin 1) (p d : Fin 1024) :
    (iblk2 V c 0 t : S1x1024x1024.Idx → EReal) (ix3 u p d) = argX V c (ix3 b p d) := by
  obtain ⟨⟨e0, e1, e2⟩, -, -, -, -, -, -, -, -, -⟩ := idx_facts t
  unfold iblk2
  rw [View.read_apply]
  show V c (Pipeline.arrRef spec2 0) _ = V c (Pipeline.arrRef spec2 0) _
  refine congrArg _ (funext fun a => Fin.ext ?_)
  have hu := u.isLt
  match a with
  | ⟨0, _⟩ => show win2_0.index t (0 : Fin 3) * 1 + 1 * u.val = b.val; omega
  | ⟨1, _⟩ => show win2_0.index t (1 : Fin 3) * 1024 + 1 * p.val = p.val; omega
  | ⟨2, _⟩ => show win2_0.index t (2 : Fin 3) * 1024 + 1 * d.val = d.val; omega

/-- The first weight's block at every point is the whole weight. -/
theorem wpblock_apply (c : Dev nD) (t : Fin cfg2.N) (d e : Fin 1024) :
    (iblk2 V c 1 t : S1024x1024.Idx → EReal) (ix2 d e) = argWp V c (ix2 d e) := by
  obtain ⟨-, ⟨e0, e1⟩, -, -, -, -, -, -, -, -⟩ := idx_facts t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 1024 + 1 * d.val = d.val; omega
  | ⟨1, _⟩ => show win2_1.index t (1 : Fin 2) * 1024 + 1 * e.val = e.val; omega

/-- The bias's block at every point is the whole bias. -/
theorem bblock_apply (c : Dev nD) (t : Fin cfg2.N) (e : Fin 1024) :
    (iblk2 V c 2 t : S1x1024.Idx → EReal) (ix2 (0 : Fin 1) e) = argB V c (ix2 (0 : Fin 1) e) := by
  obtain ⟨-, -, ⟨e0, e1⟩, -, -, -, -, -, -, -⟩ := idx_facts t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 1 + 1 * 0 = 0; omega
  | ⟨1, _⟩ => show win2_2.index t (1 : Fin 2) * 1024 + 1 * e.val = e.val; omega

/-- The second weight's block at every point is the whole weight. -/
theorem wqblock_apply (c : Dev nD) (t : Fin cfg2.N) (d e : Fin 1024) :
    (iblk2 V c 3 t : S1024x1024.Idx → EReal) (ix2 d e) = argWq V c (ix2 d e) := by
  obtain ⟨-, -, -, ⟨e0, e1⟩, -, -, -, -, -, -⟩ := idx_facts t
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 1024 + 1 * d.val = d.val; omega
  | ⟨1, _⟩ => show win2_3.index t (1 : Fin 2) * 1024 + 1 * e.val = e.val; omega

/-- The third weight's block likewise. -/
theorem wkblock_apply (c : Dev nD) (t : Fin cfg2.N) (d e : Fin 1024) :
    (iblk2 V c 4 t : S1024x1024.Idx → EReal) (ix2 d e) = argWk V c (ix2 d e) := by
  obtain ⟨-, -, -, -, ⟨e0, e1⟩, -, -, -, -, -⟩ := idx_facts t
  unfold iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 1024 + 1 * d.val = d.val; omega
  | ⟨1, _⟩ => show win2_4.index t (1 : Fin 2) * 1024 + 1 * e.val = e.val; omega

/-- The fourth weight's block likewise. -/
theorem wvblock_apply (c : Dev nD) (t : Fin cfg2.N) (d e : Fin 1024) :
    (iblk2 V c 5 t : S1024x1024.Idx → EReal) (ix2 d e) = argWv V c (ix2 d e) := by
  obtain ⟨-, -, -, -, -, ⟨e0, e1⟩, -, -, -, -⟩ := idx_facts t
  unfold iblk2
  rw [View.read_apply]
  show V c (Pipeline.arrRef spec2 5) _ = V c (Pipeline.arrRef spec2 5) _
  refine congrArg _ (funext fun a => Fin.ext ?_)
  match a with
  | ⟨0, _⟩ => show win2_5.index t (0 : Fin 2) * 1024 + 1 * d.val = d.val; omega
  | ⟨1, _⟩ => show win2_5.index t (1 : Fin 2) * 1024 + 1 * e.val = e.val; omega

/-! ### Output 0 -/

/-- What the body leaves in the staging buffer is the stored block (the one store fills the buffer). -/
theorem left6 (x0 : Vec Ideal S1x1024x1024 .bf16) (x1 : Vec Ideal S1024x1024 .bf16) (x2 : Vec Ideal S1x1024 .f32)
    (x3 x4 x5 : Vec Ideal S1024x1024 .bf16) : out2_6 x0 x1 x2 x3 x4 x5 = k2_pay3 x0 x1 x2 := by
  unfold out2_6
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place6 (t : Fin cfg2.N) (b : Fin 8) (hbt : b.val = t.val) (u : Fin 1) (p e : Fin 1024) :
    ((cfg2.win 6).blk t).view.emb (ix3 u p e) = (ix3 b p e : S8x1024x1024.Idx) := by
  obtain ⟨-, -, -, -, -, -, ⟨e0, e1, e2⟩, -, -, -⟩ := idx_facts t
  refine funext fun a => Fin.ext ?_
  have hu := u.isLt
  match a with
  | ⟨0, _⟩ => show win2_6.index t (0 : Fin 3) * 1 + 1 * u.val = b.val; omega
  | ⟨1, _⟩ => show win2_6.index t (1 : Fin 3) * 1024 + 1 * p.val = p.val; omega
  | ⟨2, _⟩ => show win2_6.index t (2 : Fin 3) * 1024 + 1 * e.val = e.val; omega

/-- What point t writes back to the first output is block t of max(X·Wpᵀ + bias, 0). -/
theorem written6 (c : Dev nD) (t : Fin cfg2.N) :
    (dat2 V c).flushed 6 t = ((cfg2.win 6).blk t).view.read (Elt Ideal) (Cert.Spec.arr3 (Cert.Spec.pre (X V c) (WpF V c) (bF V c))) := by
  have hN : cfg2.N = 8 := N_2
  have ht : t.val < 8 := by have := t.isLt; omega
  show (cfg2.win 6).cut (grid2.coords t) ((dat2 V c).after 6 t) = _
  rw [after2_6, left6]
  funext j
  obtain ⟨u, p, e, rfl⟩ : ∃ (u : Fin 1) (p e : Fin 1024), j = ix3 u p e := ⟨j 0, j 1, j 2, eq_ix3 j⟩
  show k2_pay3 (iblk2 V c 0 t) (iblk2 V c 1 t) (iblk2 V c 2 t) (ix3 u p e)
    = Cert.Spec.arr3 (Cert.Spec.pre (X V c) (WpF V c) (bF V c)) (((cfg2.win 6).blk t).view.emb (ix3 u p e))
  rw [place6 t ⟨t.val, ht⟩ rfl u p e]
  exact block_feat (iblk2 V c 0 t) (iblk2 V c 1 t) (iblk2 V c 2 t) (argX V c) (argWp V c) (argB V c) ⟨t.val, ht⟩
    (xblock_apply V c t ⟨t.val, ht⟩ rfl) (wpblock_apply V c t) (bblock_apply V c t) u p e

/-- An index of the array is in point t's block iff each coordinate is in the block's range on its axis. -/
theorem mem_blk6 (t : Fin cfg2.N) (i : S8x1024x1024.Idx) :
    i ∈ ((cfg2.win 6).blk t).view.set ↔ ∀ a : Fin 3, win2_6.index t a * S1x1024x1024.size a ≤ (i a).val ∧ (i a).val < win2_6.index t a * S1x1024x1024.size a + S1x1024x1024.size a := by
  show i ∈ ((View.whole (Pipeline.arrRef spec2 6)).slice (win2_6.rect t)).set ↔ _
  rw [View.set_slice_whole, Rect.mem_set_unit]
  exact Iff.rfl

/-- Batch b of the array is the block of grid point b. -/
theorem cover6 (i : S8x1024x1024.Idx) : ∃ t : Fin cfg2.N, (cfg2.win 6).flush t = true ∧ i ∈ ((cfg2.win 6).blk t).view.set := by
  have hN : cfg2.N = 8 := N_2
  have h0 : (i 0).val < 8 := (i 0).isLt
  have h1 : (i 1).val < 1024 := (i 1).isLt
  have h2 : (i 2).val < 1024 := (i 2).isLt
  obtain ⟨t, ht⟩ : ∃ t : Fin cfg2.N, t.val = (i 0).val := ⟨⟨(i 0).val, by omega⟩, rfl⟩
  obtain ⟨-, -, -, -, -, -, ⟨e0, e1, e2⟩, -, -, -⟩ := idx_facts t
  refine ⟨t, flush2_6 t, ?_⟩
  rw [mem_blk6]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 1024 ≤ (i 1).val ∧ (i 1).val < win2_6.index t (1 : Fin 3) * 1024 + 1024; omega
  | ⟨2, _⟩ => show win2_6.index t (2 : Fin 3) * 1024 ≤ (i 2).val ∧ (i 2).val < win2_6.index t (2 : Fin 3) * 1024 + 1024; omega

/-! ### Output 1 -/

/-- What the body leaves in the staging buffer is the stored block (the one store fills the buffer). -/
theorem left7 (x0 : Vec Ideal S1x1024x1024 .bf16) (x1 : Vec Ideal S1024x1024 .bf16) (x2 : Vec Ideal S1x1024 .f32)
    (x3 x4 x5 : Vec Ideal S1024x1024 .bf16) : out2_7 x0 x1 x2 x3 x4 x5 = k2_pay5 x0 x1 x2 x3 := by
  unfold out2_7
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place7 (t : Fin cfg2.N) (b : Fin 8) (hbt : b.val = t.val) (u : Fin 1) (p e : Fin 1024) :
    ((cfg2.win 7).blk t).view.emb (ix3 u p e) = (ix3 b p e : S8x1024x1024.Idx) := by
  obtain ⟨-, -, -, -, -, -, -, ⟨e0, e1, e2⟩, -, -⟩ := idx_facts t
  refine funext fun a => Fin.ext ?_
  have hu := u.isLt
  match a with
  | ⟨0, _⟩ => show win2_7.index t (0 : Fin 3) * 1 + 1 * u.val = b.val; omega
  | ⟨1, _⟩ => show win2_7.index t (1 : Fin 3) * 1024 + 1 * p.val = p.val; omega
  | ⟨2, _⟩ => show win2_7.index t (2 : Fin 3) * 1024 + 1 * e.val = e.val; omega

/-- What point t writes back to the second output is block t of the features times Wqᵀ. -/
theorem written7 (c : Dev nD) (t : Fin cfg2.N) :
    (dat2 V c).flushed 7 t = ((cfg2.win 7).blk t).view.read (Elt Ideal) (Cert.Spec.arr3 (Cert.Spec.lin (Cert.Spec.pre (X V c) (WpF V c) (bF V c)) (WqF V c))) := by
  have hN : cfg2.N = 8 := N_2
  have ht : t.val < 8 := by have := t.isLt; omega
  show (cfg2.win 7).cut (grid2.coords t) ((dat2 V c).after 7 t) = _
  rw [after2_7, left7]
  funext j
  obtain ⟨u, p, e, rfl⟩ : ∃ (u : Fin 1) (p e : Fin 1024), j = ix3 u p e := ⟨j 0, j 1, j 2, eq_ix3 j⟩
  show k2_pay5 (iblk2 V c 0 t) (iblk2 V c 1 t) (iblk2 V c 2 t) (iblk2 V c 3 t) (ix3 u p e)
    = Cert.Spec.arr3 (Cert.Spec.lin (Cert.Spec.pre (X V c) (WpF V c) (bF V c)) (WqF V c)) (((cfg2.win 7).blk t).view.emb (ix3 u p e))
  rw [place7 t ⟨t.val, ht⟩ rfl u p e]
  exact block_projFirst (iblk2 V c 0 t) (iblk2 V c 1 t) (iblk2 V c 2 t) (argX V c) (argWp V c) (argB V c) ⟨t.val, ht⟩
    (xblock_apply V c t ⟨t.val, ht⟩ rfl) (wpblock_apply V c t) (bblock_apply V c t)
    (iblk2 V c 3 t) (argWq V c) (wqblock_apply V c t) u p e

/-- An index of the array is in point t's block iff each coordinate is in the block's range on its axis. -/
theorem mem_blk7 (t : Fin cfg2.N) (i : S8x1024x1024.Idx) :
    i ∈ ((cfg2.win 7).blk t).view.set ↔ ∀ a : Fin 3, win2_7.index t a * S1x1024x1024.size a ≤ (i a).val ∧ (i a).val < win2_7.index t a * S1x1024x1024.size a + S1x1024x1024.size a := by
  show i ∈ ((View.whole (Pipeline.arrRef spec2 7)).slice (win2_7.rect t)).set ↔ _
  rw [View.set_slice_whole, Rect.mem_set_unit]
  exact Iff.rfl

/-- Batch b of the array is the block of grid point b. -/
theorem cover7 (i : S8x1024x1024.Idx) : ∃ t : Fin cfg2.N, (cfg2.win 7).flush t = true ∧ i ∈ ((cfg2.win 7).blk t).view.set := by
  have hN : cfg2.N = 8 := N_2
  have h0 : (i 0).val < 8 := (i 0).isLt
  have h1 : (i 1).val < 1024 := (i 1).isLt
  have h2 : (i 2).val < 1024 := (i 2).isLt
  obtain ⟨t, ht⟩ : ∃ t : Fin cfg2.N, t.val = (i 0).val := ⟨⟨(i 0).val, by omega⟩, rfl⟩
  obtain ⟨-, -, -, -, -, -, -, ⟨e0, e1, e2⟩, -, -⟩ := idx_facts t
  refine ⟨t, flush2_7 t, ?_⟩
  rw [mem_blk7]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 1024 ≤ (i 1).val ∧ (i 1).val < win2_7.index t (1 : Fin 3) * 1024 + 1024; omega
  | ⟨2, _⟩ => show win2_7.index t (2 : Fin 3) * 1024 ≤ (i 2).val ∧ (i 2).val < win2_7.index t (2 : Fin 3) * 1024 + 1024; omega

/-! ### Output 2 -/

/-- What the body leaves in the staging buffer is the stored block (the one store fills the buffer). -/
theorem left8 (x0 : Vec Ideal S1x1024x1024 .bf16) (x1 : Vec Ideal S1024x1024 .bf16) (x2 : Vec Ideal S1x1024 .f32)
    (x3 x4 x5 : Vec Ideal S1024x1024 .bf16) : out2_8 x0 x1 x2 x3 x4 x5 = k2_pay6 x0 x1 x2 x4 := by
  unfold out2_8
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place8 (t : Fin cfg2.N) (b : Fin 8) (hbt : b.val = t.val) (u : Fin 1) (p e : Fin 1024) :
    ((cfg2.win 8).blk t).view.emb (ix3 u p e) = (ix3 b p e : S8x1024x1024.Idx) := by
  obtain ⟨-, -, -, -, -, -, -, -, ⟨e0, e1, e2⟩, -⟩ := idx_facts t
  refine funext fun a => Fin.ext ?_
  have hu := u.isLt
  match a with
  | ⟨0, _⟩ => show win2_8.index t (0 : Fin 3) * 1 + 1 * u.val = b.val; omega
  | ⟨1, _⟩ => show win2_8.index t (1 : Fin 3) * 1024 + 1 * p.val = p.val; omega
  | ⟨2, _⟩ => show win2_8.index t (2 : Fin 3) * 1024 + 1 * e.val = e.val; omega

/-- What point t writes back to the third output is block t of the features times Wkᵀ. -/
theorem written8 (c : Dev nD) (t : Fin cfg2.N) :
    (dat2 V c).flushed 8 t = ((cfg2.win 8).blk t).view.read (Elt Ideal) (Cert.Spec.arr3 (Cert.Spec.lin (Cert.Spec.pre (X V c) (WpF V c) (bF V c)) (WkF V c))) := by
  have hN : cfg2.N = 8 := N_2
  have ht : t.val < 8 := by have := t.isLt; omega
  show (cfg2.win 8).cut (grid2.coords t) ((dat2 V c).after 8 t) = _
  rw [after2_8, left8]
  funext j
  obtain ⟨u, p, e, rfl⟩ : ∃ (u : Fin 1) (p e : Fin 1024), j = ix3 u p e := ⟨j 0, j 1, j 2, eq_ix3 j⟩
  show k2_pay6 (iblk2 V c 0 t) (iblk2 V c 1 t) (iblk2 V c 2 t) (iblk2 V c 4 t) (ix3 u p e)
    = Cert.Spec.arr3 (Cert.Spec.lin (Cert.Spec.pre (X V c) (WpF V c) (bF V c)) (WkF V c)) (((cfg2.win 8).blk t).view.emb (ix3 u p e))
  rw [place8 t ⟨t.val, ht⟩ rfl u p e]
  exact block_projSecond (iblk2 V c 0 t) (iblk2 V c 1 t) (iblk2 V c 2 t) (argX V c) (argWp V c) (argB V c) ⟨t.val, ht⟩
    (xblock_apply V c t ⟨t.val, ht⟩ rfl) (wpblock_apply V c t) (bblock_apply V c t)
    (iblk2 V c 4 t) (argWk V c) (wkblock_apply V c t) u p e

/-- An index of the array is in point t's block iff each coordinate is in the block's range on its axis. -/
theorem mem_blk8 (t : Fin cfg2.N) (i : S8x1024x1024.Idx) :
    i ∈ ((cfg2.win 8).blk t).view.set ↔ ∀ a : Fin 3, win2_8.index t a * S1x1024x1024.size a ≤ (i a).val ∧ (i a).val < win2_8.index t a * S1x1024x1024.size a + S1x1024x1024.size a := by
  show i ∈ ((View.whole (Pipeline.arrRef spec2 8)).slice (win2_8.rect t)).set ↔ _
  rw [View.set_slice_whole, Rect.mem_set_unit]
  exact Iff.rfl

/-- Batch b of the array is the block of grid point b. -/
theorem cover8 (i : S8x1024x1024.Idx) : ∃ t : Fin cfg2.N, (cfg2.win 8).flush t = true ∧ i ∈ ((cfg2.win 8).blk t).view.set := by
  have hN : cfg2.N = 8 := N_2
  have h0 : (i 0).val < 8 := (i 0).isLt
  have h1 : (i 1).val < 1024 := (i 1).isLt
  have h2 : (i 2).val < 1024 := (i 2).isLt
  obtain ⟨t, ht⟩ : ∃ t : Fin cfg2.N, t.val = (i 0).val := ⟨⟨(i 0).val, by omega⟩, rfl⟩
  obtain ⟨-, -, -, -, -, -, -, -, ⟨e0, e1, e2⟩, -⟩ := idx_facts t
  refine ⟨t, flush2_8 t, ?_⟩
  rw [mem_blk8]
  intro a
  match a with
  | ⟨0, _⟩ => show win2_8.index t (0 : Fin 3) * 1 ≤ (i 0).val ∧ (i 0).val < win2_8.index t (0 : Fin 3) * 1 + 1; omega
  | ⟨1, _⟩ => show win2_8.index t (1 : Fin 3) * 1024 ≤ (i 1).val ∧ (i 1).val < win2_8.index t (1 : Fin 3) * 1024 + 1024; omega
  | ⟨2, _⟩ => show win2_8.index t (2 : Fin 3) * 1024 ≤ (i 2).val ∧ (i 2).val < win2_8.index t (2 : Fin 3) * 1024 + 1024; omega

/-! ### Output 3 -/

/-- What the body leaves in the staging buffer is the stored block (the one store fills the buffer). -/
theorem left9 (x0 : Vec Ideal S1x1024x1024 .bf16) (x1 : Vec Ideal S1024x1024 .bf16) (x2 : Vec Ideal S1x1024 .f32)
    (x3 x4 x5 : Vec Ideal S1024x1024 .bf16) : out2_9 x0 x1 x2 x3 x4 x5 = k2_pay1 (k2_pay4 x0 x1 x2) x5 := by
  unfold out2_9
  rw [View.canon_unit_zero hz3]
  simp only [View.ld_unit_zero (S := S1x1024x1024) hz3, View.ld_unit_zero (S := S1024x1024) hz2, View.ld_unit_zero (S := S1x1024) hz2]

/-- An element (u, p, e) of point t's block sits at (t, p, e) of the array. -/
theorem place9 (t : Fin cfg2.N) (b : Fin 8) (hbt : b.val = t.val) (u : Fin 1) (p e : Fin 1024) :
    ((cfg2.win 9).blk t).view.emb (ix3 u p e) = (ix3 b p e : S8x1024x1024.Idx) := by
  obtain ⟨-, -, -, -, -, -, -, -, -, ⟨e0, e1, e2⟩⟩ := idx_facts t
  refine funext fun a => Fin.ext ?_
  have hu := u.isLt
  match a with
  | ⟨0, _⟩ => show win2_9.index t (0 : Fin 3) * 1 + 1 * u.val = b.val; omega
  | ⟨1, _⟩ => show win2_9.index t (1 : Fin 3) * 1024 + 1 * p.val = p.val; omega
  | ⟨2, _⟩ => show win2_9.index t (2 : Fin 3) * 1024 + 1 * e.val = e.val; omega

/-- What point t writes back to the fourth output is block t of the features times Wvᵀ. -/
theorem written9 (c : Dev nD) (t : Fin cfg2.N) :
    (dat2 V c).flushed 9 t = ((cfg2.win 9).blk t).view.read (Elt Ideal) (Cert.Spec.arr3 (Cert.Spec.lin (Cert.Spec.pre (X V c) (WpF V c) (bF V c)) (WvF V c))) := by
  have hN : cfg2.N = 8 := N_2
  have ht : t.val < 8 := by have := t.isLt; omega
  show (cfg2.win 9).cut (grid2.coords t) ((dat2 V c).after 9 t) = _
  rw [after2_9, left9]
  funext j
  obtain ⟨u, p, e, rfl⟩ : ∃ (u : Fin 1) (p e : Fin 1024), j = ix3 u p e := ⟨j 0, j 1, j 2, eq_ix3 j⟩
  show k2_pay1 (k2_pay4 (iblk2 V c 0 t) (iblk2 V c 1 t) (iblk2 V c 2 t)) (iblk2 V c 5 t) (ix3 u p e)
    = Cert.Spec.arr3 (Cert.Spec.lin (Cert.Spec.pre (X V c) (WpF V c) (bF V c)) (WvF V c)) (((cfg2.win 9).blk t).view.emb (ix3 u p e))
  rw [place9 t ⟨t.val, ht⟩ rfl u p e]
  exact block_projThird (iblk2 V c 0 t) (iblk2 V c 1 t) (iblk2 V c 2 t) (argX V c) (argWp V c) (argB V c) ⟨t.val, ht⟩
    (xblock_apply V c t ⟨t.val, ht⟩ rfl) (wpblock_apply V c t) (bblock_apply V c t)
    (iblk2 V c 5 t) (argWv V c) (wvblock_apply V c t) u p e

/-- An index of the array is in point t's block iff each coordinate is in the block's range on its axis. -/
theorem mem_blk9 (t : Fin cfg2.N) (i : S8x1024x1024.Idx) :
    i ∈ ((cfg2.win 9).blk t).view.set ↔ ∀ a : Fin 3, win2_9.index t a * S1x1024x1024.size a ≤ (i a).val ∧ (i a).val < win2_9.index t a * S1x1024x1024.size a + S1x1024x1024.size a := by
  show i ∈ ((View.whole (Pipeline.arrRef spec2 9)).slice (win2_9.rect t)).set ↔ _
  rw [View.set_slice_whole, Rect.mem_set_unit]
  exact Iff.rfl

/-- Batch b of the array is the block of grid point b. -/
theorem cover9 (i : S8x1024x1024.Idx) : ∃ t : Fin cfg2.N, (cfg2.win 9).flush t = true ∧ i ∈ ((cfg2.win 9).blk t).view.set := by
  have hN : cfg2.N = 8 := N_2
  have h0 : (i 0).val < 8 := (i 0).isLt
  have h1 : (i 1).val < 1024 := (i 1).isLt
  have h2 : (i 2).val < 1024 := (i 2).isLt
  obtain ⟨t, ht⟩ : ∃ t : Fin cfg2.N, t.val = (i 0).val := ⟨⟨(i 0).val, by omega⟩, rfl⟩
  obtain ⟨-, -, -, -, -, -, -, -, -, ⟨e0, e1, e2⟩⟩ := idx_facts t
  refine ⟨t, flush2_9 t, ?_⟩
  rw [mem_blk9]
  intro a
  match a with
  | ⟨0, _⟩ => show win2_9.index t (0 : Fin 3) * 1 ≤ (i 0).val ∧ (i 0).val < win2_9.index t (0 : Fin 3) * 1 + 1; omega
  | ⟨1, _⟩ => show win2_9.index t (1 : Fin 3) * 1024 ≤ (i 1).val ∧ (i 1).val < win2_9.index t (1 : Fin 3) * 1024 + 1024; omega
  | ⟨2, _⟩ => show win2_9.index t (2 : Fin 3) * 1024 ≤ (i 2).val ∧ (i 2).val < win2_9.index t (2 : Fin 3) * 1024 + 1024; omega

/-! ### The four arrays after the region -/

/-- The features: max(X·Wpᵀ + bias, 0). -/
theorem final6 (c : Dev nD) :
    (dat2 V c).arrAt 6 cfg2.N = Cert.Spec.arr3 (Cert.Spec.pre (X V c) (WpF V c) (bF V c)) :=
  (dat2 V c).arrAt_eq_of_cover 6 _ (fun t _ => written6 V c t) cover6

/-- The queries: the features times Wqᵀ. -/
theorem final7 (c : Dev nD) :
    (dat2 V c).arrAt 7 cfg2.N = Cert.Spec.arr3 (Cert.Spec.lin (Cert.Spec.pre (X V c) (WpF V c) (bF V c)) (WqF V c)) :=
  (dat2 V c).arrAt_eq_of_cover 7 _ (fun t _ => written7 V c t) cover7

/-- The keys: the features times Wkᵀ. -/
theorem final8 (c : Dev nD) :
    (dat2 V c).arrAt 8 cfg2.N = Cert.Spec.arr3 (Cert.Spec.lin (Cert.Spec.pre (X V c) (WpF V c) (bF V c)) (WkF V c)) :=
  (dat2 V c).arrAt_eq_of_cover 8 _ (fun t _ => written8 V c t) cover8

/-- The values: the features times Wvᵀ. -/
theorem final9 (c : Dev nD) :
    (dat2 V c).arrAt 9 cfg2.N = Cert.Spec.arr3 (Cert.Spec.lin (Cert.Spec.pre (X V c) (WpF V c) (bF V c)) (WvF V c)) :=
  (dat2 V c).arrAt_eq_of_cover 9 _ (fun t _ => written9 V c t) cover9

end Region

end Cert.KProj2

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KAttnPay.lean ====
/-
  The attention body's arithmetic at an index, over arbitrary blocks.

  At one grid point the body holds 256 query rows of q1, q2, q3 and of f1, f2, f3, and all 1024 rows of k1, k2, k3, v1, v2, v3.
  A product q·kᵀ at (r, j) is the product of row r of q with row j of k; a row of scores is normalised by
  exp(s − max s) / Σ exp(s − max s) and multiplied into v: at (r, e) that is Σ_j soft(s(r,·))_j · v(j, e).
-/
import proofs.«131838_j22488448762091_2_alg».proof.Proof.Gen.KernelIdeal.Skeleton
import proofs.«131838_j22488448762091_2_alg».proof.Proof.Spec
import proofs.«131838_j22488448762091_2_alg».proof.Proof.LibContract
import proofs.«131838_j22488448762091_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KAttnPay

open Cert.KernelIdeal Cert.KernelIdeal.Gen Idealize.ShloMosaic Idealize.ShloMosaic.ValueIdx Cert.Spec

/-! ## The operand indices of the two products, one coordinate at a time -/

theorem lhsT_0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem rhsT_0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem lhsP_0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem rhsP_1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- q·kᵀ into a zero accumulator, at (r, j): row r of q times row j of k. -/
theorem qk_apply (q : FVec Ideal S256x1024 .bf16) (k : FVec Ideal S1024x1024 .bf16) (r : Fin 256) (j : Fin 1024) :
    matmul dot_S256x1024_S1024x1024_S256x1024_1_1_0_0_n_n none q k (constant S256x1024 .f32 0x00000000#32) (ix2 r j)
      = dot (fun d => q (ix2 r d)) (fun d => k (ix2 j d)) := by
  refine Cert.Lib.Contract.matmul_zero_single dot_S256x1024_S1024x1024_S256x1024_1_1_0_0_n_n none 1024 rfl rfl q k (ix2 r j)
    (fun d => ix2 r d) (fun d => ix2 j d) ?_ ?_
  · intro d q' hq
    funext a
    refine Fin.ext ?_
    match a with
    | ⟨0, _⟩ => exact lhsT_0 (ix2 r j) q'
    | ⟨1, _⟩ => exact (dot_S256x1024_S1024x1024_S256x1024_1_1_0_0_n_n.lhsIdx_val_of_single rfl (ix2 r j) q').trans hq
  · intro d q' hq
    funext a
    refine Fin.ext ?_
    match a with
    | ⟨0, _⟩ => exact rhsT_0 (ix2 r j) q'
    | ⟨1, _⟩ => exact (dot_S256x1024_S1024x1024_S256x1024_1_1_0_0_n_n.rhsIdx_val_of_single rfl (ix2 r j) q').trans hq

/-- p·v into a zero accumulator, at (r, e): Σ_j p(r, j)·v(j, e). -/
theorem pv_apply (p : FVec Ideal S256x1024 .bf16) (v : FVec Ideal S1024x1024 .bf16) (r : Fin 256) (e : Fin 1024) :
    matmul dot_S256x1024_S1024x1024_S256x1024_1_0_0_1_n_n none p v (constant S256x1024 .f32 0x00000000#32) (ix2 r e)
      = ∑ j : Fin 1024, p (ix2 r j) * v (ix2 j e) := by
  refine Cert.Lib.Contract.matmul_zero_single dot_S256x1024_S1024x1024_S256x1024_1_0_0_1_n_n none 1024 rfl rfl p v (ix2 r e)
    (fun j => ix2 r j) (fun j => ix2 j e) ?_ ?_
  · intro d q' hq
    funext a
    refine Fin.ext ?_
    match a with
    | ⟨0, _⟩ => exact lhsP_0 (ix2 r e) q'
    | ⟨1, _⟩ => exact (dot_S256x1024_S1024x1024_S256x1024_1_0_0_1_n_n.lhsIdx_val_of_single rfl (ix2 r e) q').trans hq
  · intro d q' hq
    funext a
    refine Fin.ext ?_
    match a with
    | ⟨0, _⟩ => exact (dot_S256x1024_S1024x1024_S256x1024_1_0_0_1_n_n.rhsIdx_val_of_single rfl (ix2 r e) q').trans hq
    | ⟨1, _⟩ => exact rhsP_1 (ix2 r e) q'

/-! ## A row's maximum and sum, kept as a column and spread over the row -/

/-- The index over a row r with j inserted on the reduced axis is (r, j). -/
theorem lift_row (h : S256x1024.Reduces [1] S256) (r : Fin 256) (j : Fin 1024) : h.lift (ix1 r) j = ix2 r j :=
  funext fun ax => Fin.ext (by match ax with | ⟨0, _⟩ => rfl | ⟨1, _⟩ => rfl)

/-- The row maximum from −∞, cast to a column and broadcast over the row: at (r, j) the largest entry of row r. -/
theorem rowmax_apply (s : FVec Ideal S256x1024 .f32) (r : Fin 256) (j : Fin 1024) :
    broadcastTo S256x1024 (shapeCast S256x1 (multiReduction .maximumf [1] S256 s 0xFF800000#32 reduces_S256x1024_S256 (.inl rfl) rfl)
      shapeCasts_S256_S256x1) broadcasts_S256x1_S256x1024 (ix2 r j) = rmax (fun j => s (ix2 r j)) := by
  rw [Cert.LibKeepdims.broadcastTo_a1_ab_apply, Cert.LibKeepdims.shapeCast_a_a1_apply]
  refine (Ideal.multiReduction_maximumf_single s 0xFF800000#32 reduces_S256x1024_S256 (.inl rfl) rfl (ix1 r)).trans ?_
  refine congrArg (fun g => (Finset.univ : Finset (Fin 1024)).fold max (Ideal.ofBits .f32 0xFF800000#32) g) (funext fun j => ?_)
  exact congrArg s (lift_row reduces_S256x1024_S256 r j)

/-- The row sum from the zero word, cast to a column and broadcast over the row: at (r, j) the sum of row r. -/
theorem rowsum_apply (x : FVec Ideal S256x1024 .f32) (r : Fin 256) (j : Fin 1024) :
    broadcastTo S256x1024 (shapeCast S256x1 (multiReduction .add [1] S256 x 0x00000000#32 reduces_S256x1024_S256 (.inl rfl) rfl)
      shapeCasts_S256_S256x1) broadcasts_S256x1_S256x1024 (ix2 r j) = ∑ j' : Fin 1024, x (ix2 r j') := by
  rw [Cert.LibKeepdims.broadcastTo_a1_ab_apply, Cert.LibKeepdims.shapeCast_a_a1_apply]
  refine (Ideal.multiReduction_add_single x 0x00000000#32 reduces_S256x1024_S256 (.inl rfl) rfl (ix1 r)).trans ?_
  exact Finset.sum_congr rfl fun j' _ => congrArg x (lift_row reduces_S256x1024_S256 r j')

/-! ## Scores normalised and multiplied into the values -/

/-- exp(s − rowmax s), entry by entry. -/
def expRows (s : FVec Ideal S256x1024 .f32) : FVec Ideal S256x1024 .f32 :=
  exp (subf s (broadcastTo S256x1024 (shapeCast S256x1 (multiReduction .maximumf [1] S256 s 0xFF800000#32 reduces_S256x1024_S256 (.inl rfl) rfl)
      shapeCasts_S256_S256x1) broadcasts_S256x1_S256x1024))

theorem expRows_apply (s : FVec Ideal S256x1024 .f32) (r : Fin 256) (j : Fin 1024) :
    expRows s (ix2 r j) = expo (fun j => s (ix2 r j)) j := by
  show Ideal.exp (s (ix2 r j) - _) = _
  rw [rowmax_apply]
  rfl

/-- The body's chain from a score block to the product with the values. -/
def softAV (s : FVec Ideal S256x1024 .f32) (v : FVec Ideal S1024x1024 .bf16) : FVec Ideal S256x1024 .f32 :=
  matmul dot_S256x1024_S1024x1024_S256x1024_1_0_0_1_n_n none
    (truncf .bf16 (divf (expRows s) (broadcastTo S256x1024 (shapeCast S256x1
      (multiReduction .add [1] S256 (expRows s) 0x00000000#32 reduces_S256x1024_S256 (.inl rfl) rfl) shapeCasts_S256_S256x1)
      broadcasts_S256x1_S256x1024)) bitsLt_bf16_f32) v (constant S256x1024 .f32 0x00000000#32)

/-- At (r, e): Σ_j soft(s(r,·))_j · v(j, e). -/
theorem softAV_apply (s : FVec Ideal S256x1024 .f32) (v : FVec Ideal S1024x1024 .bf16) (r : Fin 256) (e : Fin 1024) :
    softAV s v (ix2 r e) = ∑ j : Fin 1024, soft (fun j => s (ix2 r j)) j * v (ix2 j e) := by
  unfold softAV
  rw [pv_apply]
  refine Finset.sum_congr rfl fun j _ => congrArg (· * v (ix2 j e)) ?_
  show Ideal.div (expRows s (ix2 r j)) (broadcastTo S256x1024 _ broadcasts_S256x1_S256x1024 (ix2 r j)) = _
  rw [rowsum_apply, expRows_apply]
  unfold soft
  refine congrArg (Ideal.div _) (Finset.sum_congr rfl fun j' _ => ?_)
  exact expRows_apply s r j'

theorem pay16_eq (v13 : FVec Ideal S1024x1024 .bf16) (v22 : FVec Ideal S256x1024 .f32) :
    k3_pay16 v13 v22 = shapeCast S1x256x1024 (softAV v22 v13) shapeCasts_S256x1024_S1x256x1024 := rfl
theorem pay17_eq (v15 : FVec Ideal S1024x1024 .bf16) (v25 : FVec Ideal S256x1024 .f32) :
    k3_pay17 v15 v25 = shapeCast S1x256x1024 (softAV v25 v15) shapeCasts_S256x1024_S1x256x1024 := rfl
theorem pay15_eq (v17 : FVec Ideal S1024x1024 .bf16) (v23 v26 : FVec Ideal S256x1024 .f32) :
    k3_pay15 v17 v23 v26 = softAV (addf v23 v26) v17 := rfl

/-! ## Unit leading axes -/

/-- A [1, a, b] block read as [a, b]: at (r, d) the block at (0, r, d). -/
theorem drop_unit_apply {α : Type} {a b : Nat} (x : (⟨3, ![1, a, b]⟩ : Shape).Idx → α)
    (h : (⟨3, ![1, a, b]⟩ : Shape).ShapeCasts ⟨2, ![a, b]⟩) (r : Fin a) (d : Fin b) :
    shapeCast ⟨2, ![a, b]⟩ x h (ix2 r d) = x (ix3 (0 : Fin 1) r d) :=
  shapeCast_apply x h _ _ (by
    rw [Shape.rowMajor_val_two, Shape.rowMajor_val_three]
    show ((0 : Fin 1).val * a + r.val) * b + d.val = r.val * b + d.val
    simp)

/-- An [a, b] array given a unit leading axis: at (u, r, d) the array at (r, d). -/
theorem add_unit_apply {α : Type} {a b : Nat} (x : (⟨2, ![a, b]⟩ : Shape).Idx → α)
    (h : (⟨2, ![a, b]⟩ : Shape).ShapeCasts ⟨3, ![1, a, b]⟩) (u : Fin 1) (r : Fin a) (d : Fin b) :
    shapeCast ⟨3, ![1, a, b]⟩ x h (ix3 u r d) = x (ix2 r d) :=
  shapeCast_apply x h _ _ (by
    have hu : u.val = 0 := by omega
    rw [Shape.rowMajor_val_two, Shape.rowMajor_val_three]
    show r.val * b + d.val = (u.val * a + r.val) * b + d.val
    rw [hu]; simp)

/-! ## The six stored pieces at an index of the block -/

/-- Row r of a [1, 256, 1024] block. -/
def rowq (x : Vec Ideal S1x256x1024 .bf16) (r : Fin 256) : Fin 1024 → EReal := fun d => x (ix3 (0 : Fin 1) r d)
/-- Row j of a [1, 1024, 1024] block. -/
def rowk (x : Vec Ideal S1x1024x1024 .bf16) (j : Fin 1024) : Fin 1024 → EReal := fun d => x (ix3 (0 : Fin 1) j d)

theorem pay11_eq (q2 q3 : Vec Ideal S1x256x1024 .bf16) (k1 : Vec Ideal S1x1024x1024 .bf16) :
    k3_pay11 q2 q3 k1 = matmul (F := Ideal) dot_S256x1024_S1024x1024_S256x1024_1_1_0_0_n_n none
      (truncf .bf16 (addf (extf .f32 (shapeCast S256x1024 q2 shapeCasts_S1x256x1024_S256x1024 : FVec Ideal S256x1024 .bf16) bitsLt_bf16_f32)
        (extf .f32 (shapeCast S256x1024 q3 shapeCasts_S1x256x1024_S256x1024 : FVec Ideal S256x1024 .bf16) bitsLt_bf16_f32)) bitsLt_bf16_f32 : FVec Ideal S256x1024 .bf16)
      (shapeCast S1024x1024 k1 shapeCasts_S1x1024x1024_S1024x1024 : FVec Ideal S1024x1024 .bf16) (constant S256x1024 .f32 0x00000000#32) := rfl

theorem pay12_eq (q1 : Vec Ideal S1x256x1024 .bf16) (k3 : Vec Ideal S1x1024x1024 .bf16) :
    k3_pay12 q1 k3 = matmul (F := Ideal) dot_S256x1024_S1024x1024_S256x1024_1_1_0_0_n_n none
      (shapeCast S256x1024 q1 shapeCasts_S1x256x1024_S256x1024 : FVec Ideal S256x1024 .bf16)
      (shapeCast S1024x1024 k3 shapeCasts_S1x1024x1024_S1024x1024 : FVec Ideal S1024x1024 .bf16) (constant S256x1024 .f32 0x00000000#32) := rfl

theorem pay14_eq (q2 : Vec Ideal S1x256x1024 .bf16) (k3 : Vec Ideal S1x1024x1024 .bf16) :
    k3_pay14 q2 k3 = matmul (F := Ideal) dot_S256x1024_S1024x1024_S256x1024_1_1_0_0_n_n none
      (shapeCast S256x1024 q2 shapeCasts_S1x256x1024_S256x1024 : FVec Ideal S256x1024 .bf16)
      (shapeCast S1024x1024 k3 shapeCasts_S1x1024x1024_S1024x1024 : FVec Ideal S1024x1024 .bf16) (constant S256x1024 .f32 0x00000000#32) := rfl

theorem pay13_eq (q1 q3 : Vec Ideal S1x256x1024 .bf16) (k2 k3 : Vec Ideal S1x1024x1024 .bf16) :
    k3_pay13 q1 q3 k2 k3 = addf (k3_pay12 q1 k3) (matmul (F := Ideal) dot_S256x1024_S1024x1024_S256x1024_1_1_0_0_n_n none
      (shapeCast S256x1024 q3 shapeCasts_S1x256x1024_S256x1024 : FVec Ideal S256x1024 .bf16)
      (shapeCast S1024x1024 k2 shapeCasts_S1x1024x1024_S1024x1024 : FVec Ideal S1024x1024 .bf16) (constant S256x1024 .f32 0x00000000#32)) := rfl

/-- A product of a query block with a key block, both read through their unit axis, at (r, j). -/
theorem qk_blocks (q : Vec Ideal S1x256x1024 .bf16) (k : Vec Ideal S1x1024x1024 .bf16) (r : Fin 256) (j : Fin 1024) :
    matmul (F := Ideal) dot_S256x1024_S1024x1024_S256x1024_1_1_0_0_n_n none (shapeCast S256x1024 q shapeCasts_S1x256x1024_S256x1024 : FVec Ideal S256x1024 .bf16)
      (shapeCast S1024x1024 k shapeCasts_S1x1024x1024_S1024x1024 : FVec Ideal S1024x1024 .bf16) (constant S256x1024 .f32 0x00000000#32) (ix2 r j)
      = dot (rowq q r) (rowk k j) := by
  rw [qk_apply]
  unfold rowq rowk
  refine congrArg₂ dot (funext fun d => ?_) (funext fun d => ?_)
  · exact drop_unit_apply q _ r d
  · exact drop_unit_apply k _ j d

/-- The scores of the first product, formed from the added queries. -/
theorem pay11_apply (q2 q3 : Vec Ideal S1x256x1024 .bf16) (k1 : Vec Ideal S1x1024x1024 .bf16) (r : Fin 256) (j : Fin 1024) :
    k3_pay11 q2 q3 k1 (ix2 r j) = dot (fun d => rowq q2 r d + rowq q3 r d) (rowk k1 j) := by
  rw [pay11_eq, qk_apply]
  unfold rowq rowk
  refine congrArg₂ dot (funext fun d => ?_) (funext fun d => ?_)
  · show shapeCast S256x1024 q2 shapeCasts_S1x256x1024_S256x1024 (ix2 r d) + shapeCast S256x1024 q3 shapeCasts_S1x256x1024_S256x1024 (ix2 r d) = _
    rw [drop_unit_apply, drop_unit_apply]
  · exact drop_unit_apply k1 _ j d

theorem pay12_apply (q1 : Vec Ideal S1x256x1024 .bf16) (k3 : Vec Ideal S1x1024x1024 .bf16) (r : Fin 256) (j : Fin 1024) :
    k3_pay12 q1 k3 (ix2 r j) = dot (rowq q1 r) (rowk k3 j) := by
  rw [pay12_eq]; exact qk_blocks q1 k3 r j

theorem pay14_apply (q2 : Vec Ideal S1x256x1024 .bf16) (k3 : Vec Ideal S1x1024x1024 .bf16) (r : Fin 256) (j : Fin 1024) :
    k3_pay14 q2 k3 (ix2 r j) = dot (rowq q2 r) (rowk k3 j) := by
  rw [pay14_eq]; exact qk_blocks q2 k3 r j

theorem pay13_apply (q1 q3 : Vec Ideal S1x256x1024 .bf16) (k2 k3 : Vec Ideal S1x1024x1024 .bf16) (r : Fin 256) (j : Fin 1024) :
    k3_pay13 q1 q3 k2 k3 (ix2 r j) = dot (rowq q1 r) (rowk k3 j) + dot (rowq q3 r) (rowk k2 j) := by
  rw [pay13_eq]
  show k3_pay12 q1 k3 (ix2 r j) + _ = _
  rw [pay12_apply, qk_blocks]

/-- A value block read through its unit axis. -/
theorem vblock_apply (v : Vec Ideal S1x1024x1024 .bf16) (j e : Fin 1024) :
    shapeCast S1024x1024 v shapeCasts_S1x1024x1024_S1024x1024 (ix2 j e) = v (ix3 (0 : Fin 1) j e) :=
  drop_unit_apply v _ j e

/-- Piece 0: the first attention, stored with a unit leading axis. -/
theorem piece0_apply (q2 q3 : Vec Ideal S1x256x1024 .bf16) (k1 v1 : Vec Ideal S1x1024x1024 .bf16) (u : Fin 1) (r : Fin 256) (e : Fin 1024) :
    k3_pay16 (k3_pay8 v1) (k3_pay11 q2 q3 k1) (ix3 u r e)
      = ∑ j : Fin 1024, soft (fun j => dot (fun d => rowq q2 r d + rowq q3 r d) (rowk k1 j)) j * v1 (ix3 (0 : Fin 1) j e) := by
  rw [pay16_eq, add_unit_apply, softAV_apply]
  refine Finset.sum_congr rfl fun j _ => ?_
  refine congrArg₂ (fun a b => soft a j * b) (funext fun j' => pay11_apply q2 q3 k1 r j') ?_
  exact vblock_apply v1 j e

/-- Piece 1: the second attention. -/
theorem piece1_apply (q1 q3 : Vec Ideal S1x256x1024 .bf16) (k2 k3 v2 : Vec Ideal S1x1024x1024 .bf16) (u : Fin 1) (r : Fin 256) (e : Fin 1024) :
    k3_pay17 (k3_pay9 v2) (k3_pay13 q1 q3 k2 k3) (ix3 u r e)
      = ∑ j : Fin 1024, soft (fun j => dot (rowq q1 r) (rowk k3 j) + dot (rowq q3 r) (rowk k2 j)) j * v2 (ix3 (0 : Fin 1) j e) := by
  rw [pay17_eq, add_unit_apply, softAV_apply]
  refine Finset.sum_congr rfl fun j _ => ?_
  refine congrArg₂ (fun a b => soft a j * b) (funext fun j' => pay13_apply q1 q3 k2 k3 r j') ?_
  exact vblock_apply v2 j e

/-- Piece 2: the third attention. -/
theorem piece2_apply (q1 q2 : Vec Ideal S1x256x1024 .bf16) (k3 v3 : Vec Ideal S1x1024x1024 .bf16) (u : Fin 1) (r : Fin 256) (e : Fin 1024) :
    k3_pay1 (k3_pay15 (k3_pay10 v3) (k3_pay12 q1 k3) (k3_pay14 q2 k3)) (ix3 u r e)
      = ∑ j : Fin 1024, soft (fun j => dot (rowq q1 r) (rowk k3 j) + dot (rowq q2 r) (rowk k3 j)) j * v3 (ix3 (0 : Fin 1) j e) := by
  show shapeCast S1x256x1024 (k3_pay15 (k3_pay10 v3) (k3_pay12 q1 k3) (k3_pay14 q2 k3)) shapeCasts_S256x1024_S1x256x1024 (ix3 u r e) = _
  rw [add_unit_apply, pay15_eq, softAV_apply]
  refine Finset.sum_congr rfl fun j _ => ?_
  refine congrArg₂ (fun a b => soft a j * b) (funext fun j' => ?_) ?_
  · show k3_pay12 q1 k3 (ix2 r j') + k3_pay14 q2 k3 (ix2 r j') = _
    rw [pay12_apply, pay14_apply]
  · exact vblock_apply v3 j e

/-- Pieces 3, 4, 5: a feature block passed through. -/
theorem feat_apply (f : Vec Ideal S1x256x1024 .bf16) (u : Fin 1) (r : Fin 256) (e : Fin 1024) :
    shapeCast S1x256x1024 (extf (F := Ideal) .f32 (shapeCast S256x1024 f shapeCasts_S1x256x1024_S256x1024 : FVec Ideal S256x1024 .bf16) bitsLt_bf16_f32 : FVec Ideal S256x1024 .f32)
      shapeCasts_S256x1024_S1x256x1024 (ix3 u r e) = f (ix3 (0 : Fin 1) r e) := by
  rw [add_unit_apply]
  exact drop_unit_apply f _ r e

end Cert.KAttnPay

end
-- ==== Proof.KAttn.lean ====
/-
  The attention region's result array as one function of the twelve arrays it reads.

  The grid is (batch b, query tile qt): point t = (b, qt) fetches rows 256·qt … 256·qt + 255 of q1, q2, q3 and f1, f2, f3 of
  batch b, all 1024 rows of k1, k2, k3, v1, v2, v3 of batch b, and writes rows 256·qt … of batch b of the [8, 1024, 6144] result,
  in six stores of 1024 columns each. Every stored piece is the matching piece of the whole-array function at the block's
  place, the 32 blocks cover the array, so the array after the region is that function.
-/
import proofs.«131838_j22488448762091_2_alg».proof.Proof.Gen.KernelIdeal.Frame
import proofs.«131838_j22488448762091_2_alg».proof.Proof.KAttnPay

set_option maxRecDepth 16384

noncomputable section

open scoped BigOperators

namespace Cert.KAttn

open Cert.KernelIdeal Cert.KernelIdeal.Gen Idealize.ShloMosaic Idealize.ShloMosaic.TcCoe Idealize.ShloMosaic.ValueIdx Idealize.ShloMosaic.Pipeline
open Cert.Spec Cert.KAttnPay

theorem hz3 : (![0, 0, 0] : Fin 3 → Nat) = fun _ => 0 := funext fun a => by fin_cases a <;> rfl

/-- Row r of query tile qt. -/
def rowIdx (qt : Fin 4) (r : Fin 256) : Fin 1024 := ⟨256 * qt.val + r.val, by have := qt.isLt; have := r.isLt; omega⟩

/-- The block of an [8, 1024, 6144] function at batch b, query tile qt. -/
def blockG (R : Fin 8 → Fin 1024 → Fin 6144 → EReal) (b : Fin 8) (qt : Fin 4) : S1x256x6144.Idx → EReal :=
  fun y => R b (rowIdx qt ⟨(y 1).val, (y 1).isLt⟩) ⟨(y 2).val, (y 2).isLt⟩

section Block

variable (x0 x1 x2 : Vec Ideal S1x256x1024 .bf16) (x3 x4 x5 x6 x7 x8 : Vec Ideal S1x1024x1024 .bf16)
  (x9 x10 x11 : Vec Ideal S1x256x1024 .bf16) (Q1 Q2 Q3 K1 K2 K3 V1 V2 V3 F1 F2 F3 : T3) (b : Fin 8) (qt : Fin 4)

/-- Where a piece's local index (u, r, e) lands in the block: column off + e. -/
theorem emb_piece (off : Nat) (inb : ∀ a, (![0, 0, off] : Fin 3 → Nat) a + S1x256x1024.size a ≤ S1x256x6144.size a)
    (R : Fin 8 → Fin 1024 → Fin 6144 → EReal) (p : Fin 6) (hoff : off = 1024 * p.val) (o : Fin 6 → T3) (hR : R = cat6 o)
    (u : Fin 1) (r : Fin 256) (e : Fin 1024) :
    blockG R b qt ((Rect.unit (s := S1x256x6144) ![0, 0, off] S1x256x1024.size inb).emb (ix3 u r e)) = o p b (rowIdx qt r) e := by
  subst hR
  unfold blockG
  have h1 : (((Rect.unit (s := S1x256x6144) ![0, 0, off] S1x256x1024.size inb).emb (ix3 u r e)) 1).val = r.val := by
    show 0 + 1 * r.val = r.val; omega
  have h2 : (((Rect.unit (s := S1x256x6144) ![0, 0, off] S1x256x1024.size inb).emb (ix3 u r e)) 2).val = 1024 * p.val + e.val := by
    show off + 1 * e.val = 1024 * p.val + e.val; omega
  exact (cat6_at o b _ _ p e h2).trans (congrArg (fun i => o p b i e) (congrArg (rowIdx qt) (Fin.ext h1)))

/-- Every piece the body stores is the matching piece of the result at the block's place, when the twelve input blocks are
    the blocks of the twelve arrays. -/
theorem block_eq
    (h0 : ∀ r, rowq x0 r = Q1 b (rowIdx qt r)) (h1 : ∀ r, rowq x1 r = Q2 b (rowIdx qt r)) (h2 : ∀ r, rowq x2 r = Q3 b (rowIdx qt r))
    (h3 : ∀ j, rowk x3 j = K1 b j) (h4 : ∀ j, rowk x4 j = K2 b j) (h5 : ∀ j, rowk x5 j = K3 b j)
    (h6 : ∀ j e, x6 (ix3 (0 : Fin 1) j e) = V1 b j e) (h7 : ∀ j e, x7 (ix3 (0 : Fin 1) j e) = V2 b j e)
    (h8 : ∀ j e, x8 (ix3 (0 : Fin 1) j e) = V3 b j e)
    (h9 : ∀ r e, x9 (ix3 (0 : Fin 1) r e) = F1 b (rowIdx qt r) e) (h10 : ∀ r e, x10 (ix3 (0 : Fin 1) r e) = F2 b (rowIdx qt r) e)
    (h11 : ∀ r e, x11 (ix3 (0 : Fin 1) r e) = F3 b (rowIdx qt r) e) (y : S1x256x6144.Idx) :
    out3_12 x0 x1 x2 x3 x4 x5 x6 x7 x8 x9 x10 x11 y
      = blockG (resultK Q1 Q2 Q3 K1 K2 K3 V1 V2 V3 F1 F2 F3) b qt y := by
  have key : ∀ (off : Nat) (inb : ∀ a, (![0, 0, off] : Fin 3 → Nat) a + S1x256x1024.size a ≤ S1x256x6144.size a) (p : Fin 6)
      (hoff : off = 1024 * p.val) (u : Fin 1) (r : Fin 256) (e : Fin 1024),
      blockG (resultK Q1 Q2 Q3 K1 K2 K3 V1 V2 V3 F1 F2 F3) b qt
          ((Rect.unit (s := S1x256x6144) ![0, 0, off] S1x256x1024.size inb).emb (ix3 u r e))
        = pieces (scoreSum Q2 Q3 K1) (score2 Q1 K3 Q3 K2) (score2 Q1 K3 Q2 K3) V1 V2 V3 F1 F2 F3 p b (rowIdx qt r) e :=
    fun off inb p hoff u r e => emb_piece b qt off inb (resultK Q1 Q2 Q3 K1 K2 K3 V1 V2 V3 F1 F2 F3) p hoff
      (pieces (scoreSum Q2 Q3 K1) (score2 Q1 K3 Q3 K2) (score2 Q1 K3 Q2 K3) V1 V2 V3 F1 F2 F3) rfl u r e
  unfold out3_12
  simp only [View.ld_unit_zero (S := S1x256x1024) hz3, View.ld_unit_zero (S := S1x1024x1024) hz3]
  refine View.canon_apply_of_pieces (Val := Elt Ideal) (blockG (resultK Q1 Q2 Q3 K1 K2 K3 V1 V2 V3 F1 F2 F3) b qt) _ ?_ y (cover3_12 _ _ _ _ _ _ y)
  intro p hp
  simp only [List.mem_cons, List.mem_nil_iff, or_false] at hp
  rcases hp with rfl | rfl | rfl | rfl | rfl | rfl
  · intro x
    obtain ⟨u, r, e, rfl⟩ : ∃ (u : Fin 1) (r : Fin 256) (e : Fin 1024), x = ix3 u r e := ⟨x 0, x 1, x 2, eq_ix3 x⟩
    exact ((feat_apply x11 u r e).trans (h11 r e)).trans (key 5120 inb_S1x256x6144_S1x256x1024_0_0_5120 5 rfl u r e).symm
  · intro x
    obtain ⟨u, r, e, rfl⟩ : ∃ (u : Fin 1) (r : Fin 256) (e : Fin 1024), x = ix3 u r e := ⟨x 0, x 1, x 2, eq_ix3 x⟩
    exact ((feat_apply x10 u r e).trans (h10 r e)).trans (key 4096 inb_S1x256x6144_S1x256x1024_0_0_4096 4 rfl u r e).symm
  · intro x
    obtain ⟨u, r, e, rfl⟩ : ∃ (u : Fin 1) (r : Fin 256) (e : Fin 1024), x = ix3 u r e := ⟨x 0, x 1, x 2, eq_ix3 x⟩
    exact ((feat_apply x9 u r e).trans (h9 r e)).trans (key 3072 inb_S1x256x6144_S1x256x1024_0_0_3072 3 rfl u r e).symm
  · intro x
    obtain ⟨u, r, e, rfl⟩ : ∃ (u : Fin 1) (r : Fin 256) (e : Fin 1024), x = ix3 u r e := ⟨x 0, x 1, x 2, eq_ix3 x⟩
    refine ((piece2_apply x0 x1 x5 x8 u r e).trans ?_).trans (key 2048 inb_S1x256x6144_S1x256x1024_0_0_2048 2 rfl u r e).symm
    simp only [h0, h1, h5, h8]
    rfl
  · intro x
    obtain ⟨u, r, e, rfl⟩ : ∃ (u : Fin 1) (r : Fin 256) (e : Fin 1024), x = ix3 u r e := ⟨x 0, x 1, x 2, eq_ix3 x⟩
    refine ((piece1_apply x0 x2 x4 x5 x7 u r e).trans ?_).trans (key 1024 inb_S1x256x6144_S1x256x1024_0_0_1024 1 rfl u r e).symm
    simp only [h0, h2, h4, h5, h7]
    rfl
  · intro x
    obtain ⟨u, r, e, rfl⟩ : ∃ (u : Fin 1) (r : Fin 256) (e : Fin 1024), x = ix3 u r e := ⟨x 0, x 1, x 2, eq_ix3 x⟩
    refine ((piece0_apply x1 x2 x3 x6 u r e).trans ?_).trans (key 0 inb_S1x256x6144_S1x256x1024_0_0_0 0 rfl u r e).symm
    simp only [h1, h2, h3, h6]
    rfl

end Block

/-! ## The blocks of the twelve arrays, and the result array -/

section Region

variable (V : (c : Dev nD) → (b : Ref sig .tc) → Buf (Elt Ideal) ((c : Thread nD τ).loc b))

/-- The output window's block indices over the grid: batch below 8, query tile below 4, no column offset. -/
theorem idx_12 : ∀ t : Fin cfg3.N, win3_12.index t (0 : Fin 3) < 8 ∧ win3_12.index t (1 : Fin 3) < 4 ∧ win3_12.index t (2 : Fin 3) = 0 :=
  (by decide +kernel : ∀ t : Fin grid3.N, _)

/-- Every (batch, query tile) is some point's. -/
theorem idx_onto : ∀ (q0 : Fin 8) (q1 : Fin 4), ∃ t : Fin cfg3.N, win3_12.index t = ![q0.val, q1.val, 0] :=
  (by decide +kernel : ∀ (q0 : Fin 8) (q1 : Fin 4), ∃ t : Fin grid3.N, win3_12.index t = ![q0.val, q1.val, 0])

/-- The batch of grid point t. -/
def bOf (t : Fin cfg3.N) : Fin 8 := ⟨win3_12.index t (0 : Fin 3), (idx_12 t).1⟩
/-- The query tile of grid point t. -/
def qtOf (t : Fin cfg3.N) : Fin 4 := ⟨win3_12.index t (1 : Fin 3), (idx_12 t).2.1⟩

theorem idx_0 : ∀ t : Fin cfg3.N, win3_0.index t (0 : Fin 3) = win3_12.index t (0 : Fin 3) ∧ win3_0.index t (1 : Fin 3) = win3_12.index t (1 : Fin 3)
    ∧ win3_0.index t (2 : Fin 3) = 0 := (by decide +kernel : ∀ t : Fin grid3.N, _)

theorem read_0 (c : Dev nD) (t : Fin cfg3.N) (u : Fin 1) (r : Fin 256) (d : Fin 1024) :
    iblk3 V c 0 t (ix3 u r d) = (V c main_v12_1 : S8x1024x1024.Idx → EReal) (ix3 (bOf t) (rowIdx (qtOf t) r) d) := by
  obtain ⟨e0, e1, e2⟩ := idx_0 t
  show (V c main_v12_1 : S8x1024x1024.Idx → EReal) (((cfg3.win 0).blk t).view.emb (ix3 u r d)) = _
  refine congrArg (V c main_v12_1 : S8x1024x1024.Idx → EReal) (funext fun a => Fin.ext ?_)
  match a with
  | ⟨0, _⟩ => show win3_0.index t (0 : Fin 3) * 1 + 1 * u.val = win3_12.index t (0 : Fin 3); omega
  | ⟨1, _⟩ => show win3_0.index t (1 : Fin 3) * 256 + 1 * r.val = 256 * win3_12.index t (1 : Fin 3) + r.val; omega
  | ⟨2, _⟩ => show win3_0.index t (2 : Fin 3) * 1024 + 1 * d.val = d.val; omega

theorem idx_1 : ∀ t : Fin cfg3.N, win3_1.index t (0 : Fin 3) = win3_12.index t (0 : Fin 3) ∧ win3_1.index t (1 : Fin 3) = win3_12.index t (1 : Fin 3)
    ∧ win3_1.index t (2 : Fin 3) = 0 := (by decide +kernel : ∀ t : Fin grid3.N, _)

theorem read_1 (c : Dev nD) (t : Fin cfg3.N) (u : Fin 1) (r : Fin 256) (d : Fin 1024) :
    iblk3 V c 1 t (ix3 u r d) = (V c main_v22_1 : S8x1024x1024.Idx → EReal) (ix3 (bOf t) (rowIdx (qtOf t) r) d) := by
  obtain ⟨e0, e1, e2⟩ := idx_1 t
  show (V c main_v22_1 : S8x1024x1024.Idx → EReal) (((cfg3.win 1).blk t).view.emb (ix3 u r d)) = _
  refine congrArg (V c main_v22_1 : S8x1024x1024.Idx → EReal) (funext fun a => Fin.ext ?_)
  match a with
  | ⟨0, _⟩ => show win3_1.index t (0 : Fin 3) * 1 + 1 * u.val = win3_12.index t (0 : Fin 3); omega
  | ⟨1, _⟩ => show win3_1.index t (1 : Fin 3) * 256 + 1 * r.val = 256 * win3_12.index t (1 : Fin 3) + r.val; omega
  | ⟨2, _⟩ => show win3_1.index t (2 : Fin 3) * 1024 + 1 * d.val = d.val; omega

theorem idx_2 : ∀ t : Fin cfg3.N, win3_2.index t (0 : Fin 3) = win3_12.index t (0 : Fin 3) ∧ win3_2.index t (1 : Fin 3) = win3_12.index t (1 : Fin 3)
    ∧ win3_2.index t (2 : Fin 3) = 0 := (by decide +kernel : ∀ t : Fin grid3.N, _)

theorem read_2 (c : Dev nD) (t : Fin cfg3.N) (u : Fin 1) (r : Fin 256) (d : Fin 1024) :
    iblk3 V c 2 t (ix3 u r d) = (V c main_v32_1 : S8x1024x1024.Idx → EReal) (ix3 (bOf t) (rowIdx (qtOf t) r) d) := by
  obtain ⟨e0, e1, e2⟩ := idx_2 t
  show (V c main_v32_1 : S8x1024x1024.Idx → EReal) (((cfg3.win 2).blk t).view.emb (ix3 u r d)) = _
  refine congrArg (V c main_v32_1 : S8x1024x1024.Idx → EReal) (funext fun a => Fin.ext ?_)
  match a with
  | ⟨0, _⟩ => show win3_2.index t (0 : Fin 3) * 1 + 1 * u.val = win3_12.index t (0 : Fin 3); omega
  | ⟨1, _⟩ => show win3_2.index t (1 : Fin 3) * 256 + 1 * r.val = 256 * win3_12.index t (1 : Fin 3) + r.val; omega
  | ⟨2, _⟩ => show win3_2.index t (2 : Fin 3) * 1024 + 1 * d.val = d.val; omega

theorem idx_9 : ∀ t : Fin cfg3.N, win3_9.index t (0 : Fin 3) = win3_12.index t (0 : Fin 3) ∧ win3_9.index t (1 : Fin 3) = win3_12.index t (1 : Fin 3)
    ∧ win3_9.index t (2 : Fin 3) = 0 := (by decide +kernel : ∀ t : Fin grid3.N, _)

theorem read_9 (c : Dev nD) (t : Fin cfg3.N) (u : Fin 1) (r : Fin 256) (d : Fin 1024) :
    iblk3 V c 9 t (ix3 u r d) = (V c main_v12_0 : S8x1024x1024.Idx → EReal) (ix3 (bOf t) (rowIdx (qtOf t) r) d) := by
  obtain ⟨e0, e1, e2⟩ := idx_9 t
  show (V c main_v12_0 : S8x1024x1024.Idx → EReal) (((cfg3.win 9).blk t).view.emb (ix3 u r d)) = _
  refine congrArg (V c main_v12_0 : S8x1024x1024.Idx → EReal) (funext fun a => Fin.ext ?_)
  match a with
  | ⟨0, _⟩ => show win3_9.index t (0 : Fin 3) * 1 + 1 * u.val = win3_12.index t (0 : Fin 3); omega
  | ⟨1, _⟩ => show win3_9.index t (1 : Fin 3) * 256 + 1 * r.val = 256 * win3_12.index t (1 : Fin 3) + r.val; omega
  | ⟨2, _⟩ => show win3_9.index t (2 : Fin 3) * 1024 + 1 * d.val = d.val; omega

theorem idx_10 : ∀ t : Fin cfg3.N, win3_10.index t (0 : Fin 3) = win3_12.index t (0 : Fin 3) ∧ win3_10.index t (1 : Fin 3) = win3_12.index t (1 : Fin 3)
    ∧ win3_10.index t (2 : Fin 3) = 0 := (by decide +kernel : ∀ t : Fin grid3.N, _)

theorem read_10 (c : Dev nD) (t : Fin cfg3.N) (u : Fin 1) (r : Fin 256) (d : Fin 1024) :
    iblk3 V c 10 t (ix3 u r d) = (V c main_v22_0 : S8x1024x1024.Idx → EReal) (ix3 (bOf t) (rowIdx (qtOf t) r) d) := by
  obtain ⟨e0, e1, e2⟩ := idx_10 t
  show (V c main_v22_0 : S8x1024x1024.Idx → EReal) (((cfg3.win 10).blk t).view.emb (ix3 u r d)) = _
  refine congrArg (V c main_v22_0 : S8x1024x1024.Idx → EReal) (funext fun a => Fin.ext ?_)
  match a with
  | ⟨0, _⟩ => show win3_10.index t (0 : Fin 3) * 1 + 1 * u.val = win3_12.index t (0 : Fin 3); omega
  | ⟨1, _⟩ => show win3_10.index t (1 : Fin 3) * 256 + 1 * r.val = 256 * win3_12.index t (1 : Fin 3) + r.val; omega
  | ⟨2, _⟩ => show win3_10.index t (2 : Fin 3) * 1024 + 1 * d.val = d.val; omega

theorem idx_11 : ∀ t : Fin cfg3.N, win3_11.index t (0 : Fin 3) = win3_12.index t (0 : Fin 3) ∧ win3_11.index t (1 : Fin 3) = win3_12.index t (1 : Fin 3)
    ∧ win3_11.index t (2 : Fin 3) = 0 := (by decide +kernel : ∀ t : Fin grid3.N, _)

theorem read_11 (c : Dev nD) (t : Fin cfg3.N) (u : Fin 1) (r : Fin 256) (d : Fin 1024) :
    iblk3 V c 11 t (ix3 u r d) = (V c main_v32_0 : S8x1024x1024.Idx → EReal) (ix3 (bOf t) (rowIdx (qtOf t) r) d) := by
  obtain ⟨e0, e1, e2⟩ := idx_11 t
  show (V c main_v32_0 : S8x1024x1024.Idx → EReal) (((cfg3.win 11).blk t).view.emb (ix3 u r d)) = _
  refine congrArg (V c main_v32_0 : S8x1024x1024.Idx → EReal) (funext fun a => Fin.ext ?_)
  match a with
  | ⟨0, _⟩ => show win3_11.index t (0 : Fin 3) * 1 + 1 * u.val = win3_12.index t (0 : Fin 3); omega
  | ⟨1, _⟩ => show win3_11.index t (1 : Fin 3) * 256 + 1 * r.val = 256 * win3_12.index t (1 : Fin 3) + r.val; omega
  | ⟨2, _⟩ => show win3_11.index t (2 : Fin 3) * 1024 + 1 * d.val = d.val; omega

theorem idx_3 : ∀ t : Fin cfg3.N, win3_3.index t (0 : Fin 3) = win3_12.index t (0 : Fin 3) ∧ win3_3.index t (1 : Fin 3) = 0
    ∧ win3_3.index t (2 : Fin 3) = 0 := (by decide +kernel : ∀ t : Fin grid3.N, _)

theorem read_3 (c : Dev nD) (t : Fin cfg3.N) (u : Fin 1) (j : Fin 1024) (d : Fin 1024) :
    iblk3 V c 3 t (ix3 u j d) = (V c main_v12_2 : S8x1024x1024.Idx → EReal) (ix3 (bOf t) j d) := by
  obtain ⟨e0, e1, e2⟩ := idx_3 t
  show (V c main_v12_2 : S8x1024x1024.Idx → EReal) (((cfg3.win 3).blk t).view.emb (ix3 u j d)) = _
  refine congrArg (V c main_v12_2 : S8x1024x1024.Idx → EReal) (funext fun a => Fin.ext ?_)
  match a with
  | ⟨0, _⟩ => show win3_3.index t (0 : Fin 3) * 1 + 1 * u.val = win3_12.index t (0 : Fin 3); omega
  | ⟨1, _⟩ => show win3_3.index t (1 : Fin 3) * 1024 + 1 * j.val = j.val; omega
  | ⟨2, _⟩ => show win3_3.index t (2 : Fin 3) * 1024 + 1 * d.val = d.val; omega

theorem idx_4 : ∀ t : Fin cfg3.N, win3_4.index t (0 : Fin 3) = win3_12.index t (0 : Fin 3) ∧ win3_4.index t (1 : Fin 3) = 0
    ∧ win3_4.index t (2 : Fin 3) = 0 := (by decide +kernel : ∀ t : Fin grid3.N, _)

theorem read_4 (c : Dev nD) (t : Fin cfg3.N) (u : Fin 1) (j : Fin 1024) (d : Fin 1024) :
    iblk3 V c 4 t (ix3 u j d) = (V c main_v22_2 : S8x1024x1024.Idx → EReal) (ix3 (bOf t) j d) := by
  obtain ⟨e0, e1, e2⟩ := idx_4 t
  show (V c main_v22_2 : S8x1024x1024.Idx → EReal) (((cfg3.win 4).blk t).view.emb (ix3 u j d)) = _
  refine congrArg (V c main_v22_2 : S8x1024x1024.Idx → EReal) (funext fun a => Fin.ext ?_)
  match a with
  | ⟨0, _⟩ => show win3_4.index t (0 : Fin 3) * 1 + 1 * u.val = win3_12.index t (0 : Fin 3); omega
  | ⟨1, _⟩ => show win3_4.index t (1 : Fin 3) * 1024 + 1 * j.val = j.val; omega
  | ⟨2, _⟩ => show win3_4.index t (2 : Fin 3) * 1024 + 1 * d.val = d.val; omega

theorem idx_5 : ∀ t : Fin cfg3.N, win3_5.index t (0 : Fin 3) = win3_12.index t (0 : Fin 3) ∧ win3_5.index t (1 : Fin 3) = 0
    ∧ win3_5.index t (2 : Fin 3) = 0 := (by decide +kernel : ∀ t : Fin grid3.N, _)

theorem read_5 (c : Dev nD) (t : Fin cfg3.N) (u : Fin 1) (j : Fin 1024) (d : Fin 1024) :
    iblk3 V c 5 t (ix3 u j d) = (V c main_v32_2 : S8x1024x1024.Idx → EReal) (ix3 (bOf t) j d) := by
  obtain ⟨e0, e1, e2⟩ := idx_5 t
  show (V c main_v32_2 : S8x1024x1024.Idx → EReal) (((cfg3.win 5).blk t).view.emb (ix3 u j d)) = _
  refine congrArg (V c main_v32_2 : S8x1024x1024.Idx → EReal) (funext fun a => Fin.ext ?_)
  match a with
  | ⟨0, _⟩ => show win3_5.index t (0 : Fin 3) * 1 + 1 * u.val = win3_12.index t (0 : Fin 3); omega
  | ⟨1, _⟩ => show win3_5.index t (1 : Fin 3) * 1024 + 1 * j.val = j.val; omega
  | ⟨2, _⟩ => show win3_5.index t (2 : Fin 3) * 1024 + 1 * d.val = d.val; omega

theorem idx_6 : ∀ t : Fin cfg3.N, win3_6.index t (0 : Fin 3) = win3_12.index t (0 : Fin 3) ∧ win3_6.index t (1 : Fin 3) = 0
    ∧ win3_6.index t (2 : Fin 3) = 0 := (by decide +kernel : ∀ t : Fin grid3.N, _)

theorem read_6 (c : Dev nD) (t : Fin cfg3.N) (u : Fin 1) (j : Fin 1024) (d : Fin 1024) :
    iblk3 V c 6 t (ix3 u j d) = (V c main_v12_3 : S8x1024x1024.Idx → EReal) (ix3 (bOf t) j d) := by
  obtain ⟨e0, e1, e2⟩ := idx_6 t
  show (V c main_v12_3 : S8x1024x1024.Idx → EReal) (((cfg3.win 6).blk t).view.emb (ix3 u j d)) = _
  refine congrArg (V c main_v12_3 : S8x1024x1024.Idx → EReal) (funext fun a => Fin.ext ?_)
  match a with
  | ⟨0, _⟩ => show win3_6.index t (0 : Fin 3) * 1 + 1 * u.val = win3_12.index t (0 : Fin 3); omega
  | ⟨1, _⟩ => show win3_6.index t (1 : Fin 3) * 1024 + 1 * j.val = j.val; omega
  | ⟨2, _⟩ => show win3_6.index t (2 : Fin 3) * 1024 + 1 * d.val = d.val; omega

theorem idx_7 : ∀ t : Fin cfg3.N, win3_7.index t (0 : Fin 3) = win3_12.index t (0 : Fin 3) ∧ win3_7.index t (1 : Fin 3) = 0
    ∧ win3_7.index t (2 : Fin 3) = 0 := (by decide +kernel : ∀ t : Fin grid3.N, _)

theorem read_7 (c : Dev nD) (t : Fin cfg3.N) (u : Fin 1) (j : Fin 1024) (d : Fin 1024) :
    iblk3 V c 7 t (ix3 u j d) = (V c main_v22_3 : S8x1024x1024.Idx → EReal) (ix3 (bOf t) j d) := by
  obtain ⟨e0, e1, e2⟩ := idx_7 t
  show (V c main_v22_3 : S8x1024x1024.Idx → EReal) (((cfg3.win 7).blk t).view.emb (ix3 u j d)) = _
  refine congrArg (V c main_v22_3 : S8x1024x1024.Idx → EReal) (funext fun a => Fin.ext ?_)
  match a with
  | ⟨0, _⟩ => show win3_7.index t (0 : Fin 3) * 1 + 1 * u.val = win3_12.index t (0 : Fin 3); omega
  | ⟨1, _⟩ => show win3_7.index t (1 : Fin 3) * 1024 + 1 * j.val = j.val; omega
  | ⟨2, _⟩ => show win3_7.index t (2 : Fin 3) * 1024 + 1 * d.val = d.val; omega

theorem idx_8 : ∀ t : Fin cfg3.N, win3_8.index t (0 : Fin 3) = win3_12.index t (0 : Fin 3) ∧ win3_8.index t (1 : Fin 3) = 0
    ∧ win3_8.index t (2 : Fin 3) = 0 := (by decide +kernel : ∀ t : Fin grid3.N, _)

theorem read_8 (c : Dev nD) (t : Fin cfg3.N) (u : Fin 1) (j : Fin 1024) (d : Fin 1024) :
    iblk3 V c 8 t (ix3 u j d) = (V c main_v32_3 : S8x1024x1024.Idx → EReal) (ix3 (bOf t) j d) := by
  obtain ⟨e0, e1, e2⟩ := idx_8 t
  show (V c main_v32_3 : S8x1024x1024.Idx → EReal) (((cfg3.win 8).blk t).view.emb (ix3 u j d)) = _
  refine congrArg (V c main_v32_3 : S8x1024x1024.Idx → EReal) (funext fun a => Fin.ext ?_)
  match a with
  | ⟨0, _⟩ => show win3_8.index t (0 : Fin 3) * 1 + 1 * u.val = win3_12.index t (0 : Fin 3); omega
  | ⟨1, _⟩ => show win3_8.index t (1 : Fin 3) * 1024 + 1 * j.val = j.val; omega
  | ⟨2, _⟩ => show win3_8.index t (2 : Fin 3) * 1024 + 1 * d.val = d.val; omega

/-- The result as a function of the twelve arrays the region finds. -/
def regionResult (c : Dev nD) : Fin 8 → Fin 1024 → Fin 6144 → EReal :=
  resultK (cur3 (a := 8) (b := 1024) (c := 1024) (V c main_v12_1 : S8x1024x1024.Idx → EReal))
    (cur3 (a := 8) (b := 1024) (c := 1024) (V c main_v22_1 : S8x1024x1024.Idx → EReal))
    (cur3 (a := 8) (b := 1024) (c := 1024) (V c main_v32_1 : S8x1024x1024.Idx → EReal))
    (cur3 (a := 8) (b := 1024) (c := 1024) (V c main_v12_2 : S8x1024x1024.Idx → EReal))
    (cur3 (a := 8) (b := 1024) (c := 1024) (V c main_v22_2 : S8x1024x1024.Idx → EReal))
    (cur3 (a := 8) (b := 1024) (c := 1024) (V c main_v32_2 : S8x1024x1024.Idx → EReal))
    (cur3 (a := 8) (b := 1024) (c := 1024) (V c main_v12_3 : S8x1024x1024.Idx → EReal))
    (cur3 (a := 8) (b := 1024) (c := 1024) (V c main_v22_3 : S8x1024x1024.Idx → EReal))
    (cur3 (a := 8) (b := 1024) (c := 1024) (V c main_v32_3 : S8x1024x1024.Idx → EReal))
    (cur3 (a := 8) (b := 1024) (c := 1024) (V c main_v12_0 : S8x1024x1024.Idx → EReal))
    (cur3 (a := 8) (b := 1024) (c := 1024) (V c main_v22_0 : S8x1024x1024.Idx → EReal))
    (cur3 (a := 8) (b := 1024) (c := 1024) (V c main_v32_0 : S8x1024x1024.Idx → EReal))

/-- What point t writes back is block t of the result. -/
theorem flushed_eq (c : Dev nD) (t : Fin cfg3.N) :
    (dat3 V c).flushed 12 t = ((cfg3.win 12).blk t).view.read (Elt Ideal) (arr3 (regionResult V c)) := by
  show (cfg3.win 12).cut (grid3.coords t) ((dat3 V c).after 12 t) = _
  rw [after3_12]
  funext y
  show out3_12 (iblk3 V c 0 t) (iblk3 V c 1 t) (iblk3 V c 2 t) (iblk3 V c 3 t) (iblk3 V c 4 t) (iblk3 V c 5 t) (iblk3 V c 6 t)
      (iblk3 V c 7 t) (iblk3 V c 8 t) (iblk3 V c 9 t) (iblk3 V c 10 t) (iblk3 V c 11 t) y
    = arr3 (regionResult V c) (((cfg3.win 12).blk t).view.emb y)
  refine (block_eq (iblk3 V c 0 t) (iblk3 V c 1 t) (iblk3 V c 2 t) (iblk3 V c 3 t) (iblk3 V c 4 t) (iblk3 V c 5 t) (iblk3 V c 6 t)
      (iblk3 V c 7 t) (iblk3 V c 8 t) (iblk3 V c 9 t) (iblk3 V c 10 t) (iblk3 V c 11 t)
      (cur3 (a := 8) (b := 1024) (c := 1024) (V c main_v12_1 : S8x1024x1024.Idx → EReal))
      (cur3 (a := 8) (b := 1024) (c := 1024) (V c main_v22_1 : S8x1024x1024.Idx → EReal))
      (cur3 (a := 8) (b := 1024) (c := 1024) (V c main_v32_1 : S8x1024x1024.Idx → EReal))
      (cur3 (a := 8) (b := 1024) (c := 1024) (V c main_v12_2 : S8x1024x1024.Idx → EReal))
      (cur3 (a := 8) (b := 1024) (c := 1024) (V c main_v22_2 : S8x1024x1024.Idx → EReal))
      (cur3 (a := 8) (b := 1024) (c := 1024) (V c main_v32_2 : S8x1024x1024.Idx → EReal))
      (cur3 (a := 8) (b := 1024) (c := 1024) (V c main_v12_3 : S8x1024x1024.Idx → EReal))
      (cur3 (a := 8) (b := 1024) (c := 1024) (V c main_v22_3 : S8x1024x1024.Idx → EReal))
      (cur3 (a := 8) (b := 1024) (c := 1024) (V c main_v32_3 : S8x1024x1024.Idx → EReal))
      (cur3 (a := 8) (b := 1024) (c := 1024) (V c main_v12_0 : S8x1024x1024.Idx → EReal))
      (cur3 (a := 8) (b := 1024) (c := 1024) (V c main_v22_0 : S8x1024x1024.Idx → EReal))
      (cur3 (a := 8) (b := 1024) (c := 1024) (V c main_v32_0 : S8x1024x1024.Idx → EReal))
      (bOf t) (qtOf t)
      (fun r => funext fun d => read_0 V c t 0 r d) (fun r => funext fun d => read_1 V c t 0 r d) (fun r => funext fun d => read_2 V c t 0 r d)
      (fun j => funext fun d => read_3 V c t 0 j d) (fun j => funext fun d => read_4 V c t 0 j d) (fun j => funext fun d => read_5 V c t 0 j d)
      (fun j e => read_6 V c t 0 j e) (fun j e => read_7 V c t 0 j e) (fun j e => read_8 V c t 0 j e)
      (fun r e => read_9 V c t 0 r e) (fun r e => read_10 V c t 0 r e) (fun r e => read_11 V c t 0 r e) y).trans ?_
  obtain ⟨f0, f1, f2⟩ := idx_12 t
  have hy0 : (y 0).val < 1 := (y 0).isLt
  unfold blockG arr3
  refine congr (congr (congrArg (regionResult V c) (Fin.ext ?_)) (Fin.ext ?_)) (Fin.ext ?_)
  · show win3_12.index t (0 : Fin 3) = win3_12.index t (0 : Fin 3) * 1 + 1 * (y 0).val; omega
  · show 256 * win3_12.index t (1 : Fin 3) + (y 1).val = win3_12.index t (1 : Fin 3) * 256 + 1 * (y 1).val; omega
  · show (y 2).val = win3_12.index t (2 : Fin 3) * 6144 + 1 * (y 2).val; omega

/-- An index of the result array is in point t's block iff each coordinate is in the block's range on its axis. -/
theorem mem_blk (t : Fin cfg3.N) (i : S8x1024x6144.Idx) :
    i ∈ ((cfg3.win 12).blk t).view.set ↔ ∀ a : Fin 3, win3_12.index t a * S1x256x6144.size a ≤ (i a).val
      ∧ (i a).val < win3_12.index t a * S1x256x6144.size a + S1x256x6144.size a := by
  show i ∈ ((View.whole main_v33).slice (win3_12.rect t)).set ↔ _
  rw [View.set_slice_whole, Rect.mem_set_unit]
  exact Iff.rfl

/-- The 32 blocks cover the result array: row i₁ of batch i₀ is in the block of point (i₀, i₁ / 256). -/
theorem cover (i : S8x1024x6144.Idx) : ∃ t : Fin cfg3.N, (cfg3.win 12).flush t = true ∧ i ∈ ((cfg3.win 12).blk t).view.set := by
  have hi0 : (i 0).val < 8 := (i 0).isLt
  have hi1 : (i 1).val < 1024 := (i 1).isLt
  have hi2 : (i 2).val < 6144 := (i 2).isLt
  obtain ⟨t, ht⟩ := idx_onto ⟨(i 0).val, hi0⟩ ⟨(i 1).val / 256, by omega⟩
  have q0 : win3_12.index t (0 : Fin 3) = (i 0).val := congrFun ht 0
  have q1 : win3_12.index t (1 : Fin 3) = (i 1).val / 256 := congrFun ht 1
  have q2 : win3_12.index t (2 : Fin 3) = 0 := congrFun ht 2
  refine ⟨t, flush3_12 t, ?_⟩
  rw [mem_blk]
  intro a
  match a with
  | ⟨0, _⟩ => show win3_12.index t (0 : Fin 3) * 1 ≤ (i 0).val ∧ (i 0).val < win3_12.index t (0 : Fin 3) * 1 + 1; omega
  | ⟨1, _⟩ => show win3_12.index t (1 : Fin 3) * 256 ≤ (i 1).val ∧ (i 1).val < win3_12.index t (1 : Fin 3) * 256 + 256; omega
  | ⟨2, _⟩ => show win3_12.index t (2 : Fin 3) * 6144 ≤ (i 2).val ∧ (i 2).val < win3_12.index t (2 : Fin 3) * 6144 + 6144; omega

/-- The result array after the region. -/
theorem final (c : Dev nD) : (dat3 V c).arrAt 12 cfg3.N = arr3 (regionResult V c) :=
  (dat3 V c).arrAt_eq_of_cover 12 (arr3 (regionResult V c)) (fun t _ => flushed_eq V c t) cover

end Region

end Cert.KAttn

end
-- ==== Proof.KChain.lean ====
/-
  The whole program's result as one function of its eighteen arguments.

  The program is three projections (one per modality) followed by the attention step, with transposes, roundings
  and reshapes of the weights and biases in between. Read from the end: the result array is what the attention step
  leaves, a function of the twelve arrays it finds; each of those is what one projection left (nothing later
  overwrites it), a function of the six arrays that projection found; each of those is one argument transposed,
  rounded (the identity on the extended reals) or given a unit axis, the argument itself untouched since the start.
  Composing the three layers gives the specification's function of the arguments.
-/
import proofs.«131838_j22488448762091_2_alg».proof.Proof.Gen.KernelIdeal.Frame
import proofs.«131838_j22488448762091_2_alg».proof.Proof.Spec
import proofs.«131838_j22488448762091_2_alg».proof.Proof.KProj0
import proofs.«131838_j22488448762091_2_alg».proof.Proof.KProj1
import proofs.«131838_j22488448762091_2_alg».proof.Proof.KProj2
import proofs.«131838_j22488448762091_2_alg».proof.Proof.KAttn
import Idealize.ShloMosaic.Lib.Pipeline.Value
import Idealize.ShloMosaic.Lib.ValueLayout
import Idealize.ShloMosaic.Lib.ValueIdx
import Idealize.ShloMosaic.Lib.StableHlo.Run

noncomputable section

open scoped BigOperators

namespace Cert.KChain

open Cert.KernelIdeal Cert.KernelIdeal.Gen Idealize.ShloMosaic Idealize.ShloMosaic.TcCoe Idealize.ShloMosaic.ValueIdx Idealize.SL.Sem
open Idealize.ShloMosaic.StableHlo
open Cert.Spec (cur1 cur2 cur3 arr3)

variable (m : (ℓ : Loc nD τ sig) → Buf (Elt Ideal) ℓ) (ρ : Dev nD → PrngReg)

/-! ## The eighteen arguments as functions of coordinates -/

/-- The three inputs [8,1024,1024]. -/
abbrev x1 (c : Dev nD) : Cert.Spec.T3 := cur3 (m ((c : Thread nD τ).loc main_arg0) : S8x1024x1024.Idx → EReal)
abbrev x2 (c : Dev nD) : Cert.Spec.T3 := cur3 (m ((c : Thread nD τ).loc main_arg1) : S8x1024x1024.Idx → EReal)
abbrev x3 (c : Dev nD) : Cert.Spec.T3 := cur3 (m ((c : Thread nD τ).loc main_arg2) : S8x1024x1024.Idx → EReal)
/-- The twelve weights [out, in]. -/
abbrev Wp1 (c : Dev nD) : Cert.Spec.T2 := cur2 (m ((c : Thread nD τ).loc main_arg3) : S1024x1024.Idx → EReal)
abbrev Wp2 (c : Dev nD) : Cert.Spec.T2 := cur2 (m ((c : Thread nD τ).loc main_arg4) : S1024x1024.Idx → EReal)
abbrev Wp3 (c : Dev nD) : Cert.Spec.T2 := cur2 (m ((c : Thread nD τ).loc main_arg5) : S1024x1024.Idx → EReal)
abbrev Wq1 (c : Dev nD) : Cert.Spec.T2 := cur2 (m ((c : Thread nD τ).loc main_arg6) : S1024x1024.Idx → EReal)
abbrev Wk1 (c : Dev nD) : Cert.Spec.T2 := cur2 (m ((c : Thread nD τ).loc main_arg7) : S1024x1024.Idx → EReal)
abbrev Wv1 (c : Dev nD) : Cert.Spec.T2 := cur2 (m ((c : Thread nD τ).loc main_arg8) : S1024x1024.Idx → EReal)
abbrev Wq2 (c : Dev nD) : Cert.Spec.T2 := cur2 (m ((c : Thread nD τ).loc main_arg9) : S1024x1024.Idx → EReal)
abbrev Wk2 (c : Dev nD) : Cert.Spec.T2 := cur2 (m ((c : Thread nD τ).loc main_arg10) : S1024x1024.Idx → EReal)
abbrev Wv2 (c : Dev nD) : Cert.Spec.T2 := cur2 (m ((c : Thread nD τ).loc main_arg11) : S1024x1024.Idx → EReal)
abbrev Wq3 (c : Dev nD) : Cert.Spec.T2 := cur2 (m ((c : Thread nD τ).loc main_arg12) : S1024x1024.Idx → EReal)
abbrev Wk3 (c : Dev nD) : Cert.Spec.T2 := cur2 (m ((c : Thread nD τ).loc main_arg13) : S1024x1024.Idx → EReal)
abbrev Wv3 (c : Dev nD) : Cert.Spec.T2 := cur2 (m ((c : Thread nD τ).loc main_arg14) : S1024x1024.Idx → EReal)
/-- The three biases [out]. -/
abbrev b1 (c : Dev nD) : Cert.Spec.T1 := cur1 (m ((c : Thread nD τ).loc main_arg15) : S1024.Idx → EReal)
abbrev b2 (c : Dev nD) : Cert.Spec.T1 := cur1 (m ((c : Thread nD τ).loc main_arg16) : S1024.Idx → EReal)
abbrev b3 (c : Dev nD) : Cert.Spec.T1 := cur1 (m ((c : Thread nD τ).loc main_arg17) : S1024.Idx → EReal)

/-- An array made from a function of coordinates, read back as a function of coordinates. -/
theorem cur3_arr3 {a b c : Nat} (f : Fin a → Fin b → Fin c → EReal) : cur3 (arr3 f) = f := rfl

/-! ## Buffers nothing has written yet still hold the launch contents -/

/-- After the first projection argument 4 is as launched. -/
theorem at2_main_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  dsimp only [hostOps0]
  after_results

/-- After the first projection argument 9 is as launched. -/
theorem at2_main_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  dsimp only [hostOps0]
  after_results

/-- After the first projection argument 10 is as launched. -/
theorem at2_main_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  dsimp only [hostOps0]
  after_results

/-- After the first projection argument 11 is as launched. -/
theorem at2_main_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  dsimp only [hostOps0]
  after_results

/-- After the first projection argument 16 is as launched. -/
theorem at2_main_arg16 (c : Dev nD) : W2 m ρ c (Proc.devRef .tc main_arg16) = m ((c : Thread nD τ).loc main_arg16) := by
  rw [W2_of_ne m ρ c main_arg16 (by decide)]
  show StableHlo.after hostOps0 (W0 m ρ c) (Proc.devRef .tc main_arg16) = _
  dsimp only [hostOps0]
  after_results

/-- After the first projection argument 5 is as launched. -/
theorem at2_main_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  dsimp only [hostOps0]
  after_results

/-- After the first projection argument 12 is as launched. -/
theorem at2_main_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  dsimp only [hostOps0]
  after_results

/-- After the first projection argument 13 is as launched. -/
theorem at2_main_arg13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  dsimp only [hostOps0]
  after_results

/-- After the first projection argument 14 is as launched. -/
theorem at2_main_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  dsimp only [hostOps0]
  after_results

/-- After the first projection argument 17 is as launched. -/
theorem at2_main_arg17 (c : Dev nD) : W2 m ρ c (Proc.devRef .tc main_arg17) = m ((c : Thread nD τ).loc main_arg17) := by
  rw [W2_of_ne m ρ c main_arg17 (by decide)]
  show StableHlo.after hostOps0 (W0 m ρ c) (Proc.devRef .tc main_arg17) = _
  dsimp only [hostOps0]
  after_results

/-- After the first projection the rounded copy of argument 1 is that argument. -/
theorem at2_main_v1 (c : Dev nD) : W2 m ρ c (Proc.devRef .tc main_v1) = m ((c : Thread nD τ).loc main_arg1) := by
  rw [W2_of_ne m ρ c main_v1 (by decide)]
  show StableHlo.after hostOps0 (W0 m ρ c) (Proc.devRef .tc main_v1) = _
  dsimp only [hostOps0]
  after_results
  rfl

/-- After the first projection the rounded copy of argument 2 is that argument. -/
theorem at2_main_v2 (c : Dev nD) : W2 m ρ c (Proc.devRef .tc main_v2) = m ((c : Thread nD τ).loc main_arg2) := by
  rw [W2_of_ne m ρ c main_v2 (by decide)]
  show StableHlo.after hostOps0 (W0 m ρ c) (Proc.devRef .tc main_v2) = _
  dsimp only [hostOps0]
  after_results
  rfl

/-- After the second projection argument 5 is as launched. -/
theorem at4_main_arg5 (c : Dev nD) : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  dsimp only [hostOps1]
  after_results
  exact at2_main_arg5 m ρ c

/-- After the second projection argument 12 is as launched. -/
theorem at4_main_arg12 (c : Dev nD) : W4 m ρ c (Proc.devRef .tc main_arg12) = m ((c : Thread nD τ).loc main_arg12) := by
  rw [W4_of_ne m ρ c main_arg12 (by decide)]
  show StableHlo.after hostOps1 (W2 m ρ c) (Proc.devRef .tc main_arg12) = _
  dsimp only [hostOps1]
  after_results
  exact at2_main_arg12 m ρ c

/-- After the second projection argument 13 is as launched. -/
theorem at4_main_arg13 (c : Dev nD) : W4 m ρ c (Proc.devRef .tc main_arg13) = m ((c : Thread nD τ).loc main_arg13) := by
  rw [W4_of_ne m ρ c main_arg13 (by decide)]
  show StableHlo.after hostOps1 (W2 m ρ c) (Proc.devRef .tc main_arg13) = _
  dsimp only [hostOps1]
  after_results
  exact at2_main_arg13 m ρ c

/-- After the second projection argument 14 is as launched. -/
theorem at4_main_arg14 (c : Dev nD) : W4 m ρ c (Proc.devRef .tc main_arg14) = m ((c : Thread nD τ).loc main_arg14) := by
  rw [W4_of_ne m ρ c main_arg14 (by decide)]
  show StableHlo.after hostOps1 (W2 m ρ c) (Proc.devRef .tc main_arg14) = _
  dsimp only [hostOps1]
  after_results
  exact at2_main_arg14 m ρ c

/-- After the second projection argument 17 is as launched. -/
theorem at4_main_arg17 (c : Dev nD) : W4 m ρ c (Proc.devRef .tc main_arg17) = m ((c : Thread nD τ).loc main_arg17) := by
  rw [W4_of_ne m ρ c main_arg17 (by decide)]
  show StableHlo.after hostOps1 (W2 m ρ c) (Proc.devRef .tc main_arg17) = _
  dsimp only [hostOps1]
  after_results
  exact at2_main_arg17 m ρ c

/-- After the second projection the rounded copy of argument 2 is that argument. -/
theorem at4_main_v2 (c : Dev nD) : W4 m ρ c (Proc.devRef .tc main_v2) = m ((c : Thread nD τ).loc main_arg2) := by
  rw [W4_of_ne m ρ c main_v2 (by decide)]
  show StableHlo.after hostOps1 (W2 m ρ c) (Proc.devRef .tc main_v2) = _
  dsimp only [hostOps1]
  after_results
  exact at2_main_v2 m ρ c

/-! ## The six arrays each projection finds, in terms of the arguments -/

/-! ### Projection 1 -/

/-- Its input is argument 0 rounded, which on the extended reals is the argument. -/
theorem found0_x (c : Dev nD) : (V1 m ρ c main_v0 : S8x1024x1024.Idx → EReal) = (m ((c : Thread nD τ).loc main_arg0) : S8x1024x1024.Idx → EReal) := by
  show StableHlo.after hostOps0 (W0 m ρ c) (Proc.devRef .tc main_v0) = _
  dsimp only [hostOps0]
  after_results
  rfl

/-- Wp1: the array found is argument 3 transposed (and rounded), so its (d, e) entry is the argument's (e, d). -/
theorem found0_Wp1 (c : Dev nD) (d e : Fin 1024) :
    (V1 m ρ c main_v4 : S1024x1024.Idx → EReal) (ix2 d e) = (m ((c : Thread nD τ).loc main_arg3) : S1024x1024.Idx → EReal) (ix2 e d) := by
  have h : (V1 m ρ c main_v4 : S1024x1024.Idx → EReal)
      = transpose S1024x1024 [1, 0] (m ((c : Thread nD τ).loc main_arg3) : S1024x1024.Idx → EReal) transposes_S1024x1024_S1024x1024_1_0 := by
    show StableHlo.after hostOps0 (W0 m ρ c) (Proc.devRef .tc main_v4) = _
    dsimp only [hostOps0]
    after_results
    rfl
  rw [h]
  exact transpose_ix2_apply _ _ d e

/-- Wq1: the array found is argument 6 transposed (and rounded), so its (d, e) entry is the argument's (e, d). -/
theorem found0_Wq1 (c : Dev nD) (d e : Fin 1024) :
    (V1 m ρ c main_v6 : S1024x1024.Idx → EReal) (ix2 d e) = (m ((c : Thread nD τ).loc main_arg6) : S1024x1024.Idx → EReal) (ix2 e d) := by
  have h : (V1 m ρ c main_v6 : S1024x1024.Idx → EReal)
      = transpose S1024x1024 [1, 0] (m ((c : Thread nD τ).loc main_arg6) : S1024x1024.Idx → EReal) transposes_S1024x1024_S1024x1024_1_0 := by
    show StableHlo.after hostOps0 (W0 m ρ c) (Proc.devRef .tc main_v6) = _
    dsimp only [hostOps0]
    after_results
    rfl
  rw [h]
  exact transpose_ix2_apply _ _ d e

/-- Wk1: the array found is argument 7 transposed (and rounded), so its (d, e) entry is the argument's (e, d). -/
theorem found0_Wk1 (c : Dev nD) (d e : Fin 1024) :
    (V1 m ρ c main_v8 : S1024x1024.Idx → EReal) (ix2 d e) = (m ((c : Thread nD τ).loc main_arg7) : S1024x1024.Idx → EReal) (ix2 e d) := by
  have h : (V1 m ρ c main_v8 : S1024x1024.Idx → EReal)
      = transpose S1024x1024 [1, 0] (m ((c : Thread nD τ).loc main_arg7) : S1024x1024.Idx → EReal) transposes_S1024x1024_S1024x1024_1_0 := by
    show StableHlo.after hostOps0 (W0 m ρ c) (Proc.devRef .tc main_v8) = _
    dsimp only [hostOps0]
    after_results
    rfl
  rw [h]
  exact transpose_ix2_apply _ _ d e

/-- Wv1: the array found is argument 8 transposed (and rounded), so its (d, e) entry is the argument's (e, d). -/
theorem found0_Wv1 (c : Dev nD) (d e : Fin 1024) :
    (V1 m ρ c main_v10 : S1024x1024.Idx → EReal) (ix2 d e) = (m ((c : Thread nD τ).loc main_arg8) : S1024x1024.Idx → EReal) (ix2 e d) := by
  have h : (V1 m ρ c main_v10 : S1024x1024.Idx → EReal)
      = transpose S1024x1024 [1, 0] (m ((c : Thread nD τ).loc main_arg8) : S1024x1024.Idx → EReal) transposes_S1024x1024_S1024x1024_1_0 := by
    show StableHlo.after hostOps0 (W0 m ρ c) (Proc.devRef .tc main_v10) = _
    dsimp only [hostOps0]
    after_results
    rfl
  rw [h]
  exact transpose_ix2_apply _ _ d e

/-- b1: the array found is argument 15 given a leading unit axis. -/
theorem found0_b1 (c : Dev nD) (e : Fin 1024) :
    (V1 m ρ c main_v11 : S1x1024.Idx → EReal) (ix2 (0 : Fin 1) e) = (m ((c : Thread nD τ).loc main_arg15) : S1024.Idx → EReal) (ix1 e) := by
  have h : (V1 m ρ c main_v11 : S1x1024.Idx → EReal)
      = shapeCast S1x1024 (m ((c : Thread nD τ).loc main_arg15) : S1024.Idx → EReal) shapeCasts_S1024_S1x1024 := by
    show StableHlo.after hostOps0 (W0 m ρ c) (Proc.devRef .tc main_v11) = _
    dsimp only [hostOps0]
    after_results
    rfl
  rw [h]
  exact shapeCast_a_1a_apply _ _ 0 e

/-- The projection's six arrays as the specification's functions of the arguments. -/
theorem args0_x (c : Dev nD) : Cert.KProj0.X (V1 m ρ) c = x1 m c :=
  congrArg (cur3 (a := 8) (b := 1024) (c := 1024)) (found0_x m ρ c)
theorem args0_b (c : Dev nD) : Cert.KProj0.bF (V1 m ρ) c = b1 m c :=
  funext fun e => found0_b1 m ρ c e
theorem args0_Wp1 (c : Dev nD) : Cert.KProj0.WpF (V1 m ρ) c = Wp1 m c :=
  funext fun e => funext fun d => found0_Wp1 m ρ c d e
theorem args0_Wq1 (c : Dev nD) : Cert.KProj0.WqF (V1 m ρ) c = Wq1 m c :=
  funext fun e => funext fun d => found0_Wq1 m ρ c d e
theorem args0_Wk1 (c : Dev nD) : Cert.KProj0.WkF (V1 m ρ) c = Wk1 m c :=
  funext fun e => funext fun d => found0_Wk1 m ρ c d e
theorem args0_Wv1 (c : Dev nD) : Cert.KProj0.WvF (V1 m ρ) c = Wv1 m c :=
  funext fun e => funext fun d => found0_Wv1 m ρ c d e

/-- What the projection leaves: the features and their three products, as functions of the arguments. -/
theorem left0_f (c : Dev nD) : (dat0 (V1 m ρ) c).arrAt 6 cfg0.N = arr3 (Cert.Spec.pre (x1 m c) (Wp1 m c) (b1 m c)) := by
  rw [Cert.KProj0.final6 (V1 m ρ) c, args0_x, args0_Wp1, args0_b]
theorem left0_q (c : Dev nD) : (dat0 (V1 m ρ) c).arrAt 7 cfg0.N = arr3 (Cert.Spec.lin (Cert.Spec.pre (x1 m c) (Wp1 m c) (b1 m c)) (Wq1 m c)) := by
  rw [Cert.KProj0.final7 (V1 m ρ) c, args0_x, args0_Wp1, args0_b, args0_Wq1]
theorem left0_k (c : Dev nD) : (dat0 (V1 m ρ) c).arrAt 8 cfg0.N = arr3 (Cert.Spec.lin (Cert.Spec.pre (x1 m c) (Wp1 m c) (b1 m c)) (Wk1 m c)) := by
  rw [Cert.KProj0.final8 (V1 m ρ) c, args0_x, args0_Wp1, args0_b, args0_Wk1]
theorem left0_v (c : Dev nD) : (dat0 (V1 m ρ) c).arrAt 9 cfg0.N = arr3 (Cert.Spec.lin (Cert.Spec.pre (x1 m c) (Wp1 m c) (b1 m c)) (Wv1 m c)) := by
  rw [Cert.KProj0.final9 (V1 m ρ) c, args0_x, args0_Wp1, args0_b, args0_Wv1]

/-! ### Projection 2 -/

/-- Its input is argument 1 rounded, which on the extended reals is the argument. -/
theorem found1_x (c : Dev nD) : (V3 m ρ c main_v1 : S8x1024x1024.Idx → EReal) = (m ((c : Thread nD τ).loc main_arg1) : S8x1024x1024.Idx → EReal) := by
  show StableHlo.after hostOps1 (W2 m ρ c) (Proc.devRef .tc main_v1) = _
  dsimp only [hostOps1]
  after_results
  exact at2_main_v1 m ρ c

/-- Wp2: the array found is argument 4 transposed (and rounded), so its (d, e) entry is the argument's (e, d). -/
theorem found1_Wp2 (c : Dev nD) (d e : Fin 1024) :
    (V3 m ρ c main_v14 : S1024x1024.Idx → EReal) (ix2 d e) = (m ((c : Thread nD τ).loc main_arg4) : S1024x1024.Idx → EReal) (ix2 e d) := by
  have h : (V3 m ρ c main_v14 : S1024x1024.Idx → EReal)
      = transpose S1024x1024 [1, 0] (m ((c : Thread nD τ).loc main_arg4) : S1024x1024.Idx → EReal) transposes_S1024x1024_S1024x1024_1_0 := by
    show StableHlo.after hostOps1 (W2 m ρ c) (Proc.devRef .tc main_v14) = _
    dsimp only [hostOps1]
    after_results
    rw [at2_main_arg4 m ρ c]
    rfl
  rw [h]
  exact transpose_ix2_apply _ _ d e

/-- Wq2: the array found is argument 9 transposed (and rounded), so its (d, e) entry is the argument's (e, d). -/
theorem found1_Wq2 (c : Dev nD) (d e : Fin 1024) :
    (V3 m ρ c main_v16 : S1024x1024.Idx → EReal) (ix2 d e) = (m ((c : Thread nD τ).loc main_arg9) : S1024x1024.Idx → EReal) (ix2 e d) := by
  have h : (V3 m ρ c main_v16 : S1024x1024.Idx → EReal)
      = transpose S1024x1024 [1, 0] (m ((c : Thread nD τ).loc main_arg9) : S1024x1024.Idx → EReal) transposes_S1024x1024_S1024x1024_1_0 := by
    show StableHlo.after hostOps1 (W2 m ρ c) (Proc.devRef .tc main_v16) = _
    dsimp only [hostOps1]
    after_results
    rw [at2_main_arg9 m ρ c]
    rfl
  rw [h]
  exact transpose_ix2_apply _ _ d e

/-- Wk2: the array found is argument 10 transposed (and rounded), so its (d, e) entry is the argument's (e, d). -/
theorem found1_Wk2 (c : Dev nD) (d e : Fin 1024) :
    (V3 m ρ c main_v18 : S1024x1024.Idx → EReal) (ix2 d e) = (m ((c : Thread nD τ).loc main_arg10) : S1024x1024.Idx → EReal) (ix2 e d) := by
  have h : (V3 m ρ c main_v18 : S1024x1024.Idx → EReal)
      = transpose S1024x1024 [1, 0] (m ((c : Thread nD τ).loc main_arg10) : S1024x1024.Idx → EReal) transposes_S1024x1024_S1024x1024_1_0 := by
    show StableHlo.after hostOps1 (W2 m ρ c) (Proc.devRef .tc main_v18) = _
    dsimp only [hostOps1]
    after_results
    rw [at2_main_arg10 m ρ c]
    rfl
  rw [h]
  exact transpose_ix2_apply _ _ d e

/-- Wv2: the array found is argument 11 transposed (and rounded), so its (d, e) entry is the argument's (e, d). -/
theorem found1_Wv2 (c : Dev nD) (d e : Fin 1024) :
    (V3 m ρ c main_v20 : S1024x1024.Idx → EReal) (ix2 d e) = (m ((c : Thread nD τ).loc main_arg11) : S1024x1024.Idx → EReal) (ix2 e d) := by
  have h : (V3 m ρ c main_v20 : S1024x1024.Idx → EReal)
      = transpose S1024x1024 [1, 0] (m ((c : Thread nD τ).loc main_arg11) : S1024x1024.Idx → EReal) transposes_S1024x1024_S1024x1024_1_0 := by
    show StableHlo.after hostOps1 (W2 m ρ c) (Proc.devRef .tc main_v20) = _
    dsimp only [hostOps1]
    after_results
    rw [at2_main_arg11 m ρ c]
    rfl
  rw [h]
  exact transpose_ix2_apply _ _ d e

/-- b2: the array found is argument 16 given a leading unit axis. -/
theorem found1_b2 (c : Dev nD) (e : Fin 1024) :
    (V3 m ρ c main_v21 : S1x1024.Idx → EReal) (ix2 (0 : Fin 1) e) = (m ((c : Thread nD τ).loc main_arg16) : S1024.Idx → EReal) (ix1 e) := by
  have h : (V3 m ρ c main_v21 : S1x1024.Idx → EReal)
      = shapeCast S1x1024 (m ((c : Thread nD τ).loc main_arg16) : S1024.Idx → EReal) shapeCasts_S1024_S1x1024 := by
    show StableHlo.after hostOps1 (W2 m ρ c) (Proc.devRef .tc main_v21) = _
    dsimp only [hostOps1]
    after_results
    rw [at2_main_arg16 m ρ c]
    rfl
  rw [h]
  exact shapeCast_a_1a_apply _ _ 0 e

/-- The projection's six arrays as the specification's functions of the arguments. -/
theorem args1_x (c : Dev nD) : Cert.KProj1.X (V3 m ρ) c = x2 m c :=
  congrArg (cur3 (a := 8) (b := 1024) (c := 1024)) (found1_x m ρ c)
theorem args1_b (c : Dev nD) : Cert.KProj1.bF (V3 m ρ) c = b2 m c :=
  funext fun e => found1_b2 m ρ c e
theorem args1_Wp2 (c : Dev nD) : Cert.KProj1.WpF (V3 m ρ) c = Wp2 m c :=
  funext fun e => funext fun d => found1_Wp2 m ρ c d e
theorem args1_Wq2 (c : Dev nD) : Cert.KProj1.WqF (V3 m ρ) c = Wq2 m c :=
  funext fun e => funext fun d => found1_Wq2 m ρ c d e
theorem args1_Wk2 (c : Dev nD) : Cert.KProj1.WkF (V3 m ρ) c = Wk2 m c :=
  funext fun e => funext fun d => found1_Wk2 m ρ c d e
theorem args1_Wv2 (c : Dev nD) : Cert.KProj1.WvF (V3 m ρ) c = Wv2 m c :=
  funext fun e => funext fun d => found1_Wv2 m ρ c d e

/-- What the projection leaves: the features and their three products, as functions of the arguments. -/
theorem left1_f (c : Dev nD) : (dat1 (V3 m ρ) c).arrAt 6 cfg1.N = arr3 (Cert.Spec.pre (x2 m c) (Wp2 m c) (b2 m c)) := by
  rw [Cert.KProj1.final6 (V3 m ρ) c, args1_x, args1_Wp2, args1_b]
theorem left1_q (c : Dev nD) : (dat1 (V3 m ρ) c).arrAt 7 cfg1.N = arr3 (Cert.Spec.lin (Cert.Spec.pre (x2 m c) (Wp2 m c) (b2 m c)) (Wq2 m c)) := by
  rw [Cert.KProj1.final7 (V3 m ρ) c, args1_x, args1_Wp2, args1_b, args1_Wq2]
theorem left1_k (c : Dev nD) : (dat1 (V3 m ρ) c).arrAt 8 cfg1.N = arr3 (Cert.Spec.lin (Cert.Spec.pre (x2 m c) (Wp2 m c) (b2 m c)) (Wk2 m c)) := by
  rw [Cert.KProj1.final8 (V3 m ρ) c, args1_x, args1_Wp2, args1_b, args1_Wk2]
theorem left1_v (c : Dev nD) : (dat1 (V3 m ρ) c).arrAt 9 cfg1.N = arr3 (Cert.Spec.lin (Cert.Spec.pre (x2 m c) (Wp2 m c) (b2 m c)) (Wv2 m c)) := by
  rw [Cert.KProj1.final9 (V3 m ρ) c, args1_x, args1_Wp2, args1_b, args1_Wv2]

/-! ### Projection 3 -/

/-- Its input is argument 2 rounded, which on the extended reals is the argument. -/
theorem found2_x (c : Dev nD) : (V5 m ρ c main_v2 : S8x1024x1024.Idx → EReal) = (m ((c : Thread nD τ).loc main_arg2) : S8x1024x1024.Idx → EReal) := by
  show StableHlo.after hostOps2 (W4 m ρ c) (Proc.devRef .tc main_v2) = _
  dsimp only [hostOps2]
  after_results
  exact at4_main_v2 m ρ c

/-- Wp3: the array found is argument 5 transposed (and rounded), so its (d, e) entry is the argument's (e, d). -/
theorem found2_Wp3 (c : Dev nD) (d e : Fin 1024) :
    (V5 m ρ c main_v24 : S1024x1024.Idx → EReal) (ix2 d e) = (m ((c : Thread nD τ).loc main_arg5) : S1024x1024.Idx → EReal) (ix2 e d) := by
  have h : (V5 m ρ c main_v24 : S1024x1024.Idx → EReal)
      = transpose S1024x1024 [1, 0] (m ((c : Thread nD τ).loc main_arg5) : S1024x1024.Idx → EReal) transposes_S1024x1024_S1024x1024_1_0 := by
    show StableHlo.after hostOps2 (W4 m ρ c) (Proc.devRef .tc main_v24) = _
    dsimp only [hostOps2]
    after_results
    rw [at4_main_arg5 m ρ c]
    rfl
  rw [h]
  exact transpose_ix2_apply _ _ d e

/-- Wq3: the array found is argument 12 transposed (and rounded), so its (d, e) entry is the argument's (e, d). -/
theorem found2_Wq3 (c : Dev nD) (d e : Fin 1024) :
    (V5 m ρ c main_v26 : S1024x1024.Idx → EReal) (ix2 d e) = (m ((c : Thread nD τ).loc main_arg12) : S1024x1024.Idx → EReal) (ix2 e d) := by
  have h : (V5 m ρ c main_v26 : S1024x1024.Idx → EReal)
      = transpose S1024x1024 [1, 0] (m ((c : Thread nD τ).loc main_arg12) : S1024x1024.Idx → EReal) transposes_S1024x1024_S1024x1024_1_0 := by
    show StableHlo.after hostOps2 (W4 m ρ c) (Proc.devRef .tc main_v26) = _
    dsimp only [hostOps2]
    after_results
    rw [at4_main_arg12 m ρ c]
    rfl
  rw [h]
  exact transpose_ix2_apply _ _ d e

/-- Wk3: the array found is argument 13 transposed (and rounded), so its (d, e) entry is the argument's (e, d). -/
theorem found2_Wk3 (c : Dev nD) (d e : Fin 1024) :
    (V5 m ρ c main_v28 : S1024x1024.Idx → EReal) (ix2 d e) = (m ((c : Thread nD τ).loc main_arg13) : S1024x1024.Idx → EReal) (ix2 e d) := by
  have h : (V5 m ρ c main_v28 : S1024x1024.Idx → EReal)
      = transpose S1024x1024 [1, 0] (m ((c : Thread nD τ).loc main_arg13) : S1024x1024.Idx → EReal) transposes_S1024x1024_S1024x1024_1_0 := by
    show StableHlo.after hostOps2 (W4 m ρ c) (Proc.devRef .tc main_v28) = _
    dsimp only [hostOps2]
    after_results
    rw [at4_main_arg13 m ρ c]
    rfl
  rw [h]
  exact transpose_ix2_apply _ _ d e

/-- Wv3: the array found is argument 14 transposed (and rounded), so its (d, e) entry is the argument's (e, d). -/
theorem found2_Wv3 (c : Dev nD) (d e : Fin 1024) :
    (V5 m ρ c main_v30 : S1024x1024.Idx → EReal) (ix2 d e) = (m ((c : Thread nD τ).loc main_arg14) : S1024x1024.Idx → EReal) (ix2 e d) := by
  have h : (V5 m ρ c main_v30 : S1024x1024.Idx → EReal)
      = transpose S1024x1024 [1, 0] (m ((c : Thread nD τ).loc main_arg14) : S1024x1024.Idx → EReal) transposes_S1024x1024_S1024x1024_1_0 := by
    show StableHlo.after hostOps2 (W4 m ρ c) (Proc.devRef .tc main_v30) = _
    dsimp only [hostOps2]
    after_results
    rw [at4_main_arg14 m ρ c]
    rfl
  rw [h]
  exact transpose_ix2_apply _ _ d e

/-- b3: the array found is argument 17 given a leading unit axis. -/
theorem found2_b3 (c : Dev nD) (e : Fin 1024) :
    (V5 m ρ c main_v31 : S1x1024.Idx → EReal) (ix2 (0 : Fin 1) e) = (m ((c : Thread nD τ).loc main_arg17) : S1024.Idx → EReal) (ix1 e) := by
  have h : (V5 m ρ c main_v31 : S1x1024.Idx → EReal)
      = shapeCast S1x1024 (m ((c : Thread nD τ).loc main_arg17) : S1024.Idx → EReal) shapeCasts_S1024_S1x1024 := by
    show StableHlo.after hostOps2 (W4 m ρ c) (Proc.devRef .tc main_v31) = _
    dsimp only [hostOps2]
    after_results
    rw [at4_main_arg17 m ρ c]
    rfl
  rw [h]
  exact shapeCast_a_1a_apply _ _ 0 e

/-- The projection's six arrays as the specification's functions of the arguments. -/
theorem args2_x (c : Dev nD) : Cert.KProj2.X (V5 m ρ) c = x3 m c :=
  congrArg (cur3 (a := 8) (b := 1024) (c := 1024)) (found2_x m ρ c)
theorem args2_b (c : Dev nD) : Cert.KProj2.bF (V5 m ρ) c = b3 m c :=
  funext fun e => found2_b3 m ρ c e
theorem args2_Wp3 (c : Dev nD) : Cert.KProj2.WpF (V5 m ρ) c = Wp3 m c :=
  funext fun e => funext fun d => found2_Wp3 m ρ c d e
theorem args2_Wq3 (c : Dev nD) : Cert.KProj2.WqF (V5 m ρ) c = Wq3 m c :=
  funext fun e => funext fun d => found2_Wq3 m ρ c d e
theorem args2_Wk3 (c : Dev nD) : Cert.KProj2.WkF (V5 m ρ) c = Wk3 m c :=
  funext fun e => funext fun d => found2_Wk3 m ρ c d e
theorem args2_Wv3 (c : Dev nD) : Cert.KProj2.WvF (V5 m ρ) c = Wv3 m c :=
  funext fun e => funext fun d => found2_Wv3 m ρ c d e

/-- What the projection leaves: the features and their three products, as functions of the arguments. -/
theorem left2_f (c : Dev nD) : (dat2 (V5 m ρ) c).arrAt 6 cfg2.N = arr3 (Cert.Spec.pre (x3 m c) (Wp3 m c) (b3 m c)) := by
  rw [Cert.KProj2.final6 (V5 m ρ) c, args2_x, args2_Wp3, args2_b]
theorem left2_q (c : Dev nD) : (dat2 (V5 m ρ) c).arrAt 7 cfg2.N = arr3 (Cert.Spec.lin (Cert.Spec.pre (x3 m c) (Wp3 m c) (b3 m c)) (Wq3 m c)) := by
  rw [Cert.KProj2.final7 (V5 m ρ) c, args2_x, args2_Wp3, args2_b, args2_Wq3]
theorem left2_k (c : Dev nD) : (dat2 (V5 m ρ) c).arrAt 8 cfg2.N = arr3 (Cert.Spec.lin (Cert.Spec.pre (x3 m c) (Wp3 m c) (b3 m c)) (Wk3 m c)) := by
  rw [Cert.KProj2.final8 (V5 m ρ) c, args2_x, args2_Wp3, args2_b, args2_Wk3]
theorem left2_v (c : Dev nD) : (dat2 (V5 m ρ) c).arrAt 9 cfg2.N = arr3 (Cert.Spec.lin (Cert.Spec.pre (x3 m c) (Wp3 m c) (b3 m c)) (Wv3 m c)) := by
  rw [Cert.KProj2.final9 (V5 m ρ) c, args2_x, args2_Wp3, args2_b, args2_Wv3]

/-! ## The twelve arrays the attention step finds are what the projections left -/

theorem found3_f1 (c : Dev nD) : (V6 m ρ c main_v12_0 : S8x1024x1024.Idx → EReal) = arr3 (Cert.Spec.pre (x1 m c) (Wp1 m c) (b1 m c)) :=
  calc W6 m ρ c (Proc.devRef .tc main_v12_0)
    _ = W5 m ρ c (Proc.devRef .tc main_v12_0) := W6_of_ne m ρ c main_v12_0 (by decide)
    _ = W4 m ρ c (Proc.devRef .tc main_v12_0) := by
          show StableHlo.after hostOps2 (W4 m ρ c) (Proc.devRef .tc main_v12_0) = _
          dsimp only [hostOps2]
          after_results
    _ = W3 m ρ c (Proc.devRef .tc main_v12_0) := W4_of_ne m ρ c main_v12_0 (by decide)
    _ = W2 m ρ c (Proc.devRef .tc main_v12_0) := by
          show StableHlo.after hostOps1 (W2 m ρ c) (Proc.devRef .tc main_v12_0) = _
          dsimp only [hostOps1]
          after_results
    _ = (dat0 (V1 m ρ) c).arrAt 6 cfg0.N := W2_arr m ρ c 6
    _ = arr3 (Cert.Spec.pre (x1 m c) (Wp1 m c) (b1 m c)) := left0_f m ρ c

theorem found3_q1 (c : Dev nD) : (V6 m ρ c main_v12_1 : S8x1024x1024.Idx → EReal) = arr3 (Cert.Spec.lin (Cert.Spec.pre (x1 m c) (Wp1 m c) (b1 m c)) (Wq1 m c)) :=
  calc W6 m ρ c (Proc.devRef .tc main_v12_1)
    _ = W5 m ρ c (Proc.devRef .tc main_v12_1) := W6_of_ne m ρ c main_v12_1 (by decide)
    _ = W4 m ρ c (Proc.devRef .tc main_v12_1) := by
          show StableHlo.after hostOps2 (W4 m ρ c) (Proc.devRef .tc main_v12_1) = _
          dsimp only [hostOps2]
          after_results
    _ = W3 m ρ c (Proc.devRef .tc main_v12_1) := W4_of_ne m ρ c main_v12_1 (by decide)
    _ = W2 m ρ c (Proc.devRef .tc main_v12_1) := by
          show StableHlo.after hostOps1 (W2 m ρ c) (Proc.devRef .tc main_v12_1) = _
          dsimp only [hostOps1]
          after_results
    _ = (dat0 (V1 m ρ) c).arrAt 7 cfg0.N := W2_arr m ρ c 7
    _ = arr3 (Cert.Spec.lin (Cert.Spec.pre (x1 m c) (Wp1 m c) (b1 m c)) (Wq1 m c)) := left0_q m ρ c

theorem found3_k1 (c : Dev nD) : (V6 m ρ c main_v12_2 : S8x1024x1024.Idx → EReal) = arr3 (Cert.Spec.lin (Cert.Spec.pre (x1 m c) (Wp1 m c) (b1 m c)) (Wk1 m c)) :=
  calc W6 m ρ c (Proc.devRef .tc main_v12_2)
    _ = W5 m ρ c (Proc.devRef .tc main_v12_2) := W6_of_ne m ρ c main_v12_2 (by decide)
    _ = W4 m ρ c (Proc.devRef .tc main_v12_2) := by
          show StableHlo.after hostOps2 (W4 m ρ c) (Proc.devRef .tc main_v12_2) = _
          dsimp only [hostOps2]
          after_results
    _ = W3 m ρ c (Proc.devRef .tc main_v12_2) := W4_of_ne m ρ c main_v12_2 (by decide)
    _ = W2 m ρ c (Proc.devRef .tc main_v12_2) := by
          show StableHlo.after hostOps1 (W2 m ρ c) (Proc.devRef .tc main_v12_2) = _
          dsimp only [hostOps1]
          after_results
    _ = (dat0 (V1 m ρ) c).arrAt 8 cfg0.N := W2_arr m ρ c 8
    _ = arr3 (Cert.Spec.lin (Cert.Spec.pre (x1 m c) (Wp1 m c) (b1 m c)) (Wk1 m c)) := left0_k m ρ c

theorem found3_v1 (c : Dev nD) : (V6 m ρ c main_v12_3 : S8x1024x1024.Idx → EReal) = arr3 (Cert.Spec.lin (Cert.Spec.pre (x1 m c) (Wp1 m c) (b1 m c)) (Wv1 m c)) :=
  calc W6 m ρ c (Proc.devRef .tc main_v12_3)
    _ = W5 m ρ c (Proc.devRef .tc main_v12_3) := W6_of_ne m ρ c main_v12_3 (by decide)
    _ = W4 m ρ c (Proc.devRef .tc main_v12_3) := by
          show StableHlo.after hostOps2 (W4 m ρ c) (Proc.devRef .tc main_v12_3) = _
          dsimp only [hostOps2]
          after_results
    _ = W3 m ρ c (Proc.devRef .tc main_v12_3) := W4_of_ne m ρ c main_v12_3 (by decide)
    _ = W2 m ρ c (Proc.devRef .tc main_v12_3) := by
          show StableHlo.after hostOps1 (W2 m ρ c) (Proc.devRef .tc main_v12_3) = _
          dsimp only [hostOps1]
          after_results
    _ = (dat0 (V1 m ρ) c).arrAt 9 cfg0.N := W2_arr m ρ c 9
    _ = arr3 (Cert.Spec.lin (Cert.Spec.pre (x1 m c) (Wp1 m c) (b1 m c)) (Wv1 m c)) := left0_v m ρ c

theorem found3_f2 (c : Dev nD) : (V6 m ρ c main_v22_0 : S8x1024x1024.Idx → EReal) = arr3 (Cert.Spec.pre (x2 m c) (Wp2 m c) (b2 m c)) :=
  calc W6 m ρ c (Proc.devRef .tc main_v22_0)
    _ = W5 m ρ c (Proc.devRef .tc main_v22_0) := W6_of_ne m ρ c main_v22_0 (by decide)
    _ = W4 m ρ c (Proc.devRef .tc main_v22_0) := by
          show StableHlo.after hostOps2 (W4 m ρ c) (Proc.devRef .tc main_v22_0) = _
          dsimp only [hostOps2]
          after_results
    _ = (dat1 (V3 m ρ) c).arrAt 6 cfg1.N := W4_arr m ρ c 6
    _ = arr3 (Cert.Spec.pre (x2 m c) (Wp2 m c) (b2 m c)) := left1_f m ρ c

theorem found3_q2 (c : Dev nD) : (V6 m ρ c main_v22_1 : S8x1024x1024.Idx → EReal) = arr3 (Cert.Spec.lin (Cert.Spec.pre (x2 m c) (Wp2 m c) (b2 m c)) (Wq2 m c)) :=
  calc W6 m ρ c (Proc.devRef .tc main_v22_1)
    _ = W5 m ρ c (Proc.devRef .tc main_v22_1) := W6_of_ne m ρ c main_v22_1 (by decide)
    _ = W4 m ρ c (Proc.devRef .tc main_v22_1) := by
          show StableHlo.after hostOps2 (W4 m ρ c) (Proc.devRef .tc main_v22_1) = _
          dsimp only [hostOps2]
          after_results
    _ = (dat1 (V3 m ρ) c).arrAt 7 cfg1.N := W4_arr m ρ c 7
    _ = arr3 (Cert.Spec.lin (Cert.Spec.pre (x2 m c) (Wp2 m c) (b2 m c)) (Wq2 m c)) := left1_q m ρ c

theorem found3_k2 (c : Dev nD) : (V6 m ρ c main_v22_2 : S8x1024x1024.Idx → EReal) = arr3 (Cert.Spec.lin (Cert.Spec.pre (x2 m c) (Wp2 m c) (b2 m c)) (Wk2 m c)) :=
  calc W6 m ρ c (Proc.devRef .tc main_v22_2)
    _ = W5 m ρ c (Proc.devRef .tc main_v22_2) := W6_of_ne m ρ c main_v22_2 (by decide)
    _ = W4 m ρ c (Proc.devRef .tc main_v22_2) := by
          show StableHlo.after hostOps2 (W4 m ρ c) (Proc.devRef .tc main_v22_2) = _
          dsimp only [hostOps2]
          after_results
    _ = (dat1 (V3 m ρ) c).arrAt 8 cfg1.N := W4_arr m ρ c 8
    _ = arr3 (Cert.Spec.lin (Cert.Spec.pre (x2 m c) (Wp2 m c) (b2 m c)) (Wk2 m c)) := left1_k m ρ c

theorem found3_v2 (c : Dev nD) : (V6 m ρ c main_v22_3 : S8x1024x1024.Idx → EReal) = arr3 (Cert.Spec.lin (Cert.Spec.pre (x2 m c) (Wp2 m c) (b2 m c)) (Wv2 m c)) :=
  calc W6 m ρ c (Proc.devRef .tc main_v22_3)
    _ = W5 m ρ c (Proc.devRef .tc main_v22_3) := W6_of_ne m ρ c main_v22_3 (by decide)
    _ = W4 m ρ c (Proc.devRef .tc main_v22_3) := by
          show StableHlo.after hostOps2 (W4 m ρ c) (Proc.devRef .tc main_v22_3) = _
          dsimp only [hostOps2]
          after_results
    _ = (dat1 (V3 m ρ) c).arrAt 9 cfg1.N := W4_arr m ρ c 9
    _ = arr3 (Cert.Spec.lin (Cert.Spec.pre (x2 m c) (Wp2 m c) (b2 m c)) (Wv2 m c)) := left1_v m ρ c

theorem found3_f3 (c : Dev nD) : (V6 m ρ c main_v32_0 : S8x1024x1024.Idx → EReal) = arr3 (Cert.Spec.pre (x3 m c) (Wp3 m c) (b3 m c)) :=
  calc W6 m ρ c (Proc.devRef .tc main_v32_0)
    _ = (dat2 (V5 m ρ) c).arrAt 6 cfg2.N := W6_arr m ρ c 6
    _ = arr3 (Cert.Spec.pre (x3 m c) (Wp3 m c) (b3 m c)) := left2_f m ρ c

theorem found3_q3 (c : Dev nD) : (V6 m ρ c main_v32_1 : S8x1024x1024.Idx → EReal) = arr3 (Cert.Spec.lin (Cert.Spec.pre (x3 m c) (Wp3 m c) (b3 m c)) (Wq3 m c)) :=
  calc W6 m ρ c (Proc.devRef .tc main_v32_1)
    _ = (dat2 (V5 m ρ) c).arrAt 7 cfg2.N := W6_arr m ρ c 7
    _ = arr3 (Cert.Spec.lin (Cert.Spec.pre (x3 m c) (Wp3 m c) (b3 m c)) (Wq3 m c)) := left2_q m ρ c

theorem found3_k3 (c : Dev nD) : (V6 m ρ c main_v32_2 : S8x1024x1024.Idx → EReal) = arr3 (Cert.Spec.lin (Cert.Spec.pre (x3 m c) (Wp3 m c) (b3 m c)) (Wk3 m c)) :=
  calc W6 m ρ c (Proc.devRef .tc main_v32_2)
    _ = (dat2 (V5 m ρ) c).arrAt 8 cfg2.N := W6_arr m ρ c 8
    _ = arr3 (Cert.Spec.lin (Cert.Spec.pre (x3 m c) (Wp3 m c) (b3 m c)) (Wk3 m c)) := left2_k m ρ c

theorem found3_v3 (c : Dev nD) : (V6 m ρ c main_v32_3 : S8x1024x1024.Idx → EReal) = arr3 (Cert.Spec.lin (Cert.Spec.pre (x3 m c) (Wp3 m c) (b3 m c)) (Wv3 m c)) :=
  calc W6 m ρ c (Proc.devRef .tc main_v32_3)
    _ = (dat2 (V5 m ρ) c).arrAt 9 cfg2.N := W6_arr m ρ c 9
    _ = arr3 (Cert.Spec.lin (Cert.Spec.pre (x3 m c) (Wp3 m c) (b3 m c)) (Wv3 m c)) := left2_v m ρ c

/-! ## The result -/

/-- The result array after the whole program is the specification's function of the eighteen arguments. -/
theorem kernel_value (c : Dev nD) :
    W7 m ρ c (Proc.devRef .tc main_v33)
      = arr3 (Cert.Spec.wholeK (x1 m c) (x2 m c) (x3 m c) (Wp1 m c) (Wp2 m c) (Wp3 m c) (Wq1 m c) (Wk1 m c) (Wv1 m c)
          (Wq2 m c) (Wk2 m c) (Wv2 m c) (Wq3 m c) (Wk3 m c) (Wv3 m c) (b1 m c) (b2 m c) (b3 m c)) := by
  refine ((W7_arr m ρ c 12).trans (Cert.KAttn.final (V6 m ρ) c)).trans ?_
  refine congrArg arr3 ?_
  unfold Cert.KAttn.regionResult Cert.Spec.wholeK
  rw [found3_q1 m ρ c, found3_q2 m ρ c, found3_q3 m ρ c, found3_k1 m ρ c, found3_k2 m ρ c, found3_k3 m ρ c,
    found3_v1 m ρ c, found3_v2 m ρ c, found3_v3 m ρ c, found3_f1 m ρ c, found3_f2 m ρ c, found3_f3 m ρ c]
  simp only [cur3_arr3]

end Cert.KChain

end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.LibLastAxis.lean ====
/-
  Reductions along the LAST axis of a rank-3 array, and the keepdims forms around them, read at an index — generic in
  the three extents.

  For an [A, B, C] array x:
  * a lane reduction by maximum from the word of −∞ is, at (a, b), the fold of max over the C entries x(a, b, ·)
    (`multiReduction_max_last`), and a lane reduction by addition from the zero word is their sum
    (`multiReduction_add_last`);
  * the host's one-operand reduce along axis 2 with a commutative associative body is, at (a, b), the fold of the body
    from the initial value over those entries (`hostReduce_last`);
  * an [A, B] array cast to [A, B, 1] reads at (a, b, u) the operand at (a, b) (`shapeCast_ab_ab1_apply`);
  * an [A, B, 1] array broadcast to [A, B, D] reads at (a, b, d) the operand at (a, b, 0) (`broadcastTo_ab1_abd_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.Lib.LastAxis

open Idealize.ShloMosaic Idealize.ShloMosaic.ValueIdx

variable {A B C : Nat}

/-- The index over (a, b) with c inserted on the last axis is (a, b, c). -/
theorem lift_last (h : (⟨3, ![A, B, C]⟩ : Shape).Reduces [2] ⟨2, ![A, B]⟩) (a : Fin A) (b : Fin B) (c : Fin C) :
    h.lift (ix2 a b) c = ix3 a b c :=
  funext fun ax => Fin.ext (by match ax with | ⟨0, _⟩ => rfl | ⟨1, _⟩ => rfl | ⟨2, _⟩ => rfl)

/-- A lane reduction by maximum along the last axis, from the word of −∞: at (a, b) the fold of max over the entries
    x(a, b, ·), started from what that word denotes. -/
theorem multiReduction_max_last (x : FVec Ideal ⟨3, ![A, B, C]⟩ .f32)
    (h : (⟨3, ![A, B, C]⟩ : Shape).Reduces [2] ⟨2, ![A, B]⟩) (hφ : FKind.Formats .f32)
    (hacc : (0xFF800000#32 : BitVec 32) = FKind.maximumf.neutral .f32 hφ) (a : Fin A) (b : Fin B) :
    multiReduction .maximumf [2] ⟨2, ![A, B]⟩ x 0xFF800000#32 h hφ hacc (ix2 a b)
      = (Finset.univ : Finset (Fin C)).fold max (Ideal.ofBits .f32 0xFF800000#32) (fun c => x (ix3 a b c)) := by
  refine (Ideal.multiReduction_maximumf_single x 0xFF800000#32 h hφ hacc (ix2 a b)).trans ?_
  refine congrArg (fun g => (Finset.univ : Finset (Fin C)).fold max (Ideal.ofBits .f32 0xFF800000#32) g) (funext fun c => ?_)
  exact congrArg x (lift_last h a b c)

/-- A lane reduction by addition along the last axis, from the zero word: at (a, b) the sum of the entries x(a, b, ·). -/
theorem multiReduction_add_last (x : FVec Ideal ⟨3, ![A, B, C]⟩ .f32)
    (h : (⟨3, ![A, B, C]⟩ : Shape).Reduces [2] ⟨2, ![A, B]⟩) (hφ : FKind.Formats .f32)
    (hacc : (0x00000000#32 : BitVec 32) = FKind.add.neutral .f32 hφ) (a : Fin A) (b : Fin B) :
    multiReduction .add [2] ⟨2, ![A, B]⟩ x 0x00000000#32 h hφ hacc (ix2 a b) = ∑ c : Fin C, x (ix3 a b c) := by
  refine (Ideal.multiReduction_add_single x 0x00000000#32 h hφ hacc (ix2 a b)).trans ?_
  exact Finset.sum_congr rfl fun c _ => congrArg x (lift_last h a b c)

/-- The host's one-operand reduce along the last axis with a commutative associative body: at (a, b) the fold of the body
    from the initial value over the entries x(a, b, ·). -/
theorem hostReduce_last (f : EReal → EReal → EReal) [Std.Commutative f] [Std.Associative f]
    (h' : (⟨3, ![A, B, C]⟩ : Shape).ReducesTo [2] ⟨2, ![A, B]⟩) (h : (⟨3, ![A, B, C]⟩ : Shape).Reduces [2] ⟨2, ![A, B]⟩)
    (x : (⟨3, ![A, B, C]⟩ : Shape).Idx → EReal) (init : (⟨0, ![]⟩ : Shape).Idx → EReal)
    (hu : 0 < (⟨0, ![]⟩ : Shape).numel) (a : Fin A) (b : Fin B) :
    Host.reduce f x init h' hu (ix2 a b)
      = (Finset.univ : Finset (Fin C)).fold f (init (Shape.Idx.first hu)) (fun c => x (ix3 a b c)) := by
  rw [Host.reduce_eq_fold_single f x init h' h hu (ix2 a b)]
  refine congrArg (fun g => (Finset.univ : Finset (Fin C)).fold f (init (Shape.Idx.first hu)) g) (funext fun c => ?_)
  exact congrArg x (lift_last h a b c)

variable {α : Type}

/-- An [A, B] array cast to [A, B, 1] reads, at (a, b, u), the operand at (a, b): the two indices have one row-major
    position. -/
theorem shapeCast_ab_ab1_apply (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    omega)

/-- An [A, B, 1] array broadcast to [A, B, D] reads, at (a, b, d), the operand at (a, b, 0). -/
theorem broadcastTo_ab1_abd_apply {D : Nat} (v : (⟨3, ![A, B, 1]⟩ : Shape).Idx → α)
    (h : (⟨3, ![A, B, 1]⟩ : Shape).Broadcasts ⟨3, ![A, B, D]⟩) (a : Fin A) (b : Fin B) (d : Fin D) :
    broadcastTo ⟨3, ![A, B, D]⟩ v h (ix3 a b d) = v (ix3 a b (0 : Fin 1)) := by
  refine broadcastTo_apply v h (ix3 a b d) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

end Cert.Lib.LastAxis

end
-- ==== Proof.RefValue.lean ====
/-
  The reference program's result as the array of the mathematical specification.

  Each stage of the reference — the three feature projections max(x·Wpᵀ + b, 0), the nine linear maps, the three
  score arrays (two products of a query row with a key row, added), the three normalised-score-times-value products,
  and the final laying side by side along the last axis — is shown equal, as a whole array, to the corresponding
  function of coordinates; the stages are then composed.
-/
import proofs.«131838_j22488448762091_2_alg».proof.Proof.RefRead
import proofs.«131838_j22488448762091_2_alg».proof.Proof.Spec
import proofs.«131838_j22488448762091_2_alg».proof.Proof.LibLastAxis
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Spec

/-- [8, 1024, 1024] arrays of extended reals. -/
abbrev A3 := FVec Ideal S8x1024x1024 .f32
/-- [1024, 1024] arrays. -/
abbrev A2 := FVec Ideal S1024x1024 .f32
/-- [1024] arrays. -/
abbrev A1 := FVec Ideal S1024 .f32

/-- An array is the array of a function of coordinates when it is so at every (a, b, c). -/
theorem ext3 {A B C : Nat} {X : (⟨3, ![A, B, C]⟩ : Shape).Idx → EReal} {f : Fin A → Fin B → Fin C → EReal}
    (h : ∀ a b c, X (ix3 a b c) = f a b c) : X = arr3 f :=
  funext fun i => (congrArg X (eq_ix3 i)).trans (h (i 0) (i 1) (i 2))

/-! ## The products -/

/-- x · Wᵀ at an index: the contraction of the last axis of x with the last axis of W. -/
theorem lin_at (y : A3) (W : A2) (a : Fin 8) (b e : Fin 1024) :
    Host.dotGeneral (F := Ideal) dot_S8x1024x1024_S1024x1024_S8x1024x1024_2_1_01_0_n_n none y W (ix3 a b e)
      = lin (cur3 y) (cur2 W) a b e := by
  refine (val_main_v0_apply y W (ix3 a b e)).trans ?_
  show _ = ∑ d : Fin 1024, y (ix3 a b d) * W (ix2 e d)
  refine Finset.sum_congr rfl fun k _ => ?_
  have e1 : lidx_main_v0 (ix3 a b e) k = ix3 a b k :=
    funext fun t => Fin.ext (by match t with | ⟨0, _⟩ => rfl | ⟨1, _⟩ => rfl | ⟨2, _⟩ => rfl)
  have e2 : ridx_main_v0 (ix3 a b e) k = ix2 e k :=
    funext fun t => Fin.ext (by match t with | ⟨0, _⟩ => rfl | ⟨1, _⟩ => rfl)
  rw [e1, e2]

/-- x · Wᵀ as an array. -/
theorem lin_arr (y : A3) (W : A2) :
    Host.dotGeneral (F := Ideal) dot_S8x1024x1024_S1024x1024_S8x1024x1024_2_1_01_0_n_n none y W = arr3 (lin (cur3 y) (cur2 W)) :=
  ext3 (lin_at y W)

/-- A batched product of a query row with a key row: entry (b, i, j) contracts the last axes of q(b, i, ·) and k(b, j, ·). -/
theorem qk_at (q k : A3) (a : Fin 8) (i j : Fin 1024) :
    Host.dotGeneral (F := Ideal) dot_S8x1024x1024_S8x1024x1024_S8x1024x1024_2_2_1_1_0_0 none q k (ix3 a i j)
      = dot (cur3 q a i) (cur3 k a j) := by
  simp only [Host.dotGeneral]
  rw [Ideal.dotGeneral_apply, ← Equiv.sum_comp (ValueIdx.contrEquiv1 dot_S8x1024x1024_S8x1024x1024_S8x1024x1024_2_2_1_1_0_0 1024 rfl rfl).symm]
  show _ = ∑ d : Fin 1024, q (ix3 a i d) * k (ix3 a j d)
  refine Finset.sum_congr rfl fun d _ => ?_
  have hk := ValueIdx.contrEquiv1_symm_val dot_S8x1024x1024_S8x1024x1024_S8x1024x1024_2_2_1_1_0_0 1024 rfl rfl d
  have el : dot_S8x1024x1024_S8x1024x1024_S8x1024x1024_2_2_1_1_0_0.lhsIdx (ix3 a i j) ((ValueIdx.contrEquiv1 dot_S8x1024x1024_S8x1024x1024_S8x1024x1024_2_2_1_1_0_0 1024 rfl rfl).symm d) = ix3 a i d := funext fun t => Fin.ext (by
    match t with
    | ⟨0, _⟩ => exact lhs_main_v24_0 _ _
    | ⟨1, _⟩ => exact lhs_main_v24_1 _ _
    | ⟨2, _⟩ => exact (lhs_main_v24_2 _ _).trans hk)
  have er : dot_S8x1024x1024_S8x1024x1024_S8x1024x1024_2_2_1_1_0_0.rhsIdx (ix3 a i j) ((ValueIdx.contrEquiv1 dot_S8x1024x1024_S8x1024x1024_S8x1024x1024_2_2_1_1_0_0 1024 rfl rfl).symm d) = ix3 a j d := funext fun t => Fin.ext (by
    match t with
    | ⟨0, _⟩ => exact rhs_main_v24_0 _ _
    | ⟨1, _⟩ => exact rhs_main_v24_1 _ _
    | ⟨2, _⟩ => exact (rhs_main_v24_2 _ _).trans hk)
  rw [el, er]

/-- A batched product of a weight row with the value columns: entry (b, i, e) is Σ_j p(b, i, j) · v(b, j, e). -/
theorem pv_at (p v : A3) (a : Fin 8) (i e : Fin 1024) :
    Host.dotGeneral (F := Ideal) dot_S8x1024x1024_S8x1024x1024_S8x1024x1024_2_1_1_2_0_0 none p v (ix3 a i e)
      = ∑ j : Fin 1024, p (ix3 a i j) * v (ix3 a j e) := by
  simp only [Host.dotGeneral]
  rw [Ideal.dotGeneral_apply, ← Equiv.sum_comp (ValueIdx.contrEquiv1 dot_S8x1024x1024_S8x1024x1024_S8x1024x1024_2_1_1_2_0_0 1024 rfl rfl).symm]
  refine Finset.sum_congr rfl fun d _ => ?_
  have hk := ValueIdx.contrEquiv1_symm_val dot_S8x1024x1024_S8x1024x1024_S8x1024x1024_2_1_1_2_0_0 1024 rfl rfl d
  have el : dot_S8x1024x1024_S8x1024x1024_S8x1024x1024_2_1_1_2_0_0.lhsIdx (ix3 a i e) ((ValueIdx.contrEquiv1 dot_S8x1024x1024_S8x1024x1024_S8x1024x1024_2_1_1_2_0_0 1024 rfl rfl).symm d) = ix3 a i d := funext fun t => Fin.ext (by
    match t with
    | ⟨0, _⟩ => exact lhs_main_v44_0 _ _
    | ⟨1, _⟩ => exact lhs_main_v44_1 _ _
    | ⟨2, _⟩ => exact (lhs_main_v44_2 _ _).trans hk)
  have er : dot_S8x1024x1024_S8x1024x1024_S8x1024x1024_2_1_1_2_0_0.rhsIdx (ix3 a i e) ((ValueIdx.contrEquiv1 dot_S8x1024x1024_S8x1024x1024_S8x1024x1024_2_1_1_2_0_0 1024 rfl rfl).symm d) = ix3 a d e := funext fun t => Fin.ext (by
    match t with
    | ⟨0, _⟩ => exact rhs_main_v44_0 _ _
    | ⟨1, _⟩ => exact (rhs_main_v44_1 _ _).trans hk
    | ⟨2, _⟩ => exact rhs_main_v44_2 _ _)
  rw [el, er]

/-! ## The features -/

/-- max(x · Wpᵀ + b, 0) as an array. -/
theorem pre_arr (x : A3) (W : A2) (bias : A1) :
    val_main_v4 (F := Ideal) x W bias = arr3 (pre (cur3 x) (cur2 W) (cur1 bias)) := by
  refine ext3 fun a b e => ?_
  show max (Host.dotGeneral (F := Ideal) dot_S8x1024x1024_S1024x1024_S8x1024x1024_2_1_01_0_n_n none x W (ix3 a b e)
      + val_main_v2 (F := Ideal) bias (ix3 a b e)) (val_main_call0_v0 (F := Ideal) (ix3 a b e))
    = max (lin (cur3 x) (cur2 W) a b e + bias (ix1 e)) zeroW
  rw [lin_at, val_main_v2_apply, val_main_v1_apply, val_main_call0_v0_apply]
  have e1 : idx_main_v1 (idx_main_v2 (ix3 a b e)) = ix1 e :=
    funext fun t => Fin.ext (by match t with | ⟨0, _⟩ => rfl)
  rw [e1]
  rfl

/-! ## The scores -/

/-- Two batched products added: qa·kaᵀ + qb·kbᵀ as an array. -/
theorem score_arr (qa ka qb kb : A3) :
    addf (F := Ideal) (Host.dotGeneral (F := Ideal) dot_S8x1024x1024_S8x1024x1024_S8x1024x1024_2_2_1_1_0_0 none qa ka)
        (Host.dotGeneral (F := Ideal) dot_S8x1024x1024_S8x1024x1024_S8x1024x1024_2_2_1_1_0_0 none qb kb)
      = arr3 (score2 (cur3 qa) (cur3 ka) (cur3 qb) (cur3 kb)) := by
  refine ext3 fun a i j => ?_
  show Host.dotGeneral (F := Ideal) dot_S8x1024x1024_S8x1024x1024_S8x1024x1024_2_2_1_1_0_0 none qa ka (ix3 a i j)
      + Host.dotGeneral (F := Ideal) dot_S8x1024x1024_S8x1024x1024_S8x1024x1024_2_2_1_1_0_0 none qb kb (ix3 a i j) = _
  rw [qk_at, qk_at]
  rfl

/-! ## Entrywise operations at an index (over arbitrary arrays) -/

section Entrywise
variable {S : Shape} (x y : FVec Ideal S .f32) (j : S.Idx)

theorem vmax_at : maximumf (F := Ideal) x y j = max (x j) (y j) := rfl
theorem vsub_at : subf (F := Ideal) x y j = x j - y j := rfl
theorem vexp_at : Host.exp (F := Ideal) x j = Ideal.exp (x j) := rfl
theorem vdiv_at : Host.divf (F := Ideal) x y j = Ideal.div (x j) (y j) := rfl

end Entrywise

/-- A fold of the program's maximum is the fold of max. -/
theorem fold_maxf {n : Nat} (b : EReal) (f : Fin n → EReal) :
    (Finset.univ : Finset (Fin n)).fold (FloatOps.maximumf (F := Ideal) (φ := .f32)) b f
      = (Finset.univ : Finset (Fin n)).fold max b f := rfl

/-- A fold of max is at least its start. -/
theorem max_fold_self {n : Nat} (b : EReal) (f : Fin n → EReal) :
    max b ((Finset.univ : Finset (Fin n)).fold max b f) = (Finset.univ : Finset (Fin n)).fold max b f :=
  max_eq_right ((Finset.le_fold_max b).2 (Or.inl le_rfl))

theorem rmax_eq {n : Nat} (f : Fin n → EReal) : rmax f = (Finset.univ : Finset (Fin n)).fold max negInf f := rfl

/-! ## A row normalised and multiplied into the values

  The program's text for one score array s and one value array v: the row maximum from −∞ (and once more the larger
  of −∞ and it), kept as a last axis of extent one and spread along the row; the difference exponentiated; the row sum
  from zero, kept and spread the same way; the quotient; and the product with v. -/

/-- The row maxima. -/
def rowMax (s : A3) : FVec Ideal S8x1024 .f32 :=
  maximumf (F := Ideal) (val_main_v34 (F := Ideal))
    (Host.reduce (FloatOps.maximumf (F := Ideal) (φ := .f32)) s (val_main_cst (F := Ideal)) reducesTo_S8x1024x1024_S8x1024_d2 h_S_)

/-- An [8, 1024] array spread along a new last axis. -/
def spread (y : FVec Ideal S8x1024 .f32) : A3 :=
  broadcastInDim S8x1024x1024 ![0, 1, 2] bcast_S8x1024x1_S8x1024x1024_0_1_2
    (broadcastInDim S8x1024x1 ![0, 1] bcast_S8x1024_S8x1024x1_0_1 y)

/-- exp(s − row maximum). -/
def rowExp (s : A3) : A3 := Host.exp (F := Ideal) (subf (F := Ideal) s (spread (rowMax s)))

/-- The row sums of exp(s − row maximum). -/
def rowSum (s : A3) : FVec Ideal S8x1024 .f32 :=
  Host.reduceAdd (F := Ideal) (rowExp s) (val_main_cst_1 (F := Ideal)) reducesTo_S8x1024x1024_S8x1024_d2 h_S_

/-- The normalised rows. -/
def rowSoft (s : A3) : A3 := Host.divf (F := Ideal) (rowExp s) (spread (rowSum s))

/-- The normalised rows times the values. -/
def rowAtt (s v : A3) : A3 :=
  Host.dotGeneral (F := Ideal) dot_S8x1024x1024_S8x1024x1024_S8x1024x1024_2_1_1_2_0_0 none (rowSoft s) v

theorem spread_at (y : FVec Ideal S8x1024 .f32) (a : Fin 8) (i j : Fin 1024) :
    spread y (ix3 a i j) = y (ix2 a i) := by
  unfold spread
  refine (broadcastInDim_apply _ bcast_S8x1024x1_S8x1024x1024_0_1_2 _ (ix3 a i j) (ix3 a i (0 : Fin 1)) (fun t => match t with
    | ⟨0, _⟩ => by show a.val = if (8 : Nat) = 1 then 0 else a.val; rw [if_neg (by decide)]
    | ⟨1, _⟩ => by show i.val = if (1024 : Nat) = 1 then 0 else i.val; rw [if_neg (by decide)]
    | ⟨2, _⟩ => by show 0 = if (1 : Nat) = 1 then 0 else j.val; rw [if_pos rfl])).trans ?_
  exact broadcastInDim_apply _ bcast_S8x1024_S8x1024x1_0_1 y (ix3 a i (0 : Fin 1)) (ix2 a i) (fun t => match t with
    | ⟨0, _⟩ => by show a.val = if (8 : Nat) = 1 then 0 else a.val; rw [if_neg (by decide)]
    | ⟨1, _⟩ => by show i.val = if (1024 : Nat) = 1 then 0 else i.val; rw [if_neg (by decide)])

/-- The start of the maximum is the word of −∞. -/
theorem cst_negInf (i : S_.Idx) : val_main_cst (F := Ideal) i = negInf :=
  (val_main_cst_apply (F := Ideal) i).trans (Ideal.ofBits_def (φ := .f32) 0xFF800000#32)

theorem v34_negInf (j : S8x1024.Idx) : val_main_v34 (F := Ideal) j = negInf :=
  ((val_main_v34_apply (F := Ideal) j).trans (val_main_cst_0_apply (F := Ideal) _)).trans
    (Ideal.ofBits_def (φ := .f32) 0xFF800000#32)

/-- The start of the sum is zero. -/
theorem cst1_zero (i : S_.Idx) : val_main_cst_1 (F := Ideal) i = 0 :=
  (val_main_cst_1_apply (F := Ideal) i).trans ((Ideal.ofBits_def (φ := .f32) 0x00000000#32).trans Ideal.ofBits_zero_f32)

/-- The row maximum is the fold of max from −∞: taking the larger of −∞ and it changes nothing, the fold being at
    least its start. -/
theorem rowMax_at (s : A3) (a : Fin 8) (i : Fin 1024) : rowMax s (ix2 a i) = rmax (cur3 s a i) := by
  have hR : (⟨3, ![8, 1024, 1024]⟩ : Shape).Reduces [2] ⟨2, ![8, 1024]⟩ := by decide
  have h1 := Cert.Lib.LastAxis.hostReduce_last (FloatOps.maximumf (F := Ideal) (φ := .f32))
    reducesTo_S8x1024x1024_S8x1024_d2 hR s (val_main_cst (F := Ideal)) h_S_ a i
  rw [cst_negInf] at h1
  unfold rowMax
  rw [vmax_at, h1, v34_negInf, fold_maxf, max_fold_self]
  exact (rmax_eq _).symm

theorem rowExp_at (s : A3) (a : Fin 8) (i j : Fin 1024) : rowExp s (ix3 a i j) = expo (cur3 s a i) j := by
  unfold rowExp
  rw [vexp_at, vsub_at, spread_at, rowMax_at]
  rfl

theorem rowSum_at (s : A3) (a : Fin 8) (i : Fin 1024) : rowSum s (ix2 a i) = ∑ j, expo (cur3 s a i) j := by
  have hR : (⟨3, ![8, 1024, 1024]⟩ : Shape).Reduces [2] ⟨2, ![8, 1024]⟩ := by decide
  unfold rowSum
  simp only [Host.reduceAdd, Ideal.hostReduceAdd_def]
  rw [Ideal.hostReduceAdd_single reducesTo_S8x1024x1024_S8x1024_d2 hR, cst1_zero, zero_add]
  refine Finset.sum_congr rfl fun k _ => ?_
  rw [Cert.Lib.LastAxis.lift_last hR a i k]
  exact rowExp_at s a i k

theorem rowSoft_at (s : A3) (a : Fin 8) (i j : Fin 1024) : rowSoft s (ix3 a i j) = soft (cur3 s a i) j := by
  unfold rowSoft
  rw [vdiv_at, spread_at, rowSum_at, rowExp_at]
  rfl

/-- The whole block is Σ_j soft(s(b, i, ·))_j · v(b, j, e). -/
theorem rowAtt_arr (s v : A3) : rowAtt s v = arr3 (att (cur3 s) (cur3 v)) := by
  refine ext3 fun a i e => ?_
  unfold rowAtt
  rw [pv_at]
  show _ = ∑ j, soft (cur3 s a i) j * v (ix3 a j e)
  exact Finset.sum_congr rfl fun j _ => by rw [rowSoft_at]

/-! ## Stages over arrays already known as functions of coordinates -/

theorem cur3_arr3 {A B C : Nat} (f : Fin A → Fin B → Fin C → EReal) : cur3 (arr3 f) = f := rfl

theorem lin_of {y : A3} {f : T3} (hy : y = arr3 f) (W : A2) :
    Host.dotGeneral (F := Ideal) dot_S8x1024x1024_S1024x1024_S8x1024x1024_2_1_01_0_n_n none y W = arr3 (lin f (cur2 W)) := by
  subst hy
  exact lin_arr _ _

theorem score_of {qa ka qb kb : A3} {fqa fka fqb fkb : T3} (h1 : qa = arr3 fqa) (h2 : ka = arr3 fka)
    (h3 : qb = arr3 fqb) (h4 : kb = arr3 fkb) :
    addf (F := Ideal) (Host.dotGeneral (F := Ideal) dot_S8x1024x1024_S8x1024x1024_S8x1024x1024_2_2_1_1_0_0 none qa ka)
        (Host.dotGeneral (F := Ideal) dot_S8x1024x1024_S8x1024x1024_S8x1024x1024_2_2_1_1_0_0 none qb kb)
      = arr3 (score2 fqa fka fqb fkb) := by
  subst h1 h2 h3 h4
  exact score_arr _ _ _ _

theorem att_of {s v : A3} {fs fv : T3} (hs : s = arr3 fs) (hv : v = arr3 fv) : rowAtt s v = arr3 (att fs fv) := by
  subst hs hv
  exact rowAtt_arr _ _

/-! ## Six arrays side by side along the last axis -/

/-- The six pieces as the list the joining operation takes. -/
abbrev pieceList (o : Fin 6 → T3) : List ((s : Shape) × (s.Idx → EReal)) :=
  [⟨S8x1024x1024, arr3 (o ⟨0, by decide⟩)⟩, ⟨S8x1024x1024, arr3 (o ⟨1, by decide⟩)⟩, ⟨S8x1024x1024, arr3 (o ⟨2, by decide⟩)⟩,
    ⟨S8x1024x1024, arr3 (o ⟨3, by decide⟩)⟩, ⟨S8x1024x1024, arr3 (o ⟨4, by decide⟩)⟩, ⟨S8x1024x1024, arr3 (o ⟨5, by decide⟩)⟩]

theorem cat_arr (o : Fin 6 → T3) (P0 P1 P2 P3 P4 P5 : A3)
    (h0 : P0 = arr3 (o ⟨0, by decide⟩)) (h1 : P1 = arr3 (o ⟨1, by decide⟩)) (h2 : P2 = arr3 (o ⟨2, by decide⟩))
    (h3 : P3 = arr3 (o ⟨3, by decide⟩)) (h4 : P4 = arr3 (o ⟨4, by decide⟩)) (h5 : P5 = arr3 (o ⟨5, by decide⟩)) :
    concatenate S8x1024x6144 2 [⟨S8x1024x1024, P0⟩, ⟨S8x1024x1024, P1⟩, ⟨S8x1024x1024, P2⟩, ⟨S8x1024x1024, P3⟩,
        ⟨S8x1024x1024, P4⟩, ⟨S8x1024x1024, P5⟩]
        concatenates_S8x1024x1024_S8x1024x1024_S8x1024x1024_S8x1024x1024_S8x1024x1024_S8x1024x1024_S8x1024x6144_d2
      = arr3 (cat6 o) := by
  subst h0 h1 h2 h3 h4 h5
  funext j
  obtain ⟨p, e, hc⟩ := col_split (j 2)
  show _ = cat6 o (j 0) (j 1) (j 2)
  rw [cat6_at o (j 0) (j 1) (j 2) p e hc]
  have hi : ∀ b : Fin S8x1024x1024.rank, b.cast (rfl : S8x1024x1024.rank = S8x1024x6144.rank) ≠ (2 : Fin S8x1024x6144.rank) →
      ((ix3 (j 0) (j 1) e : S8x1024x1024.Idx) b).val = (j (b.cast rfl)).val := fun b hb => by
    match b with
    | ⟨0, _⟩ => rfl
    | ⟨1, _⟩ => rfl
    | ⟨2, _⟩ => exact absurd rfl hb
  match p with
  | ⟨0, _⟩ =>
    have hc' : (j 2).val = 1024 * 0 + e.val := hc
    exact concatenate_apply_piece (α := EReal) (t := S8x1024x6144) 2 (pieceList o)
      concatenates_S8x1024x1024_S8x1024x1024_S8x1024x1024_S8x1024x1024_S8x1024x1024_S8x1024x1024_S8x1024x6144_d2 j 0 (by show 0 < 6; decide)
      S8x1024x1024 (arr3 (o ⟨0, by decide⟩)) rfl rfl 0 rfl (ix3 (j 0) (j 1) e) hi
      (by show 0 + e.val = (j 2).val; omega)
  | ⟨1, _⟩ =>
    have hc' : (j 2).val = 1024 * 1 + e.val := hc
    exact concatenate_apply_piece (α := EReal) (t := S8x1024x6144) 2 (pieceList o)
      concatenates_S8x1024x1024_S8x1024x1024_S8x1024x1024_S8x1024x1024_S8x1024x1024_S8x1024x1024_S8x1024x6144_d2 j 1 (by show 1 < 6; decide)
      S8x1024x1024 (arr3 (o ⟨1, by decide⟩)) rfl rfl 1024 rfl (ix3 (j 0) (j 1) e) hi
      (by show 1024 + e.val = (j 2).val; omega)
  | ⟨2, _⟩ =>
    have hc' : (j 2).val = 1024 * 2 + e.val := hc
    exact concatenate_apply_piece (α := EReal) (t := S8x1024x6144) 2 (pieceList o)
      concatenates_S8x1024x1024_S8x1024x1024_S8x1024x1024_S8x1024x1024_S8x1024x1024_S8x1024x1024_S8x1024x6144_d2 j 2 (by show 2 < 6; decide)
      S8x1024x1024 (arr3 (o ⟨2, by decide⟩)) rfl rfl 2048 rfl (ix3 (j 0) (j 1) e) hi
      (by show 2048 + e.val = (j 2).val; omega)
  | ⟨3, _⟩ =>
    have hc' : (j 2).val = 1024 * 3 + e.val := hc
    exact concatenate_apply_piece (α := EReal) (t := S8x1024x6144) 2 (pieceList o)
      concatenates_S8x1024x1024_S8x1024x1024_S8x1024x1024_S8x1024x1024_S8x1024x1024_S8x1024x1024_S8x1024x6144_d2 j 3 (by show 3 < 6; decide)
      S8x1024x1024 (arr3 (o ⟨3, by decide⟩)) rfl rfl 3072 rfl (ix3 (j 0) (j 1) e) hi
      (by show 3072 + e.val = (j 2).val; omega)
  | ⟨4, _⟩ =>
    have hc' : (j 2).val = 1024 * 4 + e.val := hc
    exact concatenate_apply_piece (α := EReal) (t := S8x1024x6144) 2 (pieceList o)
      concatenates_S8x1024x1024_S8x1024x1024_S8x1024x1024_S8x1024x1024_S8x1024x1024_S8x1024x1024_S8x1024x6144_d2 j 4 (by show 4 < 6; decide)
      S8x1024x1024 (arr3 (o ⟨4, by decide⟩)) rfl rfl 4096 rfl (ix3 (j 0) (j 1) e) hi
      (by show 4096 + e.val = (j 2).val; omega)
  | ⟨5, _⟩ =>
    have hc' : (j 2).val = 1024 * 5 + e.val := hc
    exact concatenate_apply_piece (α := EReal) (t := S8x1024x6144) 2 (pieceList o)
      concatenates_S8x1024x1024_S8x1024x1024_S8x1024x1024_S8x1024x1024_S8x1024x1024_S8x1024x1024_S8x1024x6144_d2 j 5 (by show 5 < 6; decide)
      S8x1024x1024 (arr3 (o ⟨5, by decide⟩)) rfl rfl 5120 rfl (ix3 (j 0) (j 1) e) hi
      (by show 5120 + e.val = (j 2).val; omega)

/-! ## The whole reference -/

section Whole
variable (x0 x1 x2 : A3) (x3 x4 x5 x6 x7 x8 x9 x10 x11 x12 x13 x14 : A2) (x15 x16 x17 : A1)

/-- The three feature arrays. -/
theorem f1_eq : val_main_v4 (F := Ideal) x0 x3 x15 = arr3 (pre (cur3 x0) (cur2 x3) (cur1 x15)) := pre_arr x0 x3 x15
theorem f2_eq : val_main_v9 (F := Ideal) x1 x4 x16 = arr3 (pre (cur3 x1) (cur2 x4) (cur1 x16)) := pre_arr x1 x4 x16
theorem f3_eq : val_main_v14 (F := Ideal) x2 x5 x17 = arr3 (pre (cur3 x2) (cur2 x5) (cur1 x17)) := pre_arr x2 x5 x17

/-- The nine projected arrays. -/
theorem q1_eq : val_main_v15 (F := Ideal) x0 x3 x6 x15 = arr3 (lin (pre (cur3 x0) (cur2 x3) (cur1 x15)) (cur2 x6)) :=
  lin_of (f1_eq x0 x3 x15) x6
theorem k1_eq : val_main_v16 (F := Ideal) x0 x3 x7 x15 = arr3 (lin (pre (cur3 x0) (cur2 x3) (cur1 x15)) (cur2 x7)) :=
  lin_of (f1_eq x0 x3 x15) x7
theorem v1_eq : val_main_v17 (F := Ideal) x0 x3 x8 x15 = arr3 (lin (pre (cur3 x0) (cur2 x3) (cur1 x15)) (cur2 x8)) :=
  lin_of (f1_eq x0 x3 x15) x8
theorem q2_eq : val_main_v18 (F := Ideal) x1 x4 x9 x16 = arr3 (lin (pre (cur3 x1) (cur2 x4) (cur1 x16)) (cur2 x9)) :=
  lin_of (f2_eq x1 x4 x16) x9
theorem k2_eq : val_main_v19 (F := Ideal) x1 x4 x10 x16 = arr3 (lin (pre (cur3 x1) (cur2 x4) (cur1 x16)) (cur2 x10)) :=
  lin_of (f2_eq x1 x4 x16) x10
theorem v2_eq : val_main_v20 (F := Ideal) x1 x4 x11 x16 = arr3 (lin (pre (cur3 x1) (cur2 x4) (cur1 x16)) (cur2 x11)) :=
  lin_of (f2_eq x1 x4 x16) x11
theorem q3_eq : val_main_v21 (F := Ideal) x2 x5 x12 x17 = arr3 (lin (pre (cur3 x2) (cur2 x5) (cur1 x17)) (cur2 x12)) :=
  lin_of (f3_eq x2 x5 x17) x12
theorem k3_eq : val_main_v22 (F := Ideal) x2 x5 x13 x17 = arr3 (lin (pre (cur3 x2) (cur2 x5) (cur1 x17)) (cur2 x13)) :=
  lin_of (f3_eq x2 x5 x17) x13
theorem v3_eq : val_main_v23 (F := Ideal) x2 x5 x14 x17 = arr3 (lin (pre (cur3 x2) (cur2 x5) (cur1 x17)) (cur2 x14)) :=
  lin_of (f3_eq x2 x5 x17) x14

/-- The three score arrays. -/
theorem s1_eq : val_main_v26 (F := Ideal) x0 x1 x2 x3 x4 x5 x7 x9 x12 x15 x16 x17
    = arr3 (score2 (lin (pre (cur3 x1) (cur2 x4) (cur1 x16)) (cur2 x9)) (lin (pre (cur3 x0) (cur2 x3) (cur1 x15)) (cur2 x7))
        (lin (pre (cur3 x2) (cur2 x5) (cur1 x17)) (cur2 x12)) (lin (pre (cur3 x0) (cur2 x3) (cur1 x15)) (cur2 x7))) :=
  score_of (q2_eq x1 x4 x9 x16) (k1_eq x0 x3 x7 x15) (q3_eq x2 x5 x12 x17) (k1_eq x0 x3 x7 x15)
theorem s2_eq : val_main_v29 (F := Ideal) x0 x1 x2 x3 x4 x5 x6 x10 x12 x13 x15 x16 x17
    = arr3 (score2 (lin (pre (cur3 x0) (cur2 x3) (cur1 x15)) (cur2 x6)) (lin (pre (cur3 x2) (cur2 x5) (cur1 x17)) (cur2 x13))
        (lin (pre (cur3 x2) (cur2 x5) (cur1 x17)) (cur2 x12)) (lin (pre (cur3 x1) (cur2 x4) (cur1 x16)) (cur2 x10))) :=
  score_of (q1_eq x0 x3 x6 x15) (k3_eq x2 x5 x13 x17) (q3_eq x2 x5 x12 x17) (k2_eq x1 x4 x10 x16)
theorem s3_eq : val_main_v32 (F := Ideal) x0 x1 x2 x3 x4 x5 x6 x9 x13 x15 x16 x17
    = arr3 (score2 (lin (pre (cur3 x0) (cur2 x3) (cur1 x15)) (cur2 x6)) (lin (pre (cur3 x2) (cur2 x5) (cur1 x17)) (cur2 x13))
        (lin (pre (cur3 x1) (cur2 x4) (cur1 x16)) (cur2 x9)) (lin (pre (cur3 x2) (cur2 x5) (cur1 x17)) (cur2 x13))) :=
  score_of (q1_eq x0 x3 x6 x15) (k3_eq x2 x5 x13 x17) (q2_eq x1 x4 x9 x16) (k3_eq x2 x5 x13 x17)

/-- The three blocks: each is the program's text for a row normalised and multiplied into the values. -/
theorem o1_block : val_main_v44 (F := Ideal) x0 x1 x2 x3 x4 x5 x7 x8 x9 x12 x15 x16 x17
    = rowAtt (val_main_v26 (F := Ideal) x0 x1 x2 x3 x4 x5 x7 x9 x12 x15 x16 x17) (val_main_v17 (F := Ideal) x0 x3 x8 x15) := rfl
theorem o2_block : val_main_v56 (F := Ideal) x0 x1 x2 x3 x4 x5 x6 x10 x11 x12 x13 x15 x16 x17
    = rowAtt (val_main_v29 (F := Ideal) x0 x1 x2 x3 x4 x5 x6 x10 x12 x13 x15 x16 x17) (val_main_v20 (F := Ideal) x1 x4 x11 x16) := rfl
theorem o3_block : val_main_v68 (F := Ideal) x0 x1 x2 x3 x4 x5 x6 x9 x13 x14 x15 x16 x17
    = rowAtt (val_main_v32 (F := Ideal) x0 x1 x2 x3 x4 x5 x6 x9 x13 x15 x16 x17) (val_main_v23 (F := Ideal) x2 x5 x14 x17) := rfl

/-- The reference's result is the specification's array (arguments typed as arrays of extended reals). -/
theorem ref_eq_arrays :
    val_main_v69 (F := Ideal) x0 x1 x2 x3 x4 x5 x6 x7 x8 x9 x10 x11 x12 x13 x14 x15 x16 x17
      = arr3 (wholeR (cur3 x0) (cur3 x1) (cur3 x2) (cur2 x3) (cur2 x4) (cur2 x5) (cur2 x6) (cur2 x7) (cur2 x8) (cur2 x9)
          (cur2 x10) (cur2 x11) (cur2 x12) (cur2 x13) (cur2 x14) (cur1 x15) (cur1 x16) (cur1 x17)) := by
  unfold val_main_v69 wholeR resultR
  refine cat_arr _ _ _ _ _ _ _ ?_ ?_ ?_ ?_ ?_ ?_
  · exact (o1_block x0 x1 x2 x3 x4 x5 x7 x8 x9 x12 x15 x16 x17).trans
      (att_of (s1_eq x0 x1 x2 x3 x4 x5 x7 x9 x12 x15 x16 x17) (v1_eq x0 x3 x8 x15))
  · exact (o2_block x0 x1 x2 x3 x4 x5 x6 x10 x11 x12 x13 x15 x16 x17).trans
      (att_of (s2_eq x0 x1 x2 x3 x4 x5 x6 x10 x12 x13 x15 x16 x17) (v2_eq x1 x4 x11 x16))
  · exact (o3_block x0 x1 x2 x3 x4 x5 x6 x9 x13 x14 x15 x16 x17).trans
      (att_of (s3_eq x0 x1 x2 x3 x4 x5 x6 x9 x13 x15 x16 x17) (v3_eq x2 x5 x14 x17))
  · exact f1_eq x0 x3 x15
  · exact f2_eq x1 x4 x16
  · exact f3_eq x2 x5 x17

end Whole

/-- The reference's result is the specification's array, at the argument types of the reference program. -/
theorem ref_eq (x0 x1 x2 : (⟨S8x1024x1024, .f32⟩ : BufTy).Contents (Elt Ideal))
    (x3 x4 x5 x6 x7 x8 x9 x10 x11 x12 x13 x14 : (⟨S1024x1024, .f32⟩ : BufTy).Contents (Elt Ideal))
    (x15 x16 x17 : (⟨S1024, .f32⟩ : BufTy).Contents (Elt Ideal)) :
    Cert.ReferenceIdeal.ReadP.val_main_v69 (F := Ideal) x0 x1 x2 x3 x4 x5 x6 x7 x8 x9 x10 x11 x12 x13 x14 x15 x16 x17
      = Cert.Spec.arr3 (Cert.Spec.wholeR (Cert.Spec.cur3 x0) (Cert.Spec.cur3 x1) (Cert.Spec.cur3 x2) (Cert.Spec.cur2 x3)
          (Cert.Spec.cur2 x4) (Cert.Spec.cur2 x5) (Cert.Spec.cur2 x6) (Cert.Spec.cur2 x7) (Cert.Spec.cur2 x8) (Cert.Spec.cur2 x9)
          (Cert.Spec.cur2 x10) (Cert.Spec.cur2 x11) (Cert.Spec.cur2 x12) (Cert.Spec.cur2 x13) (Cert.Spec.cur2 x14)
          (Cert.Spec.cur1 x15) (Cert.Spec.cur1 x16) (Cert.Spec.cur1 x17)) :=
  ref_eq_arrays x0 x1 x2 x3 x4 x5 x6 x7 x8 x9 x10 x11 x12 x13 x14 x15 x16 x17

end Cert.RefValue

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.FiniteArgs.lean ====
/-
  The finiteness precondition read back: if the test  all(|x| < +inf)  of every argument array, joined by "and", is 1,
  then every entry of every argument array is a real number.
-/
import proofs.«131838_j22488448762091_2_alg».proof.Pre_finite_inputs
import proofs.«131838_j22488448762091_2_alg».proof.Proof.LibFinite
import proofs.«131838_j22488448762091_2_alg».proof.Proof.Spec
import Idealize.ShloMosaic.Lib.Affine

noncomputable section

namespace Cert.FiniteArgs

open Idealize.ShloMosaic Idealize.ShloMosaic.ValueIdx Cert.Pre_finite_inputs Cert.Spec

variable [hF : Cert.Pre_finite_inputs.Facts]

/-- The joined test is 1 only if each of the eighteen tests is, and each test being 1 makes its array real. -/
theorem args_real (a0 a1 a2 : FVec Ideal S8x1024x1024 .f32)
    (a3 a4 a5 a6 a7 a8 a9 a10 a11 a12 a13 a14 : FVec Ideal S1024x1024 .f32) (a15 a16 a17 : FVec Ideal S1024 .f32)
    (h : Cert.Pre_finite_inputs.fn (F := Ideal) a0 a1 a2 a3 a4 a5 a6 a7 a8 a9 a10 a11 a12 a13 a14 a15 a16 a17 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i))
      ∧ (∀ i, IsReal (a14 i)) ∧ (∀ i, IsReal (a15 i)) ∧ (∀ i, IsReal (a16 i)) ∧ (∀ i, IsReal (a17 i)) := by
  have h0 := congrFun h ix0
  dsimp only [fn, fn_part1, fn_part2, fn_part3, fn_part4, fn_part5] at h0
  simp only [andi, IntOp.andi_eq_one] at h0
  obtain ⟨⟨⟨⟨⟨⟨⟨⟨⟨⟨⟨⟨⟨⟨⟨⟨⟨r0, r1⟩, r2⟩, r3⟩, r4⟩, r5⟩, r6⟩, r7⟩, r8⟩, r9⟩, r10⟩, r11⟩, r12⟩, r13⟩, r14⟩, r15⟩, r16⟩, r17⟩ := h0
  exact ⟨Cert.LibFinite.real_of_all a0 _ _ _ ix0 r0, Cert.LibFinite.real_of_all a1 _ _ _ ix0 r1,
    Cert.LibFinite.real_of_all a2 _ _ _ ix0 r2, Cert.LibFinite.real_of_all a3 _ _ _ ix0 r3,
    Cert.LibFinite.real_of_all a4 _ _ _ ix0 r4, Cert.LibFinite.real_of_all a5 _ _ _ ix0 r5,
    Cert.LibFinite.real_of_all a6 _ _ _ ix0 r6, Cert.LibFinite.real_of_all a7 _ _ _ ix0 r7,
    Cert.LibFinite.real_of_all a8 _ _ _ ix0 r8, Cert.LibFinite.real_of_all a9 _ _ _ ix0 r9,
    Cert.LibFinite.real_of_all a10 _ _ _ ix0 r10, Cert.LibFinite.real_of_all a11 _ _ _ ix0 r11,
    Cert.LibFinite.real_of_all a12 _ _ _ ix0 r12, Cert.LibFinite.real_of_all a13 _ _ _ ix0 r13,
    Cert.LibFinite.real_of_all a14 _ _ _ ix0 r14, Cert.LibFinite.real_of_all a15 _ _ _ ix0 r15,
    Cert.LibFinite.real_of_all a16 _ _ _ ix0 r16, Cert.LibFinite.real_of_all a17 _ _ _ ix0 r17⟩

end Cert.FiniteArgs

end
-- ==== Proof.lean ====
/-
  Cross-modal attention over three modalities: the Pallas program (three projection kernels and one attention kernel) against
  the plain jnp program, at the exact values.

  Both programs compute, per modality i, f_i = max(x_i·Wp_iᵀ + bp_i, 0) and q_i, k_i, v_i = f_i·Wq_iᵀ, f_i·Wk_iᵀ, f_i·Wv_iᵀ, three
  score arrays that are each a sum of two products q·kᵀ, their row-wise normalisation exp(s − max s) / Σ exp(s − max s), the
  products with v1, v2, v3, and lay the three results and f1, f2, f3 side by side. The one difference is the first score array:
  the reference adds q2·k1ᵀ and q3·k1ᵀ, the kernel multiplies (q2 + q3) with k1ᵀ. On the extended reals the two agree when
  q2, q3 and k1 have real entries (distributivity fails at ±∞), and they do: every input entry is finite by the
  precondition, and sums, products and maxima of reals are real.

  The kernel program's result array is read off its run: the attention region's 32 blocks cover the result and each is the
  block of the whole-array function of the twelve arrays the region finds; those are the projection regions' outputs, each
  again one function of its region's inputs, which the host's transposes and casts make of the arguments. The reference's
  result is read operation by operation. The format changes (f32 to bf16 and back) are the identity at the exact values.
-/
import proofs.«131838_j22488448762091_2_alg».proof.Defs
import proofs.«131838_j22488448762091_2_alg».proof.Proof.Gen.Kernel
import proofs.«131838_j22488448762091_2_alg».proof.Proof.Gen.Kernel.Frame
import proofs.«131838_j22488448762091_2_alg».proof.Proof.Gen.KernelIdeal
import proofs.«131838_j22488448762091_2_alg».proof.Proof.Gen.KernelIdeal.Frame
import proofs.«131838_j22488448762091_2_alg».proof.Proof.Gen.ReferenceIdeal
import proofs.«131838_j22488448762091_2_alg».proof.Proof.Gen.Pre_finite_inputs
import proofs.«131838_j22488448762091_2_alg».proof.Proof.Spec
import proofs.«131838_j22488448762091_2_alg».proof.Proof.KRun
import proofs.«131838_j22488448762091_2_alg».proof.Proof.KChain
import proofs.«131838_j22488448762091_2_alg».proof.Proof.RefRunThm
import proofs.«131838_j22488448762091_2_alg».proof.Proof.RefRead
import proofs.«131838_j22488448762091_2_alg».proof.Proof.RefValue
import proofs.«131838_j22488448762091_2_alg».proof.Proof.FiniteArgs
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two programs end with one result: the kernel's array is the whole-array function with the first scores formed from the
    added queries, the reference's the same with the two products added, and for finite inputs those agree. -/
theorem algebraic : Cert.algebraic_KernelIdeal_ReferenceIdeal := by
  intro m ρ m' ρ' hpre hagree
  refine ⟨fun c => arr3 (wholeR (Cert.KChain.x1 m c) (Cert.KChain.x2 m c) (Cert.KChain.x3 m c) (Cert.KChain.Wp1 m c) (Cert.KChain.Wp2 m c) (Cert.KChain.Wp3 m c) (Cert.KChain.Wq1 m c) (Cert.KChain.Wk1 m c) (Cert.KChain.Wv1 m c) (Cert.KChain.Wq2 m c) (Cert.KChain.Wk2 m c) (Cert.KChain.Wv2 m c) (Cert.KChain.Wq3 m c) (Cert.KChain.Wk3 m c) (Cert.KChain.Wv3 m c) (Cert.KChain.b1 m c) (Cert.KChain.b2 m c) (Cert.KChain.b3 m c)), ?_, ?_⟩
  · refine (θ_run Cert.KernelIdeal.defs _ _).mono (fun r h c => ⟨(h c).1.trans ?_, (h c).2⟩)
      (Cert.KRun.run_result (F := Ideal) m ρ)
    rw [Cert.KChain.kernel_value m ρ c]
    obtain ⟨h0, h1, h2, h3, h4, h5, _, h7, _, h9, _, _, h12, _, _, h15, h16, h17⟩ := Cert.FiniteArgs.args_real _ _ _ _ _ _ _ _ _ _ _ _ _ _ _ _ _ _ (hpre c)
    exact congrArg arr3 (wholeK_eq_wholeR _ _ _ _ _ _ _ _ _ _ _ _ _ _ _ _ _ _
      (fun b t d => h0 (ix3 b t d)) (fun b t d => h1 (ix3 b t d)) (fun b t d => h2 (ix3 b t d))
      (fun e d => h3 (ix2 e d)) (fun e d => h4 (ix2 e d)) (fun e d => h5 (ix2 e d))
      (fun e d => h7 (ix2 e d)) (fun e d => h9 (ix2 e d)) (fun e d => h12 (ix2 e d))
      (fun e => h15 (ix1 e)) (fun e => h16 (ix1 e)) (fun e => h17 (ix1 e)))
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15, e16, e17⟩ := hagree c
    rw [Cert.ReferenceIdeal.ReadP.val_main_v69_eq, Cert.RefValue.ref_eq, e0, e1, e2, e3, e4, e5, e6, e7, e8, e9, e10, e11, e12, e13,
      e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
